-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S160x160 : Shape := ⟨2, ![160, 160]⟩
abbrev S160 : Shape := ⟨1, ![160]⟩
abbrev S160x1 : Shape := ⟨2, ![160, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S160x1 : S_.BroadcastsInDim S160x1 (![] : Fin 0 → Fin S160x1.rank)
  reducesTo_S160x1_S_d0_1 : S160x1.ReducesTo [0, 1] S_

variable [Facts]

def fn_part5 {F : FTy → Type} [FloatOps F] (main_arg18 : FVec F S160x1 .f32) (main_v83 : IVec S_ 1) (main_v84 : FVec F S160 .f32) (main_cst_32 : FVec F S_ .f32) : IVec S_ 1 :=
  let main_v85 : FVec F S160 .f32 := broadcastInDim S160 ![] bcast_S_S160 main_cst_32
  let main_v86 : IVec S160 1 := cmpf .olt main_v84 main_v85
  let main_c_33 : IVec S_ 1 := constantI S_ 1 1#1
  let main_v87 : IVec S_ 1 := (fun x v => Host.reduce IntOp.andi x v reducesTo_S160_S_d0 h_S_) main_v86 main_c_33
  let main_v88 : IVec S_ 1 := andi main_v83 main_v87
  let main_v89 : FVec F S160x1 .f32 := Host.absf main_arg18
  let main_cst_34 : FVec F S_ .f32 := constant S_ .f32 0x7F800000#32
  let main_v90 : FVec F S160x1 .f32 := broadcastInDim S160x1 ![] bcast_S_S160x1 main_cst_34
  let main_v91 : IVec S160x1 1 := cmpf .olt main_v89 main_v90
  let main_c_35 : IVec S_ 1 := constantI S_ 1 1#1
  let main_v92 : IVec S_ 1 := (fun x v => Host.reduce IntOp.andi x v reducesTo_S160x1_S_d0_1 h_S_) main_v91 main_c_35
  let main_v93 : IVec S_ 1 := andi main_v88 main_v92
  main_v93

def fn_part4 {F : FTy → Type} [FloatOps F] (main_arg14 : FVec F S32x32 .f32) (main_arg15 : FVec F S32 .f32) (main_arg16 : FVec F S160x160 .f32) (main_arg17 : FVec F S160 .f32) (main_arg18 : FVec F S160x1 .f32) (main_v63 : IVec S_ 1) (main_v67 : IVec S_ 1) : IVec S_ 1 :=
  let main_v68 : IVec S_ 1 := andi main_v63 main_v67
  let main_v69 : FVec F S32x32 .f32 := Host.absf main_arg14
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S160x160 .f32 := Host.absf main_arg16
  let main_cst_30 : FVec F S_ .f32 := constant S_ .f32 0x7F800000#32
  let main_v80 : FVec F S160x160 .f32 := broadcastInDim S160x160 ![] bcast_S_S160x160 main_cst_30
  let main_v81 : IVec S160x160 1 := cmpf .olt main_v79 main_v80
  let main_c_31 : IVec S_ 1 := constantI S_ 1 1#1
  let main_v82 : IVec S_ 1 := (fun x v => Host.reduce IntOp.andi x v reducesTo_S160x160_S_d0_1 h_S_) main_v81 main_c_31
  let main_v83 : IVec S_ 1 := andi main_v78 main_v82
  let main_v84 : FVec F S160 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64 .f32) (main_arg12 : FVec F S64x32 .f32) (main_arg13 : FVec F S32 .f32) (main_arg14 : FVec F S32x32 .f32) (main_arg15 : FVec F S32 .f32) (main_arg16 : FVec F S160x160 .f32) (main_arg17 : FVec F S160 .f32) (main_arg18 : FVec F S160x1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg12
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_arg17 main_arg18 main_v63 main_v67

def fn_part2 {F : FTy → Type} [FloatOps F] (main_arg7 : FVec F S32 .f32) (main_arg8 : FVec F S32x32 .f32) (main_arg9 : FVec F S32 .f32) (main_arg10 : FVec F S128x64 .f32) (main_arg11 : FVec F S64 .f32) (main_arg12 : FVec F S64x32 .f32) (main_arg13 : FVec F S32 .f32) (main_arg14 : FVec F S32x32 .f32) (main_arg15 : FVec F S32 .f32) (main_arg16 : FVec F S160x160 .f32) (main_arg17 : FVec F S160 .f32) (main_arg18 : FVec F S160x1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_arg16 main_arg17 main_arg18 main_v48 main_v49 main_v50

def fn_part1 {F : FTy → Type} [FloatOps F] (main_arg4 : FVec F S128x64 .f32) (main_arg5 : FVec F S64 .f32) (main_arg6 : FVec F S64x32 .f32) (main_arg7 : FVec F S32 .f32) (main_arg8 : FVec F S32x32 .f32) (main_arg9 : FVec F S32 .f32) (main_arg10 : FVec F S128x64 .f32) (main_arg11 : FVec F S64 .f32) (main_arg12 : FVec F S64x32 .f32) (main_arg13 : FVec F S32 .f32) (main_arg14 : FVec F S32x32 .f32) (main_arg15 : FVec F S32 .f32) (main_arg16 : FVec F S160x160 .f32) (main_arg17 : FVec F S160 .f32) (main_arg18 : FVec F S160x1 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S10000x128 .f32) (main_arg1 : FVec F S10000x10000 .f32) (main_arg2 : FVec F S10000x128 .f32) (main_arg3 : FVec F S10000x10000 .f32) (main_arg4 : FVec F S128x64 .f32) (main_arg5 : FVec F S64 .f32) (main_arg6 : FVec F S64x32 .f32) (main_arg7 : FVec F S32 .f32) (main_arg8 : FVec F S32x32 .f32) (main_arg9 : FVec F S32 .f32) (main_arg10 : FVec F S128x64 .f32) (main_arg11 : FVec F S64 .f32) (main_arg12 : FVec F S64x32 .f32) (main_arg13 : FVec F S32 .f32) (main_arg14 : FVec F S32x32 .f32) (main_arg15 : FVec F S32 .f32) (main_arg16 : FVec F S160x160 .f32) (main_arg17 : FVec F S160 .f32) (main_arg18 : FVec F S160x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S160x160 : Shape := ⟨2, ![160, 160]⟩
abbrev S160 : Shape := ⟨1, ![160]⟩
abbrev S160x1 : Shape := ⟨2, ![160, 1]⟩
abbrev S10000x64 : Shape := ⟨2, ![10000, 64]⟩
abbrev S400x128 : Shape := ⟨2, ![400, 128]⟩
abbrev S400x64 : Shape := ⟨2, ![400, 64]⟩
abbrev S1x64 : Shape := ⟨2, ![1, 64]⟩
abbrev S10000x32 : Shape := ⟨2, ![10000, 32]⟩
abbrev S400x10000 : Shape := ⟨2, ![400, 10000]⟩
abbrev S400x32 : Shape := ⟨2, ![400, 32]⟩
abbrev S1x32 : Shape := ⟨2, ![1, 32]⟩
abbrev S1x160 : Shape := ⟨2, ![1, 160]⟩
abbrev S10000x2 : Shape := ⟨2, ![10000, 2]⟩
abbrev S400x2 : Shape := ⟨2, ![400, 2]⟩
abbrev S32x160 : Shape := ⟨2, ![32, 160]⟩
abbrev S128x160 : Shape := ⟨2, ![128, 160]⟩
abbrev S400x160 : Shape := ⟨2, ![400, 160]⟩
abbrev S400x1 : Shape := ⟨2, ![400, 1]⟩

abbrev nBuf : Space → Nat
  | .hbm => 36
  | .vmem => 65
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x10000, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S160x160, .f32⟩
  | .hbm, ⟨17, _⟩ => ⟨S160, .f32⟩
  | .hbm, ⟨18, _⟩ => ⟨S160x1, .f32⟩
  | .hbm, ⟨19, _⟩ => ⟨S10000x64, .f32⟩
  | .hbm, ⟨20, _⟩ => ⟨S1x64, .f32⟩
  | .hbm, ⟨21, _⟩ => ⟨S10000x32, .f32⟩
  | .hbm, ⟨22, _⟩ => ⟨S1x32, .f32⟩
  | .hbm, ⟨23, _⟩ => ⟨S10000x32, .f32⟩
  | .hbm, ⟨24, _⟩ => ⟨S1x32, .f32⟩
  | .hbm, ⟨25, _⟩ => ⟨S10000x32, .f32⟩
  | .hbm, ⟨26, _⟩ => ⟨S10000x64, .f32⟩
  | .hbm, ⟨27, _⟩ => ⟨S1x64, .f32⟩
  | .hbm, ⟨28, _⟩ => ⟨S10000x32, .f32⟩
  | .hbm, ⟨29, _⟩ => ⟨S1x32, .f32⟩
  | .hbm, ⟨30, _⟩ => ⟨S10000x32, .f32⟩
  | .hbm, ⟨31, _⟩ => ⟨S1x32, .f32⟩
  | .hbm, ⟨32, _⟩ => ⟨S10000x32, .f32⟩
  | .hbm, ⟨33, _⟩ => ⟨S1x160, .f32⟩
  | .hbm, ⟨34, _⟩ => ⟨S10000x32, .f32⟩
  | .hbm, ⟨35, _⟩ => ⟨S10000x2, .f32⟩
  | .local _ .vmem, ⟨0, _⟩ => ⟨S400x128, .f32⟩
  | .local _ .vmem, ⟨1, _⟩ => ⟨S400x128, .f32⟩
  | .local _ .vmem, ⟨2, _⟩ => ⟨S128x64, .f32⟩
  | .local _ .vmem, ⟨3, _⟩ => ⟨S400x64, .f32⟩
  | .local _ .vmem, ⟨4, _⟩ => ⟨S400x64, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S1x64, .f32⟩
  | .local _ .vmem, ⟨9, _⟩ => ⟨S64x32, .f32⟩
  | .local _ .vmem, ⟨10, _⟩ => ⟨S400x32, .f32⟩
  | .local _ .vmem, ⟨11, _⟩ => ⟨S400x32, .f32⟩
  | .local _ .vmem, ⟨12, _⟩ => ⟨S400x10000, .f32⟩
  | .local _ .vmem, ⟨13, _⟩ => ⟨S400x10000, .f32⟩
  | .local _ .vmem, ⟨14, _⟩ => ⟨S10000x32, .f32⟩
  | .local _ .vmem, ⟨15, _⟩ => ⟨S1x32, .f32⟩
  | .local _ .vmem, ⟨16, _⟩ => ⟨S32x32, .f32⟩
  | .local _ .vmem, ⟨17, _⟩ => ⟨S400x32, .f32⟩
  | .local _ .vmem, ⟨18, _⟩ => ⟨S400x32, .f32⟩
  | .local _ .vmem, ⟨19, _⟩ => ⟨S400x10000, .f32⟩
  | .local _ .vmem, ⟨20, _⟩ => ⟨S400x10000, .f32⟩
  | .local _ .vmem, ⟨21, _⟩ => ⟨S10000x32, .f32⟩
  | .local _ .vmem, ⟨22, _⟩ => ⟨S1x32, .f32⟩
  | .local _ .vmem, ⟨23, _⟩ => ⟨S400x32, .f32⟩
  | .local _ .vmem, ⟨24, _⟩ => ⟨S400x32, .f32⟩
  | .local _ .vmem, ⟨25, _⟩ => ⟨S400x128, .f32⟩
  | .local _ .vmem, ⟨26, _⟩ => ⟨S400x128, .f32⟩
  | .local _ .vmem, ⟨27, _⟩ => ⟨S128x64, .f32⟩
  | .local _ .vmem, ⟨28, _⟩ => ⟨S400x64, .f32⟩
  | .local _ .vmem, ⟨29, _⟩ => ⟨S400x64, .f32⟩
  | .local _ .vmem, ⟨30, _⟩ => ⟨S400x10000, .f32⟩
  | .local _ .vmem, ⟨31, _⟩ => ⟨S400x10000, .f32⟩
  | .local _ .vmem, ⟨32, _⟩ => ⟨S10000x64, .f32⟩
  | .local _ .vmem, ⟨33, _⟩ => ⟨S1x64, .f32⟩
  | .local _ .vmem, ⟨34, _⟩ => ⟨S64x32, .f32⟩
  | .local _ .vmem, ⟨35, _⟩ => ⟨S400x32, .f32⟩
  | .local _ .vmem, ⟨36, _⟩ => ⟨S400x32, .f32⟩
  | .local _ .vmem, ⟨37, _⟩ => ⟨S400x10000, .f32⟩
  | .local _ .vmem, ⟨38, _⟩ => ⟨S400x10000, .f32⟩
  | .local _ .vmem, ⟨39, _⟩ => ⟨S10000x32, .f32⟩
  | .local _ .vmem, ⟨40, _⟩ => ⟨S1x32, .f32⟩
  | .local _ .vmem, ⟨41, _⟩ => ⟨S32x32, .f32⟩
  | .local _ .vmem, ⟨42, _⟩ => ⟨S400x32, .f32⟩
  | .local _ .vmem, ⟨43, _⟩ => ⟨S400x32, .f32⟩
  | .local _ .vmem, ⟨44, _⟩ => ⟨S400x10000, .f32⟩
  | .local _ .vmem, ⟨45, _⟩ => ⟨S400x10000, .f32⟩
  | .local _ .vmem, ⟨46, _⟩ => ⟨S10000x32, .f32⟩
  | .local _ .vmem, ⟨47, _⟩ => ⟨S1x32, .f32⟩
  | .local _ .vmem, ⟨48, _⟩ => ⟨S400x32, .f32⟩
  | .local _ .vmem, ⟨49, _⟩ => ⟨S400x32, .f32⟩
  | .local _ .vmem, ⟨50, _⟩ => ⟨S400x32, .f32⟩
  | .local _ .vmem, ⟨51, _⟩ => ⟨S400x32, .f32⟩
  | .local _ .vmem, ⟨52, _⟩ => ⟨S400x128, .f32⟩
  | .local _ .vmem, ⟨53, _⟩ => ⟨S400x128, .f32⟩
  | .local _ .vmem, ⟨54, _⟩ => ⟨S400x32, .f32⟩
  | .local _ .vmem, ⟨55, _⟩ => ⟨S400x32, .f32⟩
  | .local _ .vmem, ⟨56, _⟩ => ⟨S400x128, .f32⟩
  | .local _ .vmem, ⟨57, _⟩ => ⟨S400x128, .f32⟩
  | .local _ .vmem, ⟨58, _⟩ => ⟨S160x160, .f32⟩
  | .local _ .vmem, ⟨59, _⟩ => ⟨S1x160, .f32⟩
  | .local _ .vmem, ⟨60, _⟩ => ⟨S160x1, .f32⟩
  | .local _ .vmem, ⟨61, _⟩ => ⟨S400x32, .f32⟩
  | .local _ .vmem, ⟨62, _⟩ => ⟨S400x32, .f32⟩
  | .local _ .vmem, ⟨63, _⟩ => ⟨S400x2, .f32⟩
  | .local _ .vmem, ⟨64, _⟩ => ⟨S400x2, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg4_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg4_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg3_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc8_stg3_0 : Ref sig .tc := ⟨.vmem, 56, rfl⟩
abbrev cc8_stg3_1 : Ref sig .tc := ⟨.vmem, 57, rfl⟩
abbrev cc8_stg4_0 : Ref sig .tc := ⟨.vmem, 58, rfl⟩
abbrev cc8_stg5_0 : Ref sig .tc := ⟨.vmem, 59, rfl⟩
abbrev cc8_stg6_0 : Ref sig .tc := ⟨.vmem, 60, rfl⟩
abbrev cc8_stg7_0 : Ref sig .tc := ⟨.vmem, 61, rfl⟩
abbrev cc8_stg7_1 : Ref sig .tc := ⟨.vmem, 62, rfl⟩
abbrev cc8_stg8_0 : Ref sig .tc := ⟨.vmem, 63, rfl⟩
abbrev cc8_stg8_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem4_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem4_0 : DmaSem sig := 42
abbrev cc6_sem4_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc8_sem3_0 : DmaSem sig := 56
abbrev cc8_sem3_1 : DmaSem sig := 57
abbrev cc8_sem4_0 : DmaSem sig := 58
abbrev cc8_sem5_0 : DmaSem sig := 59
abbrev cc8_sem6_0 : DmaSem sig := 60
abbrev cc8_sem7_0 : DmaSem sig := 61
abbrev cc8_sem7_1 : DmaSem sig := 62
abbrev cc8_sem8_0 : DmaSem sig := 63
abbrev cc8_sem8_1 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S400x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S400x32 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S400x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S400x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S400x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S400x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S160x160 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x160 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S160x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S400x32 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S400x2 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

class Facts₀ : Prop where
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x32_S32x32_0_0 : ∀ a, (![0, 0] : Fin 2 → Nat) a + S32x32.size a ≤ S32x32.size a
  h_S32x32 : 0 < S32x32.numel
  shapeCasts_S160_S1x160 : S160.ShapeCasts S1x160
  inb_S160x160_S32x160_0_0 : ∀ a, (![0, 0] : Fin 2 → Nat) a + S32x160.size a ≤ S160x160.size a
  h_S32x160 : 0 < S32x160.numel
  inb_S160x160_S128x160_32_0 : ∀ a, (![32, 0] : Fin 2 → Nat) a + S128x160.size a ≤ S160x160.size a
  h_S128x160 : 0 < S128x160.numel
  shapeCasts_S400x32_S400x32 : S400x32.ShapeCasts S400x32
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S400x160 : S1x160.Broadcasts S400x160
  inb_S160x1_S160x1_0_0 : ∀ a, (![0, 0] : Fin 2 → Nat) a + S160x1.size a ≤ S160x1.size a
  h_S160x1 : 0 < S160x1.numel
  broadcasts_S400x1_S400x32 : S400x1.Broadcasts S400x32
  inb_S400x2_S400x1_0_0 : ∀ a, (![0, 0] : Fin 2 → Nat) a + S400x1.size a ≤ S400x2.size a
  h_S400x1 : 0 < S400x1.numel
  inb_S400x2_S400x1_0_1 : ∀ a, (![0, 1] : Fin 2 → Nat) a + S400x1.size a ≤ S400x2.size a
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x32_S32x160_S400x160_1_0_0_1_n_n_wf : DotDims.WF S400x32 S32x160 S400x160 [1] [0] [0] [1] [] []
  dot_S400x128_S128x160_S400x160_1_0_0_1_n_n_wf : DotDims.WF S400x128 S128x160 S400x160 [1] [0] [0] [1] [] []
  dot_S400x160_S160x1_S400x1_1_0_0_1_n_n_wf : DotDims.WF S400x160 S160x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S10000x64.size a
  hwx0_2 : ∀ i : grid0.Coords, EltTy.bits .f32 = 32 ∨ (Rect.block (s := S10000x64) S400x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x32.size a ≤ S10000x32.size a
  hwx1_4 : ∀ i : grid1.Coords, EltTy.bits .f32 = 32 ∨ (Rect.block (s := S10000x32) S400x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x32.size a ≤ S10000x32.size a
  hwx2_4 : ∀ i : grid2.Coords, EltTy.bits .f32 = 32 ∨ (Rect.block (s := S10000x32) S400x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .f32 = 32 ∨ (Rect.block (s := S10000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x32.size a ≤ S10000x32.size a
  hwx3_3 : ∀ i : grid3.Coords, EltTy.bits .f32 = 32 ∨ (Rect.block (s := S10000x32) S400x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x128.size a ≤ S10000x128.size a
  hwx4_0 : ∀ i : grid4.Coords, EltTy.bits .f32 = 32 ∨ (Rect.block (s := S10000x128) S400x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x64.size a ≤ S10000x64.size a
  hwx4_2 : ∀ i : grid4.Coords, EltTy.bits .f32 = 32 ∨ (Rect.block (s := S10000x64) S400x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x32.size a ≤ S64x32.size a
  hwx5_3 : ∀ i : grid5.Coords, EltTy.bits .f32 = 32 ∨ (Rect.block (s := S64x32) S64x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x32.size a ≤ S10000x32.size a
  hwx5_4 : ∀ i : grid5.Coords, EltTy.bits .f32 = 32 ∨ (Rect.block (s := S10000x32) S400x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .f32 = 32 ∨ (Rect.block (s := S10000x10000) S400x10000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x32.size a ≤ S10000x32.size a
  hwx6_1 : ∀ i : grid6.Coords, EltTy.bits .f32 = 32 ∨ (Rect.block (s := S10000x32) S10000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S400x32.size a ≤ S10000x32.size a
  hwx6_4 : ∀ i : grid6.Coords, EltTy.bits .f32 = 32 ∨ (Rect.block (s := S10000x32) S400x32.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .f32 = 32 ∨ (Rect.block (s := S10000x10000) S400x10000.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x32.size a ≤ S10000x32.size a
  hwx7_1 : ∀ i : grid7.Coords, EltTy.bits .f32 = 32 ∨ (Rect.block (s := S10000x32) S10000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S400x32.size a ≤ S10000x32.size a
  hwx7_3 : ∀ i : grid7.Coords, EltTy.bits .f32 = 32 ∨ (Rect.block (s := S10000x32) S400x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x32.size a ≤ S10000x32.size a
  hwx8_0 : ∀ i : grid8.Coords, EltTy.bits .f32 = 32 ∨ (Rect.block (s := S10000x32) S400x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S400x128.size a ≤ S10000x128.size a
  hwx8_1 : ∀ i : grid8.Coords, EltTy.bits .f32 = 32 ∨ (Rect.block (s := S10000x128) S400x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x32.size a ≤ S10000x32.size a
  hwx8_2 : ∀ i : grid8.Coords, EltTy.bits .f32 = 32 ∨ (Rect.block (s := S10000x32) S400x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S400x128.size a ≤ S10000x128.size a
  hwx8_3 : ∀ i : grid8.Coords, EltTy.bits .f32 = 32 ∨ (Rect.block (s := S10000x128) S400x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S160x160.size a ≤ S160x160.size a
  hwx8_4 : ∀ i : grid8.Coords, EltTy.bits .f32 = 32 ∨ (Rect.block (s := S160x160) S160x160.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x160.size a ≤ S1x160.size a
  hwx8_5 : ∀ i : grid8.Coords, EltTy.bits .f32 = 32 ∨ (Rect.block (s := S1x160) S1x160.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S160x1.size a ≤ S160x1.size a
  hwx8_6 : ∀ i : grid8.Coords, EltTy.bits .f32 = 32 ∨ (Rect.block (s := S160x1) S160x1.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S400x32.size a ≤ S10000x32.size a
  hwx8_7 : ∀ i : grid8.Coords, EltTy.bits .f32 = 32 ∨ (Rect.block (s := S10000x32) S400x32.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S400x2.size a ≤ S10000x2.size a
  hwx8_8 : ∀ i : grid8.Coords, EltTy.bits .f32 = 32 ∨ (Rect.block (s := S10000x2) S400x2.size (cc8_transform_8 i) (hinb8_8 i)).WholeWords (EltTy.packing .f32)

variable [Facts₀]

def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x32_S32x160_S400x160_1_0_0_1_n_n : DotDims S400x32 S32x160 S400x160 where
  lhsContracting := [1]
  rhsContracting := [0]
  lhsNonContracting := [0]
  rhsNonContracting := [1]
  lhsBatch := []
  rhsBatch := []
  wf := dot_S400x32_S32x160_S400x160_1_0_0_1_n_n_wf
def dot_S400x128_S128x160_S400x160_1_0_0_1_n_n : DotDims S400x128 S128x160 S400x160 where
  lhsContracting := [1]
  rhsContracting := [0]
  lhsNonContracting := [0]
  rhsNonContracting := [1]
  lhsBatch := []
  rhsBatch := []
  wf := dot_S400x128_S128x160_S400x160_1_0_0_1_n_n_wf
def dot_S400x160_S160x1_S400x1_1_0_0_1_n_n : DotDims S400x160 S160x1 S400x1 where
  lhsContracting := [1]
  rhsContracting := [0]
  lhsNonContracting := [0]
  rhsNonContracting := [1]
  lhsBatch := []
  rhsBatch := []
  wf := dot_S400x160_S160x1_S400x1_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S400x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S400x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S400x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v8) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S64x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v9) S400x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_arg3) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S10000x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v10) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v11) S400x32.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_arg3) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v11) S10000x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v12) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v13) S400x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v6) S400x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg0) S400x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v13) S400x32.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg2) S400x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_arg16) S160x160.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v14) S1x160.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg18) S160x1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v15_0) S400x32.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v15_1) S400x2.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S160x160 : Shape := ⟨2, ![160, 160]⟩
abbrev S160 : Shape := ⟨1, ![160]⟩
abbrev S160x1 : Shape := ⟨2, ![160, 1]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩
abbrev S10000x160 : Shape := ⟨2, ![10000, 160]⟩
abbrev S1x160 : Shape := ⟨2, ![1, 160]⟩
abbrev S10000x1 : Shape := ⟨2, ![10000, 1]⟩
abbrev S10000x2 : Shape := ⟨2, ![10000, 2]⟩
abbrev S10000 : Shape := ⟨1, ![10000]⟩

abbrev nBuf : Space → Nat
  | .hbm => 97
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x10000, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S160x160, .f32⟩
  | .hbm, ⟨17, _⟩ => ⟨S160, .f32⟩
  | .hbm, ⟨18, _⟩ => ⟨S160x1, .f32⟩
  | .hbm, ⟨19, _⟩ => ⟨S10000x64, .f32⟩
  | .hbm, ⟨20, _⟩ => ⟨S10000x64, .f32⟩
  | .hbm, ⟨21, _⟩ => ⟨S1x64, .f32⟩
  | .hbm, ⟨22, _⟩ => ⟨S10000x64, .f32⟩
  | .hbm, ⟨23, _⟩ => ⟨S10000x64, .f32⟩
  | .hbm, ⟨24, _⟩ => ⟨S_, .f32⟩
  | .hbm, ⟨25, _⟩ => ⟨S10000x64, .f32⟩
  | .hbm, ⟨26, _⟩ => ⟨S10000x64, .f32⟩
  | .hbm, ⟨27, _⟩ => ⟨S10000x32, .f32⟩
  | .hbm, ⟨28, _⟩ => ⟨S10000x32, .f32⟩
  | .hbm, ⟨29, _⟩ => ⟨S1x32, .f32⟩
  | .hbm, ⟨30, _⟩ => ⟨S10000x32, .f32⟩
  | .hbm, ⟨31, _⟩ => ⟨S10000x32, .f32⟩
  | .hbm, ⟨32, _⟩ => ⟨S_, .f32⟩
  | .hbm, ⟨33, _⟩ => ⟨S10000x32, .f32⟩
  | .hbm, ⟨34, _⟩ => ⟨S10000x32, .f32⟩
  | .hbm, ⟨35, _⟩ => ⟨S10000x32, .f32⟩
  | .hbm, ⟨36, _⟩ => ⟨S10000x32, .f32⟩
  | .hbm, ⟨37, _⟩ => ⟨S1x32, .f32⟩
  | .hbm, ⟨38, _⟩ => ⟨S10000x32, .f32⟩
  | .hbm, ⟨39, _⟩ => ⟨S10000x32, .f32⟩
  | .hbm, ⟨40, _⟩ => ⟨S10000x64, .f32⟩
  | .hbm, ⟨41, _⟩ => ⟨S10000x64, .f32⟩
  | .hbm, ⟨42, _⟩ => ⟨S1x64, .f32⟩
  | .hbm, ⟨43, _⟩ => ⟨S10000x64, .f32⟩
  | .hbm, ⟨44, _⟩ => ⟨S10000x64, .f32⟩
  | .hbm, ⟨45, _⟩ => ⟨S_, .f32⟩
  | .hbm, ⟨46, _⟩ => ⟨S10000x64, .f32⟩
  | .hbm, ⟨47, _⟩ => ⟨S10000x64, .f32⟩
  | .hbm, ⟨48, _⟩ => ⟨S10000x32, .f32⟩
  | .hbm, ⟨49, _⟩ => ⟨S10000x32, .f32⟩
  | .hbm, ⟨50, _⟩ => ⟨S1x32, .f32⟩
  | .hbm, ⟨51, _⟩ => ⟨S10000x32, .f32⟩
  | .hbm, ⟨52, _⟩ => ⟨S10000x32, .f32⟩
  | .hbm, ⟨53, _⟩ => ⟨S_, .f32⟩
  | .hbm, ⟨54, _⟩ => ⟨S10000x32, .f32⟩
  | .hbm, ⟨55, _⟩ => ⟨S10000x32, .f32⟩
  | .hbm, ⟨56, _⟩ => ⟨S10000x32, .f32⟩
  | .hbm, ⟨57, _⟩ => ⟨S10000x32, .f32⟩
  | .hbm, ⟨58, _⟩ => ⟨S1x32, .f32⟩
  | .hbm, ⟨59, _⟩ => ⟨S10000x32, .f32⟩
  | .hbm, ⟨60, _⟩ => ⟨S10000x32, .f32⟩
  | .hbm, ⟨61, _⟩ => ⟨S10000x160, .f32⟩
  | .hbm, ⟨62, _⟩ => ⟨S10000x160, .f32⟩
  | .hbm, ⟨63, _⟩ => ⟨S10000x160, .f32⟩
  | .hbm, ⟨64, _⟩ => ⟨S1x160, .f32⟩
  | .hbm, ⟨65, _⟩ => ⟨S10000x160, .f32⟩
  | .hbm, ⟨66, _⟩ => ⟨S10000x160, .f32⟩
  | .hbm, ⟨67, _⟩ => ⟨S10000x160, .f32⟩
  | .hbm, ⟨68, _⟩ => ⟨S10000x1, .f32⟩
  | .hbm, ⟨69, _⟩ => ⟨S10000x160, .f32⟩
  | .hbm, ⟨70, _⟩ => ⟨S1x160, .f32⟩
  | .hbm, ⟨71, _⟩ => ⟨S10000x160, .f32⟩
  | .hbm, ⟨72, _⟩ => ⟨S10000x160, .f32⟩
  | .hbm, ⟨73, _⟩ => ⟨S10000x160, .f32⟩
  | .hbm, ⟨74, _⟩ => ⟨S10000x1, .f32⟩
  | .hbm, ⟨75, _⟩ => ⟨S10000x2, .f32⟩
  | .hbm, ⟨76, _⟩ => ⟨S_, .f32⟩
  | .hbm, ⟨77, _⟩ => ⟨S10000, .f32⟩
  | .hbm, ⟨78, _⟩ => ⟨S_, .f32⟩
  | .hbm, ⟨79, _⟩ => ⟨S10000, .f32⟩
  | .hbm, ⟨80, _⟩ => ⟨S10000, .f32⟩
  | .hbm, ⟨81, _⟩ => ⟨S10000x1, .f32⟩
  | .hbm, ⟨82, _⟩ => ⟨S10000x2, .f32⟩
  | .hbm, ⟨83, _⟩ => ⟨S10000x2, .f32⟩
  | .hbm, ⟨84, _⟩ => ⟨S10000x2, .f32⟩
  | .hbm, ⟨85, _⟩ => ⟨S_, .f32⟩
  | .hbm, ⟨86, _⟩ => ⟨S10000, .f32⟩
  | .hbm, ⟨87, _⟩ => ⟨S10000x1, .f32⟩
  | .hbm, ⟨88, _⟩ => ⟨S10000x2, .f32⟩
  | .hbm, ⟨89, _⟩ => ⟨S10000x2, .f32⟩
  | .hbm, ⟨90, _⟩ => ⟨S10000x1, .f32⟩
  | .hbm, ⟨91, _⟩ => ⟨S10000x32, .f32⟩
  | .hbm, ⟨92, _⟩ => ⟨S10000x32, .f32⟩
  | .hbm, ⟨93, _⟩ => ⟨S10000x1, .f32⟩
  | .hbm, ⟨94, _⟩ => ⟨S10000x32, .f32⟩
  | .hbm, ⟨95, _⟩ => ⟨S10000x32, .f32⟩
  | .hbm, ⟨96, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_cst : Ref sig .tc := ⟨.hbm, 32, rfl⟩
abbrev main_call1_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call3_cst : Ref sig .tc := ⟨.hbm, 53, rfl⟩
abbrev main_call3_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst : Ref sig .tc := ⟨.hbm, 76, rfl⟩
abbrev main_v49 : Ref sig .tc := ⟨.hbm, 77, rfl⟩
abbrev main_cst_0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_1 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  concatenates_S10000x32_S10000x128_S10000x160_d1 : Shape.Concatenates [S10000x32, S10000x128] S10000x160 1
  bcast_S160_S1x160_1 : S160.BroadcastsInDim S1x160 (![1] : Fin 1 → Fin S1x160.rank)
  bcast_S1x160_S10000x160_0_1 : S1x160.BroadcastsInDim S10000x160 (![0, 1] : Fin 2 → Fin S10000x160.rank)
  concatenates_S10000x1_S10000x1_S10000x2_d1 : Shape.Concatenates [S10000x1, S10000x1] S10000x2 1
  reducesTo_S10000x2_S10000_d1 : S10000x2.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x2_0_1 : S10000x1.BroadcastsInDim S10000x2 (![0, 1] : Fin 2 → Fin S10000x2.rank)
  slices_S10000x2_S10000x1_0_0 : S10000x2.Slices ![0, 0] S10000x1
  bcast_S10000x1_S10000x32_0_1 : S10000x1.BroadcastsInDim S10000x32 (![0, 1] : Fin 2 → Fin S10000x32.rank)
  slices_S10000x2_S10000x1_0_1 : S10000x2.Slices ![0, 1] S10000x1
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x160_S160x160_S10000x160_1_0_0_1_n_n_wf : DotDims.WF S10000x160 S160x160 S10000x160 [1] [0] [0] [1] [] []
  dot_S10000x160_S160x1_S10000x1_1_0_0_1_n_n_wf : DotDims.WF S10000x160 S160x1 S10000x1 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x160_S160x160_S10000x160_1_0_0_1_n_n : DotDims S10000x160 S160x160 S10000x160 where
  lhsContracting := [1]
  rhsContracting := [0]
  lhsNonContracting := [0]
  rhsNonContracting := [1]
  lhsBatch := []
  rhsBatch := []
  wf := dot_S10000x160_S160x160_S10000x160_1_0_0_1_n_n_wf
def dot_S10000x160_S160x1_S10000x1_1_0_0_1_n_n : DotDims S10000x160 S160x1 S10000x1 where
  lhsContracting := [1]
  rhsContracting := [0]
  lhsNonContracting := [0]
  rhsNonContracting := [1]
  lhsBatch := []
  rhsBatch := []
  wf := dot_S10000x160_S160x1_S10000x1_1_0_0_1_n_n_wf

class Facts : Prop extends Facts₀ where

variable [Facts]
-- ==== Proof.RunAll.lean ====
/-
  The whole program's run with the final contents of every buffer kept.

  The program is nine kernel launches among short stretches of host operations.  Every weakly fair execution of it
  terminates without a fault, and at the end each core's buffers hold the contents obtained by folding the
  segments over the launch memory: a stretch of host operations applies them; a launch leaves each of its output
  arrays at what its grid points wrote back and every other buffer as it found it.  The frame statement keeps of this
  only that the arguments are unchanged; here the final contents of all buffers are kept, so that the four results
  can be read.
-/
import proofs.«139367_g38302518346020_cont_8to1_b_1765_3_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates, nothing faulting, with every unscoped buffer of every core at
    the folded contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

end Cert.KernelIdeal.Whole

end
-- ==== Proof.Ladder.lean ====
/-
  Which segment changes which buffer.

  The program's sixteen segments (nine kernel launches, seven one-line stretches of host reshapes) each write one
  buffer — the last launch two — and leave every other buffer of the core as they found it: a launch hands its input
  arrays back as it received them and touches nothing outside its windows; a host operation changes only its result.
  Composed from the launch, a buffer that none of the first J segments writes still holds its launch contents after
  them.
-/
import proofs.«139367_g38302518346020_cont_8to1_b_1765_3_alg».proof.Proof.Gen.KernelIdeal.Frame

set_option maxRecDepth 16384

noncomputable section

namespace Cert.KernelIdeal.Ladder

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Launch 0 writes `main_v0` only: an input array comes back as it went in, a buffer outside the windows is not touched. -/
theorem keep0 (c : Dev nD) (b : Ref sig .tc) (h0 : b ≠ main_v0) :
    W1 m ρ c (Proc.devRef .tc b) = W0 m ρ c (Proc.devRef .tc b) := by
  by_cases e0 : Pipeline.arrRef spec0 0 = b
  · subst e0; exact (W1_arr m ρ c 0).trans (((dat0 (V0 m ρ) c).arrAt_in 0 rfl _).trans (A_eq0 (V0 m ρ) c 0))
  by_cases e1 : Pipeline.arrRef spec0 1 = b
  · subst e1; exact (W1_arr m ρ c 1).trans (((dat0 (V0 m ρ) c).arrAt_in 1 rfl _).trans (A_eq0 (V0 m ρ) c 1))
  exact W1_of_ne m ρ c b (fun w => match w with | ⟨0, _⟩ => e0 | ⟨1, _⟩ => e1 | ⟨2, _⟩ => fun e => h0 e.symm)

/-- The host reshape between the launches writes `main_v1` only. -/
theorem keep1 (c : Dev nD) (b : Ref sig .tc) (h0 : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h0))

/-- Launch 1 writes `main_v2` only: an input array comes back as it went in, a buffer outside the windows is not touched. -/
theorem keep2 (c : Dev nD) (b : Ref sig .tc) (h0 : b ≠ main_v2) :
    W3 m ρ c (Proc.devRef .tc b) = W2 m ρ c (Proc.devRef .tc b) := by
  by_cases e0 : Pipeline.arrRef spec1 0 = b
  · subst e0; exact (W3_arr m ρ c 0).trans (((dat1 (V2 m ρ) c).arrAt_in 0 rfl _).trans (A_eq1 (V2 m ρ) c 0))
  by_cases e1 : Pipeline.arrRef spec1 1 = b
  · subst e1; exact (W3_arr m ρ c 1).trans (((dat1 (V2 m ρ) c).arrAt_in 1 rfl _).trans (A_eq1 (V2 m ρ) c 1))
  by_cases e2 : Pipeline.arrRef spec1 2 = b
  · subst e2; exact (W3_arr m ρ c 2).trans (((dat1 (V2 m ρ) c).arrAt_in 2 rfl _).trans (A_eq1 (V2 m ρ) c 2))
  by_cases e3 : Pipeline.arrRef spec1 3 = b
  · subst e3; exact (W3_arr m ρ c 3).trans (((dat1 (V2 m ρ) c).arrAt_in 3 rfl _).trans (A_eq1 (V2 m ρ) c 3))
  exact W3_of_ne m ρ c b (fun w => match w with | ⟨0, _⟩ => e0 | ⟨1, _⟩ => e1 | ⟨2, _⟩ => e2 | ⟨3, _⟩ => e3 | ⟨4, _⟩ => fun e => h0 e.symm)

/-- The host reshape between the launches writes `main_v3` only. -/
theorem keep3 (c : Dev nD) (b : Ref sig .tc) (h0 : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h0))

/-- Launch 2 writes `main_v4` only: an input array comes back as it went in, a buffer outside the windows is not touched. -/
theorem keep4 (c : Dev nD) (b : Ref sig .tc) (h0 : b ≠ main_v4) :
    W5 m ρ c (Proc.devRef .tc b) = W4 m ρ c (Proc.devRef .tc b) := by
  by_cases e0 : Pipeline.arrRef spec2 0 = b
  · subst e0; exact (W5_arr m ρ c 0).trans (((dat2 (V4 m ρ) c).arrAt_in 0 rfl _).trans (A_eq2 (V4 m ρ) c 0))
  by_cases e1 : Pipeline.arrRef spec2 1 = b
  · subst e1; exact (W5_arr m ρ c 1).trans (((dat2 (V4 m ρ) c).arrAt_in 1 rfl _).trans (A_eq2 (V4 m ρ) c 1))
  by_cases e2 : Pipeline.arrRef spec2 2 = b
  · subst e2; exact (W5_arr m ρ c 2).trans (((dat2 (V4 m ρ) c).arrAt_in 2 rfl _).trans (A_eq2 (V4 m ρ) c 2))
  by_cases e3 : Pipeline.arrRef spec2 3 = b
  · subst e3; exact (W5_arr m ρ c 3).trans (((dat2 (V4 m ρ) c).arrAt_in 3 rfl _).trans (A_eq2 (V4 m ρ) c 3))
  exact W5_of_ne m ρ c b (fun w => match w with | ⟨0, _⟩ => e0 | ⟨1, _⟩ => e1 | ⟨2, _⟩ => e2 | ⟨3, _⟩ => e3 | ⟨4, _⟩ => fun e => h0 e.symm)

/-- The host reshape between the launches writes `main_v5` only. -/
theorem keep5 (c : Dev nD) (b : Ref sig .tc) (h0 : b ≠ main_v5) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne h0))

/-- Launch 3 writes `main_v6` only: an input array comes back as it went in, a buffer outside the windows is not touched. -/
theorem keep6 (c : Dev nD) (b : Ref sig .tc) (h0 : b ≠ main_v6) :
    W7 m ρ c (Proc.devRef .tc b) = W6 m ρ c (Proc.devRef .tc b) := by
  by_cases e0 : Pipeline.arrRef spec3 0 = b
  · subst e0; exact (W7_arr m ρ c 0).trans (((dat3 (V6 m ρ) c).arrAt_in 0 rfl _).trans (A_eq3 (V6 m ρ) c 0))
  by_cases e1 : Pipeline.arrRef spec3 1 = b
  · subst e1; exact (W7_arr m ρ c 1).trans (((dat3 (V6 m ρ) c).arrAt_in 1 rfl _).trans (A_eq3 (V6 m ρ) c 1))
  by_cases e2 : Pipeline.arrRef spec3 2 = b
  · subst e2; exact (W7_arr m ρ c 2).trans (((dat3 (V6 m ρ) c).arrAt_in 2 rfl _).trans (A_eq3 (V6 m ρ) c 2))
  exact W7_of_ne m ρ c b (fun w => match w with | ⟨0, _⟩ => e0 | ⟨1, _⟩ => e1 | ⟨2, _⟩ => e2 | ⟨3, _⟩ => fun e => h0 e.symm)

/-- Launch 4 writes `main_v7` only: an input array comes back as it went in, a buffer outside the windows is not touched. -/
theorem keep7 (c : Dev nD) (b : Ref sig .tc) (h0 : b ≠ main_v7) :
    W8 m ρ c (Proc.devRef .tc b) = W7 m ρ c (Proc.devRef .tc b) := by
  by_cases e0 : Pipeline.arrRef spec4 0 = b
  · subst e0; exact (W8_arr m ρ c 0).trans (((dat4 (V7 m ρ) c).arrAt_in 0 rfl _).trans (A_eq4 (V7 m ρ) c 0))
  by_cases e1 : Pipeline.arrRef spec4 1 = b
  · subst e1; exact (W8_arr m ρ c 1).trans (((dat4 (V7 m ρ) c).arrAt_in 1 rfl _).trans (A_eq4 (V7 m ρ) c 1))
  exact W8_of_ne m ρ c b (fun w => match w with | ⟨0, _⟩ => e0 | ⟨1, _⟩ => e1 | ⟨2, _⟩ => fun e => h0 e.symm)

/-- The host reshape between the launches writes `main_v8` only. -/
theorem keep8 (c : Dev nD) (b : Ref sig .tc) (h0 : b ≠ main_v8) :
    W9 m ρ c (Proc.devRef .tc b) = W8 m ρ c (Proc.devRef .tc b) :=
  StableHlo.after_of_forall_not_mem (b := Proc.devRef .tc b) _ _ (List.forall_iff_forall_mem.mp (by
    simp only [hostOps5, List.Forall, StableHlo.reshape_writes, Finset.mem_singleton]
    exact StableHlo.devRef_ne_of_ne h0))

/-- Launch 5 writes `main_v9` only: an input array comes back as it went in, a buffer outside the windows is not touched. -/
theorem keep9 (c : Dev nD) (b : Ref sig .tc) (h0 : b ≠ main_v9) :
    W10 m ρ c (Proc.devRef .tc b) = W9 m ρ c (Proc.devRef .tc b) := by
  by_cases e0 : Pipeline.arrRef spec5 0 = b
  · subst e0; exact (W10_arr m ρ c 0).trans (((dat5 (V9 m ρ) c).arrAt_in 0 rfl _).trans (A_eq5 (V9 m ρ) c 0))
  by_cases e1 : Pipeline.arrRef spec5 1 = b
  · subst e1; exact (W10_arr m ρ c 1).trans (((dat5 (V9 m ρ) c).arrAt_in 1 rfl _).trans (A_eq5 (V9 m ρ) c 1))
  by_cases e2 : Pipeline.arrRef spec5 2 = b
  · subst e2; exact (W10_arr m ρ c 2).trans (((dat5 (V9 m ρ) c).arrAt_in 2 rfl _).trans (A_eq5 (V9 m ρ) c 2))
  by_cases e3 : Pipeline.arrRef spec5 3 = b
  · subst e3; exact (W10_arr m ρ c 3).trans (((dat5 (V9 m ρ) c).arrAt_in 3 rfl _).trans (A_eq5 (V9 m ρ) c 3))
  exact W10_of_ne m ρ c b (fun w => match w with | ⟨0, _⟩ => e0 | ⟨1, _⟩ => e1 | ⟨2, _⟩ => e2 | ⟨3, _⟩ => e3 | ⟨4, _⟩ => fun e => h0 e.symm)

/-- The host reshape between the launches writes `main_v10` only. -/
theorem keep10 (c : Dev nD) (b : Ref sig .tc) (h0 : b ≠ main_v10) :
    W11 m ρ c (Proc.devRef .tc b) = W10 m ρ c (Proc.devRef .tc b) :=
  StableHlo.after_of_forall_not_mem (b := Proc.devRef .tc b) _ _ (List.forall_iff_forall_mem.mp (by
    simp only [hostOps6, List.Forall, StableHlo.reshape_writes, Finset.mem_singleton]
    exact StableHlo.devRef_ne_of_ne h0))

/-- Launch 6 writes `main_v11` only: an input array comes back as it went in, a buffer outside the windows is not touched. -/
theorem keep11 (c : Dev nD) (b : Ref sig .tc) (h0 : b ≠ main_v11) :
    W12 m ρ c (Proc.devRef .tc b) = W11 m ρ c (Proc.devRef .tc b) := by
  by_cases e0 : Pipeline.arrRef spec6 0 = b
  · subst e0; exact (W12_arr m ρ c 0).trans (((dat6 (V11 m ρ) c).arrAt_in 0 rfl _).trans (A_eq6 (V11 m ρ) c 0))
  by_cases e1 : Pipeline.arrRef spec6 1 = b
  · subst e1; exact (W12_arr m ρ c 1).trans (((dat6 (V11 m ρ) c).arrAt_in 1 rfl _).trans (A_eq6 (V11 m ρ) c 1))
  by_cases e2 : Pipeline.arrRef spec6 2 = b
  · subst e2; exact (W12_arr m ρ c 2).trans (((dat6 (V11 m ρ) c).arrAt_in 2 rfl _).trans (A_eq6 (V11 m ρ) c 2))
  by_cases e3 : Pipeline.arrRef spec6 3 = b
  · subst e3; exact (W12_arr m ρ c 3).trans (((dat6 (V11 m ρ) c).arrAt_in 3 rfl _).trans (A_eq6 (V11 m ρ) c 3))
  exact W12_of_ne m ρ c b (fun w => match w with | ⟨0, _⟩ => e0 | ⟨1, _⟩ => e1 | ⟨2, _⟩ => e2 | ⟨3, _⟩ => e3 | ⟨4, _⟩ => fun e => h0 e.symm)

/-- The host reshape between the launches writes `main_v12` only. -/
theorem keep12 (c : Dev nD) (b : Ref sig .tc) (h0 : b ≠ main_v12) :
    W13 m ρ c (Proc.devRef .tc b) = W12 m ρ c (Proc.devRef .tc b) :=
  StableHlo.after_of_forall_not_mem (b := Proc.devRef .tc b) _ _ (List.forall_iff_forall_mem.mp (by
    simp only [hostOps7, List.Forall, StableHlo.reshape_writes, Finset.mem_singleton]
    exact StableHlo.devRef_ne_of_ne h0))

/-- Launch 7 writes `main_v13` only: an input array comes back as it went in, a buffer outside the windows is not touched. -/
theorem keep13 (c : Dev nD) (b : Ref sig .tc) (h0 : b ≠ main_v13) :
    W14 m ρ c (Proc.devRef .tc b) = W13 m ρ c (Proc.devRef .tc b) := by
  by_cases e0 : Pipeline.arrRef spec7 0 = b
  · subst e0; exact (W14_arr m ρ c 0).trans (((dat7 (V13 m ρ) c).arrAt_in 0 rfl _).trans (A_eq7 (V13 m ρ) c 0))
  by_cases e1 : Pipeline.arrRef spec7 1 = b
  · subst e1; exact (W14_arr m ρ c 1).trans (((dat7 (V13 m ρ) c).arrAt_in 1 rfl _).trans (A_eq7 (V13 m ρ) c 1))
  by_cases e2 : Pipeline.arrRef spec7 2 = b
  · subst e2; exact (W14_arr m ρ c 2).trans (((dat7 (V13 m ρ) c).arrAt_in 2 rfl _).trans (A_eq7 (V13 m ρ) c 2))
  exact W14_of_ne m ρ c b (fun w => match w with | ⟨0, _⟩ => e0 | ⟨1, _⟩ => e1 | ⟨2, _⟩ => e2 | ⟨3, _⟩ => fun e => h0 e.symm)

/-- The host reshape between the launches writes `main_v14` only. -/
theorem keep14 (c : Dev nD) (b : Ref sig .tc) (h0 : b ≠ main_v14) :
    W15 m ρ c (Proc.devRef .tc b) = W14 m ρ c (Proc.devRef .tc b) :=
  StableHlo.after_of_forall_not_mem (b := Proc.devRef .tc b) _ _ (List.forall_iff_forall_mem.mp (by
    simp only [hostOps8, List.Forall, StableHlo.reshape_writes, Finset.mem_singleton]
    exact StableHlo.devRef_ne_of_ne h0))

/-- Launch 8 writes `main_v15_0` and `main_v15_1` only: an input array comes back as it went in, a buffer outside the windows is not touched. -/
theorem keep15 (c : Dev nD) (b : Ref sig .tc) (h0 : b ≠ main_v15_0) (h1 : b ≠ main_v15_1) :
    W16 m ρ c (Proc.devRef .tc b) = W15 m ρ c (Proc.devRef .tc b) := by
  by_cases e0 : Pipeline.arrRef spec8 0 = b
  · subst e0; exact (W16_arr m ρ c 0).trans (((dat8 (V15 m ρ) c).arrAt_in 0 rfl _).trans (A_eq8 (V15 m ρ) c 0))
  by_cases e1 : Pipeline.arrRef spec8 1 = b
  · subst e1; exact (W16_arr m ρ c 1).trans (((dat8 (V15 m ρ) c).arrAt_in 1 rfl _).trans (A_eq8 (V15 m ρ) c 1))
  by_cases e2 : Pipeline.arrRef spec8 2 = b
  · subst e2; exact (W16_arr m ρ c 2).trans (((dat8 (V15 m ρ) c).arrAt_in 2 rfl _).trans (A_eq8 (V15 m ρ) c 2))
  by_cases e3 : Pipeline.arrRef spec8 3 = b
  · subst e3; exact (W16_arr m ρ c 3).trans (((dat8 (V15 m ρ) c).arrAt_in 3 rfl _).trans (A_eq8 (V15 m ρ) c 3))
  by_cases e4 : Pipeline.arrRef spec8 4 = b
  · subst e4; exact (W16_arr m ρ c 4).trans (((dat8 (V15 m ρ) c).arrAt_in 4 rfl _).trans (A_eq8 (V15 m ρ) c 4))
  by_cases e5 : Pipeline.arrRef spec8 5 = b
  · subst e5; exact (W16_arr m ρ c 5).trans (((dat8 (V15 m ρ) c).arrAt_in 5 rfl _).trans (A_eq8 (V15 m ρ) c 5))
  by_cases e6 : Pipeline.arrRef spec8 6 = b
  · subst e6; exact (W16_arr m ρ c 6).trans (((dat8 (V15 m ρ) c).arrAt_in 6 rfl _).trans (A_eq8 (V15 m ρ) c 6))
  exact W16_of_ne m ρ c b (fun w => match w with | ⟨0, _⟩ => e0 | ⟨1, _⟩ => e1 | ⟨2, _⟩ => e2 | ⟨3, _⟩ => e3 | ⟨4, _⟩ => e4 | ⟨5, _⟩ => e5 | ⟨6, _⟩ => e6 | ⟨7, _⟩ => fun e => h0 e.symm | ⟨8, _⟩ => fun e => h1 e.symm)

/-! ## From the launch -/

theorem upto0 (c : Dev nD) (b : Ref sig .tc) : W0 m ρ c (Proc.devRef .tc b) = m ((c : Thread nD τ).loc b) := rfl

theorem upto1 (c : Dev nD) (b : Ref sig .tc) (h : ∀ x ∈ ([main_v0] : List (Ref sig .tc)), b ≠ x) :
    W1 m ρ c (Proc.devRef .tc b) = m ((c : Thread nD τ).loc b) :=
  (keep0 m ρ c b (h _ (List.mem_cons_self))).trans (upto0 m ρ c b)

theorem upto2 (c : Dev nD) (b : Ref sig .tc) (h : ∀ x ∈ ([main_v1, main_v0] : List (Ref sig .tc)), b ≠ x) :
    W2 m ρ c (Proc.devRef .tc b) = m ((c : Thread nD τ).loc b) :=
  (keep1 m ρ c b (h _ (List.mem_cons_self))).trans (upto1 m ρ c b (fun x hx => h x (List.mem_cons_of_mem _ (hx))))

theorem upto3 (c : Dev nD) (b : Ref sig .tc) (h : ∀ x ∈ ([main_v2, main_v1, main_v0] : List (Ref sig .tc)), b ≠ x) :
    W3 m ρ c (Proc.devRef .tc b) = m ((c : Thread nD τ).loc b) :=
  (keep2 m ρ c b (h _ (List.mem_cons_self))).trans (upto2 m ρ c b (fun x hx => h x (List.mem_cons_of_mem _ (hx))))

theorem upto4 (c : Dev nD) (b : Ref sig .tc) (h : ∀ x ∈ ([main_v3, main_v2, main_v1, main_v0] : List (Ref sig .tc)), b ≠ x) :
    W4 m ρ c (Proc.devRef .tc b) = m ((c : Thread nD τ).loc b) :=
  (keep3 m ρ c b (h _ (List.mem_cons_self))).trans (upto3 m ρ c b (fun x hx => h x (List.mem_cons_of_mem _ (hx))))

theorem upto5 (c : Dev nD) (b : Ref sig .tc) (h : ∀ x ∈ ([main_v4, main_v3, main_v2, main_v1, main_v0] : List (Ref sig .tc)), b ≠ x) :
    W5 m ρ c (Proc.devRef .tc b) = m ((c : Thread nD τ).loc b) :=
  (keep4 m ρ c b (h _ (List.mem_cons_self))).trans (upto4 m ρ c b (fun x hx => h x (List.mem_cons_of_mem _ (hx))))

theorem upto6 (c : Dev nD) (b : Ref sig .tc) (h : ∀ x ∈ ([main_v5, main_v4, main_v3, main_v2, main_v1, main_v0] : List (Ref sig .tc)), b ≠ x) :
    W6 m ρ c (Proc.devRef .tc b) = m ((c : Thread nD τ).loc b) :=
  (keep5 m ρ c b (h _ (List.mem_cons_self))).trans (upto5 m ρ c b (fun x hx => h x (List.mem_cons_of_mem _ (hx))))

theorem upto7 (c : Dev nD) (b : Ref sig .tc) (h : ∀ x ∈ ([main_v6, main_v5, main_v4, main_v3, main_v2, main_v1, main_v0] : List (Ref sig .tc)), b ≠ x) :
    W7 m ρ c (Proc.devRef .tc b) = m ((c : Thread nD τ).loc b) :=
  (keep6 m ρ c b (h _ (List.mem_cons_self))).trans (upto6 m ρ c b (fun x hx => h x (List.mem_cons_of_mem _ (hx))))

theorem upto8 (c : Dev nD) (b : Ref sig .tc) (h : ∀ x ∈ ([main_v7, main_v6, main_v5, main_v4, main_v3, main_v2, main_v1, main_v0] : List (Ref sig .tc)), b ≠ x) :
    W8 m ρ c (Proc.devRef .tc b) = m ((c : Thread nD τ).loc b) :=
  (keep7 m ρ c b (h _ (List.mem_cons_self))).trans (upto7 m ρ c b (fun x hx => h x (List.mem_cons_of_mem _ (hx))))

theorem upto9 (c : Dev nD) (b : Ref sig .tc) (h : ∀ x ∈ ([main_v8, main_v7, main_v6, main_v5, main_v4, main_v3, main_v2, main_v1, main_v0] : List (Ref sig .tc)), b ≠ x) :
    W9 m ρ c (Proc.devRef .tc b) = m ((c : Thread nD τ).loc b) :=
  (keep8 m ρ c b (h _ (List.mem_cons_self))).trans (upto8 m ρ c b (fun x hx => h x (List.mem_cons_of_mem _ (hx))))

theorem upto10 (c : Dev nD) (b : Ref sig .tc) (h : ∀ x ∈ ([main_v9, main_v8, main_v7, main_v6, main_v5, main_v4, main_v3, main_v2, main_v1, main_v0] : List (Ref sig .tc)), b ≠ x) :
    W10 m ρ c (Proc.devRef .tc b) = m ((c : Thread nD τ).loc b) :=
  (keep9 m ρ c b (h _ (List.mem_cons_self))).trans (upto9 m ρ c b (fun x hx => h x (List.mem_cons_of_mem _ (hx))))

theorem upto11 (c : Dev nD) (b : Ref sig .tc) (h : ∀ x ∈ ([main_v10, main_v9, main_v8, main_v7, main_v6, main_v5, main_v4, main_v3, main_v2, main_v1, main_v0] : List (Ref sig .tc)), b ≠ x) :
    W11 m ρ c (Proc.devRef .tc b) = m ((c : Thread nD τ).loc b) :=
  (keep10 m ρ c b (h _ (List.mem_cons_self))).trans (upto10 m ρ c b (fun x hx => h x (List.mem_cons_of_mem _ (hx))))

theorem upto12 (c : Dev nD) (b : Ref sig .tc) (h : ∀ x ∈ ([main_v11, main_v10, main_v9, main_v8, main_v7, main_v6, main_v5, main_v4, main_v3, main_v2, main_v1, main_v0] : List (Ref sig .tc)), b ≠ x) :
    W12 m ρ c (Proc.devRef .tc b) = m ((c : Thread nD τ).loc b) :=
  (keep11 m ρ c b (h _ (List.mem_cons_self))).trans (upto11 m ρ c b (fun x hx => h x (List.mem_cons_of_mem _ (hx))))

theorem upto13 (c : Dev nD) (b : Ref sig .tc) (h : ∀ x ∈ ([main_v12, main_v11, main_v10, main_v9, main_v8, main_v7, main_v6, main_v5, main_v4, main_v3, main_v2, main_v1, main_v0] : List (Ref sig .tc)), b ≠ x) :
    W13 m ρ c (Proc.devRef .tc b) = m ((c : Thread nD τ).loc b) :=
  (keep12 m ρ c b (h _ (List.mem_cons_self))).trans (upto12 m ρ c b (fun x hx => h x (List.mem_cons_of_mem _ (hx))))

theorem upto14 (c : Dev nD) (b : Ref sig .tc) (h : ∀ x ∈ ([main_v13, main_v12, main_v11, main_v10, main_v9, main_v8, main_v7, main_v6, main_v5, main_v4, main_v3, main_v2, main_v1, main_v0] : List (Ref sig .tc)), b ≠ x) :
    W14 m ρ c (Proc.devRef .tc b) = m ((c : Thread nD τ).loc b) :=
  (keep13 m ρ c b (h _ (List.mem_cons_self))).trans (upto13 m ρ c b (fun x hx => h x (List.mem_cons_of_mem _ (hx))))

theorem upto15 (c : Dev nD) (b : Ref sig .tc) (h : ∀ x ∈ ([main_v14, main_v13, main_v12, main_v11, main_v10, main_v9, main_v8, main_v7, main_v6, main_v5, main_v4, main_v3, main_v2, main_v1, main_v0] : List (Ref sig .tc)), b ≠ x) :
    W15 m ρ c (Proc.devRef .tc b) = m ((c : Thread nD τ).loc b) :=
  (keep14 m ρ c b (h _ (List.mem_cons_self))).trans (upto14 m ρ c b (fun x hx => h x (List.mem_cons_of_mem _ (hx))))

theorem upto16 (c : Dev nD) (b : Ref sig .tc) (h : ∀ x ∈ ([main_v15_1, main_v15_0, main_v14, main_v13, main_v12, main_v11, main_v10, main_v9, main_v8, main_v7, main_v6, main_v5, main_v4, main_v3, main_v2, main_v1, main_v0] : List (Ref sig .tc)), b ≠ x) :
    W16 m ρ c (Proc.devRef .tc b) = m ((c : Thread nD τ).loc b) :=
  (keep15 m ρ c b (h _ (List.mem_cons_of_mem _ (List.mem_cons_self))) (h _ (List.mem_cons_self))).trans (upto15 m ρ c b (fun x hx => h x (List.mem_cons_of_mem _ (List.mem_cons_of_mem _ (hx)))))

end Cert.KernelIdeal.Ladder

end
-- ==== Proof.Spec.lean ====
/-
  Two graphs, each encoded by three dense graph-convolution layers, and a two-view attention that fuses the two
  encodings: the four results as functions of the argument arrays, entry by entry, on the extended reals.

  A layer is  adj · (h · W) + b ;  between layers the entries are clipped below at zero.  With  P₁ = x · W₁ ,
  P₂ = relu(adj · P₁ + b₁) · W₂ ,  P₃ = relu(adj · P₂ + b₂) · W₃  the encoding is  z = adj · P₃ + b₃ : the same
  composition whether one reads it as "project, then propagate" or layer by layer, so nothing is rearranged there.
  The attention scores a view by  w = tanh([z | x] · Wp₁ + bp₁) · Wp₂ ; the product with the joined matrix [z | x]
  splits over the 32 rows of Wp₁ that meet z and the 128 rows that meet x (a sum over 160 indices is the sum over the
  first 32 plus the sum over the last 128: only associativity and commutativity of +).  The two scores are
  normalised by a softmax over the two views, computed with the larger score subtracted.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- An [n, d] matrix of extended reals, indexed as the arrays are. -/
abbrev Mat (n d : ℕ) : Type := (⟨2, ![n, d]⟩ : Shape).Idx → EReal
/-- A [d] vector of extended reals. -/
abbrev Row (d : ℕ) : Type := (⟨1, ![d]⟩ : Shape).Idx → EReal

/-- The value of the all-zero float pattern (it is 0; both programs carry the same pattern, so it is never evaluated). -/
abbrev z0 : EReal := Ideal.ofBits .f32 0x00000000#32

/-- The matrix product: entry (p, o) is the sum over j of A(p, j) · B(j, o). -/
def mm {n k d : ℕ} (A : Mat n k) (B : Mat k d) : Mat n d := fun i => ∑ j : Fin k, A (ix2 (i 0) j) * B (ix2 j (i 1))

theorem mm_apply {n k d : ℕ} (A : Mat n k) (B : Mat k d) (p : Fin n) (o : Fin d) :
    mm A B (ix2 p o) = ∑ j : Fin k, A (ix2 p j) * B (ix2 j o) := rfl

/-- A bias given as a [1, d] matrix added to every row. -/
def addRow1 {n d : ℕ} (X : Mat n d) (B : Mat 1 d) : Mat n d := fun i => X i + B (ix2 (0 : Fin 1) (i 1))

theorem addRow1_apply {n d : ℕ} (X : Mat n d) (B : Mat 1 d) (p : Fin n) (o : Fin d) :
    addRow1 X B (ix2 p o) = X (ix2 p o) + B (ix2 (0 : Fin 1) o) := rfl

/-- A bias vector added to every row. -/
def addRow {n d : ℕ} (X : Mat n d) (b : Row d) : Mat n d := fun i => X i + b (ix1 (i 1))

theorem addRow_apply {n d : ℕ} (X : Mat n d) (b : Row d) (p : Fin n) (o : Fin d) :
    addRow X b (ix2 p o) = X (ix2 p o) + b (ix1 o) := rfl

/-- A vector laid out as the one row of a [1, d] matrix. -/
def asRow {d : ℕ} (b : Row d) : Mat 1 d := fun i => b (ix1 (i 1))

theorem addRow1_asRow {n d : ℕ} (X : Mat n d) (b : Row d) : addRow1 X (asRow b) = addRow X b := rfl

/-- Entries clipped below at zero. -/
def relu {n d : ℕ} (X : Mat n d) : Mat n d := fun i => max (X i) z0

theorem relu_apply {n d : ℕ} (X : Mat n d) (i : (⟨2, ![n, d]⟩ : Shape).Idx) : relu X i = max (X i) z0 := rfl

/-- One layer's output already projected by the next layer's weights: relu(adj · P + b) · Wn. -/
def midLayer {n h hn : ℕ} (A : Mat n n) (P : Mat n h) (B : Mat 1 h) (Wn : Mat h hn) : Mat n hn :=
  mm (relu (addRow1 (mm A P) B)) Wn

/-- The last layer: adj · P + b. -/
def lastLayer {n h : ℕ} (A : Mat n n) (P : Mat n h) (B : Mat 1 h) : Mat n h := addRow1 (mm A P) B

theorem midLayer_apply {n h hn : ℕ} (A : Mat n n) (P : Mat n h) (B : Mat 1 h) (Wn : Mat h hn) (p : Fin n) (o : Fin hn) :
    midLayer A P B Wn (ix2 p o)
      = ∑ j : Fin h, max ((∑ q : Fin n, A (ix2 p q) * P (ix2 q j)) + B (ix2 (0 : Fin 1) j)) z0 * Wn (ix2 j o) := rfl

theorem lastLayer_apply {n h : ℕ} (A : Mat n n) (P : Mat n h) (B : Mat 1 h) (p : Fin n) (o : Fin h) :
    lastLayer A P B (ix2 p o) = (∑ q : Fin n, A (ix2 p q) * P (ix2 q o)) + B (ix2 (0 : Fin 1) o) := rfl

/-- The encoding of one graph. -/
def encode {n f h1 h2 h3 : ℕ} (X : Mat n f) (A : Mat n n) (W1 : Mat f h1) (b1 : Row h1) (W2 : Mat h1 h2) (b2 : Row h2)
    (W3 : Mat h2 h3) (b3 : Row h3) : Mat n h3 :=
  lastLayer A (midLayer A (midLayer A (mm X W1) (asRow b1) W2) (asRow b2) W3) (asRow b3)

/-- Rows a, a+1, …, a+k-1 of a matrix. -/
def rowsFrom {n d : ℕ} (k a : ℕ) (h : a + k ≤ n) (W : Mat n d) : Mat k d :=
  fun i => W (ix2 (⟨a + (i 0).val, lt_of_lt_of_le (Nat.add_lt_add_left (idx2_lt0 i) a) h⟩ : Fin n) (i 1))

theorem rowsFrom_apply {n d : ℕ} (k a : ℕ) (h : a + k ≤ n) (W : Mat n d) (j : Fin k) (o : Fin d) :
    rowsFrom k a h W (ix2 j o) = W (ix2 (⟨a + j.val, lt_of_lt_of_le (Nat.add_lt_add_left j.isLt a) h⟩ : Fin n) o) := rfl

/-- The hidden layer of the scoring network for one view: tanh(z · Wz + x · Wx + bp₁), Wz the first 32 rows of Wp₁
    and Wx the other 128. -/
def hidden {n : ℕ} (Z : Mat n 32) (X : Mat n 128) (Wp1 : Mat 160 160) (B : Mat 1 160) : Mat n 160 :=
  fun i => Ideal.tanh (addRow1 (fun i => mm Z (rowsFrom 32 0 (by norm_num) Wp1) i + mm X (rowsFrom 128 32 (by norm_num) Wp1) i) B i)

/-- The score of one view, an [n, 1] column. -/
def score {n : ℕ} (Z : Mat n 32) (X : Mat n 128) (Wp1 : Mat 160 160) (B : Mat 1 160) (Wp2 : Mat 160 1) : Mat n 1 :=
  mm (hidden Z X Wp1 B) Wp2

/-- The weight of the first view at a node: e₁ / (e₁ + e₂). -/
def weight1 {n : ℕ} (w1 w2 : Mat n 1) : Mat n 1 :=
  fun i => Ideal.div (Ideal.exp (w1 i - max (w1 i) (w2 i))) (Ideal.exp (w1 i - max (w1 i) (w2 i)) + Ideal.exp (w2 i - max (w1 i) (w2 i)))

/-- The weight of the second view at a node: e₂ / (e₁ + e₂). -/
def weight2 {n : ℕ} (w1 w2 : Mat n 1) : Mat n 1 :=
  fun i => Ideal.div (Ideal.exp (w2 i - max (w1 i) (w2 i))) (Ideal.exp (w1 i - max (w1 i) (w2 i)) + Ideal.exp (w2 i - max (w1 i) (w2 i)))

/-- The fused encoding: each node's two encodings mixed by its two weights. -/
def fuse {n : ℕ} (b1 b2 : Mat n 1) (Ze Zf : Mat n 32) : Mat n 32 :=
  fun i => b1 (ix2 (i 0) (0 : Fin 1)) * Ze i + b2 (ix2 (i 0) (0 : Fin 1)) * Zf i

theorem fuse_apply {n : ℕ} (b1 b2 : Mat n 1) (Ze Zf : Mat n 32) (p : Fin n) (o : Fin 32) :
    fuse b1 b2 Ze Zf (ix2 p o) = b1 (ix2 p (0 : Fin 1)) * Ze (ix2 p o) + b2 (ix2 p (0 : Fin 1)) * Zf (ix2 p o) := rfl

/-- The two weights side by side: column 0 the first view's, column 1 the second's. -/
def weights {n : ℕ} (b1 b2 : Mat n 1) : Mat n 2 :=
  fun i => if (i 1).val = 0 then b1 (ix2 (i 0) (0 : Fin 1)) else b2 (ix2 (i 0) (0 : Fin 1))

theorem weights_apply {n : ℕ} (b1 b2 : Mat n 1) (p : Fin n) (o : Fin 2) :
    weights b1 b2 (ix2 p o) = if o.val = 0 then b1 (ix2 p (0 : Fin 1)) else b2 (ix2 p (0 : Fin 1)) := rfl

/-- The two normalised weights of every node, from the two encodings and the two feature matrices. -/
def attnWeights {n : ℕ} (Ze : Mat n 32) (Xe : Mat n 128) (Zf : Mat n 32) (Xf : Mat n 128) (Wp1 : Mat 160 160) (B : Mat 1 160)
    (Wp2 : Mat 160 1) : Mat n 2 :=
  weights (weight1 (score Ze Xe Wp1 B Wp2) (score Zf Xf Wp1 B Wp2)) (weight2 (score Ze Xe Wp1 B Wp2) (score Zf Xf Wp1 B Wp2))

/-- The fused encoding of every node, from the two encodings and the two feature matrices. -/
def attnFused {n : ℕ} (Ze : Mat n 32) (Xe : Mat n 128) (Zf : Mat n 32) (Xf : Mat n 128) (Wp1 : Mat 160 160) (B : Mat 1 160)
    (Wp2 : Mat 160 1) : Mat n 32 :=
  fuse (weight1 (score Ze Xe Wp1 B Wp2) (score Zf Xf Wp1 B Wp2)) (weight2 (score Ze Xe Wp1 B Wp2) (score Zf Xf Wp1 B Wp2)) Ze Zf

end Cert.GcnSpec

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.RegionProj0.lean ====
/-
  Launch 0: the projection  P = x · W  of a graph's features, 400 rows at a time.

  The grid has 25 points; point t receives rows 400t … 400t+399 of x and the whole of W, and writes rows
  400t … 400t+399 of the product.  Entry (p, o) of what it writes is the sum over j of x(400t+p, j) · W(j, o): the
  block is the restriction of the one whole-array product to those rows.  The 25 blocks tile the 10000 rows, so the
  output array ends as x · W.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Proj0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-block windows sit at block row t, the weight window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at (p, o): row p of the feature block against column o of the weights. -/
theorem pay_apply (x0 : Vec Ideal S400x128 .f32) (x1 : Vec Ideal S128x64 .f32) (p : Fin 400) (o : Fin 64) :
    k0_pay1 x0 x1 (ix2 p o) = ∑ j : Fin 128, x0 (ix2 p j) * x1 (ix2 j o) := by
  unfold k0_pay1
  exact Cert.LibPlainDot.matmul_zero_apply dot_S400x128_S128x64_S400x64_1_0_0_1_n_n rfl rfl rfl rfl rfl rfl none x0 x1 p o

/-- What point t writes back is rows 400t … 400t+399 of x · W. -/
theorem flushed_eq (c : Dev nD) (t : Fin cfg0.N) :
    (dat0 V c).flushed 2 t = ((cfg0.win 2).blk t).view.read (Elt Ideal)
      (mm (n := 10000) (k := 128) (d := 64) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S400x128) hz, View.ld_unit_zero (S := S128x64) hz]
  obtain ⟨e00, e01, e10, e11, e20, e21⟩ := idx_facts t
  have ht : t.val < 25 := t.isLt
  funext j
  obtain ⟨p, o, rfl⟩ : ∃ (p : Fin 400) (o : Fin 64), j = ix2 p o := ⟨j 0, j 1, eq_ix2 j⟩
  have hp : p.val < 400 := p.isLt
  refine (pay_apply (iblk0 V c 0 t) (iblk0 V c 1 t) p o).trans ?_
  have hout : ((cfg0.win 2).blk t).view.emb (ix2 p o) = ix2 (⟨t.val * 400 + p.val, by omega⟩ : Fin 10000) o := by
    funext a; apply Fin.ext
    match a with
    | ⟨0, _⟩ => show win0_2.index t (0 : Fin 2) * 400 + 1 * p.val = t.val * 400 + p.val; omega
    | ⟨1, _⟩ => show win0_2.index t (1 : Fin 2) * 64 + 1 * o.val = o.val; omega
  show _ = mm (n := 10000) (k := 128) (d := 64) (V c (Pipeline.arrRef spec0 0)) (V c (Pipeline.arrRef spec0 1)) (((cfg0.win 2).blk t).view.emb (ix2 p o))
  rw [hout, mm_apply]
  refine Finset.sum_congr rfl fun j _ => ?_
  have h0 : ((cfg0.win 0).blk t).view.emb (ix2 p j) = ix2 (⟨t.val * 400 + p.val, by omega⟩ : Fin 10000) j := by
    funext a; apply Fin.ext
    match a with
    | ⟨0, _⟩ => show win0_0.index t (0 : Fin 2) * 400 + 1 * p.val = t.val * 400 + p.val; omega
    | ⟨1, _⟩ => show win0_0.index t (1 : Fin 2) * 128 + 1 * j.val = j.val; omega
  have h1 : ((cfg0.win 1).blk t).view.emb (ix2 j o) = ix2 j o := by
    funext a; apply Fin.ext
    match a with
    | ⟨0, _⟩ => show win0_1.index t (0 : Fin 2) * 128 + 1 * j.val = j.val; omega
    | ⟨1, _⟩ => show win0_1.index t (1 : Fin 2) * 64 + 1 * o.val = o.val; omega
  exact congrArg₂ (fun a b : EReal => a * b) (congrArg (V c (Pipeline.arrRef spec0 0)) h0) (congrArg (V c (Pipeline.arrRef spec0 1)) h1)

/-- An index of the output array is in point t's block iff its row is one of the block's 400 rows. -/
theorem mem_blk (t : Fin cfg0.N) (i : S10000x64.Idx) :
    i ∈ ((cfg0.win 2).blk t).view.set ↔ ∀ a : Fin 2, win0_2.index t a * S400x64.size a ≤ (i a).val ∧ (i a).val < win0_2.index t a * S400x64.size a + S400x64.size a := by
  show i ∈ ((View.whole main_v0).slice (win0_2.rect t)).set ↔ _
  rw [View.set_slice_whole, Rect.mem_set_unit]
  exact Iff.rfl

/-- Row r lies in the block of point r / 400. -/
theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  have hq : (i 0).val / 400 < 25 := by omega
  refine ⟨⟨(i 0).val / 400, hq⟩, flush0_2 _, ?_⟩
  rw [mem_blk]
  obtain ⟨-, -, -, -, e20, e21⟩ := idx_facts ⟨(i 0).val / 400, hq⟩
  have e20' : win0_2.index ⟨(i 0).val / 400, hq⟩ (0 : Fin 2) = (i 0).val / 400 := e20
  intro a
  match a with
  | ⟨0, _⟩ => show win0_2.index ⟨(i 0).val / 400, hq⟩ (0 : Fin 2) * 400 ≤ (i 0).val ∧ (i 0).val < win0_2.index ⟨(i 0).val / 400, hq⟩ (0 : Fin 2) * 400 + 400; omega
  | ⟨1, _⟩ => show win0_2.index ⟨(i 0).val / 400, hq⟩ (1 : Fin 2) * 64 ≤ (i 1).val ∧ (i 1).val < win0_2.index ⟨(i 0).val / 400, hq⟩ (1 : Fin 2) * 64 + 64; omega

/-- After the launch the output array is x · W of the two input arrays as the launch found them. -/
theorem final (c : Dev nD) : (dat0 V c).arrAt 2 cfg0.N
    = mm (n := 10000) (k := 128) (d := 64) (V c (Pipeline.arrRef spec0 0)) (V c (Pipeline.arrRef spec0 1)) :=
  (dat0 V c).arrAt_eq_of_cover 2 _ (fun t _ => flushed_eq V c t) (cover)

end Cert.KernelIdeal.Proj0

end
-- ==== Proof.RegionMid1.lean ====
/-
  Launch 1: one graph-convolution layer with the next layer's projection folded in,
  Pn = relu(adj · P + b) · Wn, 400 rows at a time.

  The grid has 25 points; point t receives rows 400t … 400t+399 of adj, and the whole of P ([10000, 64]), of the bias
  (as a [1, 64] row) and of Wn ([64, 32]).  Entry (p, o) of what it writes is
  the sum over j of  max( (sum over q of adj(400t+p, q) · P(q, j)) + b(j), 0 ) · Wn(j, o):
  row 400t+p of the whole-array expression, so the block is that expression's restriction and the 25 blocks tile it.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Mid1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency strip and the output sit at block row t, the three resident operands
    at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's result at (p, o). -/
theorem pay_apply (x0 : Vec Ideal S400x10000 .f32) (x1 : Vec Ideal S10000x64 .f32) (x2 : Vec Ideal S1x64 .f32)
    (x3 : Vec Ideal S64x32 .f32) (p : Fin 400) (o : Fin 32) :
    k1_pay1 x0 x1 x2 x3 (ix2 p o)
      = ∑ j : Fin 64, max ((∑ q : Fin 10000, x0 (ix2 p q) * x1 (ix2 q j)) + x2 (ix2 (0 : Fin 1) j)) z0 * x3 (ix2 j o) := by
  unfold k1_pay1
  refine (Cert.LibPlainDot.matmul_zero_apply dot_S400x64_S64x32_S400x32_1_0_0_1_n_n rfl rfl rfl rfl rfl rfl none _ x3 p o).trans ?_
  refine Finset.sum_congr rfl fun j _ => ?_
  refine congrArg (fun a : EReal => a * x3 (ix2 j o)) ?_
  simp only [maximumf_apply, addf_apply, broadcast_apply, shapeCast_self]
  rw [broadcastTo_1b_ab_apply]
  exact congrArg (fun a : EReal => max (a + x2 (ix2 (0 : Fin 1) j)) z0)
    (Cert.LibPlainDot.matmul_zero_apply dot_S400x10000_S10000x64_S400x64_1_0_0_1_n_n rfl rfl rfl rfl rfl rfl none x0 x1 p j)

/-- What point t writes back is rows 400t … 400t+399 of relu(adj · P + b) · Wn. -/
theorem flushed_eq (c : Dev nD) (t : Fin cfg1.N) :
    (dat1 V c).flushed 4 t = ((cfg1.win 4).blk t).view.read (Elt Ideal)
      (midLayer (n := 10000) (h := 64) (hn := 32) (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x64) hz, View.ld_unit_zero (S := S1x64) hz,
    View.ld_unit_zero (S := S64x32) hz]
  obtain ⟨e00, e01, e10, e11, e20, e21, e30, e31, e40, e41⟩ := idx_facts t
  have ht : t.val < 25 := t.isLt
  funext i
  obtain ⟨p, o, rfl⟩ : ∃ (p : Fin 400) (o : Fin 32), i = ix2 p o := ⟨i 0, i 1, eq_ix2 i⟩
  have hp : p.val < 400 := p.isLt
  refine (pay_apply (iblk1 V c 0 t) (iblk1 V c 1 t) (iblk1 V c 2 t) (iblk1 V c 3 t) p o).trans ?_
  have hout : ((cfg1.win 4).blk t).view.emb (ix2 p o) = ix2 (⟨t.val * 400 + p.val, by omega⟩ : Fin 10000) o := by
    funext a; apply Fin.ext
    match a with
    | ⟨0, _⟩ => show win1_4.index t (0 : Fin 2) * 400 + 1 * p.val = t.val * 400 + p.val; omega
    | ⟨1, _⟩ => show win1_4.index t (1 : Fin 2) * 32 + 1 * o.val = o.val; omega
  show _ = midLayer (n := 10000) (h := 64) (hn := 32) (V c (Pipeline.arrRef spec1 0)) (V c (Pipeline.arrRef spec1 1))
        (V c (Pipeline.arrRef spec1 2)) (V c (Pipeline.arrRef spec1 3)) (((cfg1.win 4).blk t).view.emb (ix2 p o))
  rw [hout, midLayer_apply]
  refine Finset.sum_congr rfl fun j _ => ?_
  have h3 : ((cfg1.win 3).blk t).view.emb (ix2 j o) = ix2 j o := by
    funext a; apply Fin.ext
    match a with
    | ⟨0, _⟩ => show win1_3.index t (0 : Fin 2) * 64 + 1 * j.val = j.val; omega
    | ⟨1, _⟩ => show win1_3.index t (1 : Fin 2) * 32 + 1 * o.val = o.val; omega
  have h2 : ((cfg1.win 2).blk t).view.emb (ix2 (0 : Fin 1) j) = ix2 (0 : Fin 1) j := by
    funext a; apply Fin.ext
    match a with
    | ⟨0, _⟩ => show win1_2.index t (0 : Fin 2) * 1 + 1 * (0 : Fin 1).val = (0 : Fin 1).val; omega
    | ⟨1, _⟩ => show win1_2.index t (1 : Fin 2) * 64 + 1 * j.val = j.val; omega
  refine congrArg₂ (fun a b : EReal => a * b) (congrArg (fun u : EReal => max u z0) (congrArg₂ (· + ·) (Finset.sum_congr rfl fun q _ => ?_) ?_)) ?_
  · have h0 : ((cfg1.win 0).blk t).view.emb (ix2 p q) = ix2 (⟨t.val * 400 + p.val, by omega⟩ : Fin 10000) q := by
      funext a; apply Fin.ext
      match a with
      | ⟨0, _⟩ => show win1_0.index t (0 : Fin 2) * 400 + 1 * p.val = t.val * 400 + p.val; omega
      | ⟨1, _⟩ => show win1_0.index t (1 : Fin 2) * 10000 + 1 * q.val = q.val; omega
    have h1 : ((cfg1.win 1).blk t).view.emb (ix2 q j) = ix2 q j := by
      funext a; apply Fin.ext
      match a with
      | ⟨0, _⟩ => show win1_1.index t (0 : Fin 2) * 10000 + 1 * q.val = q.val; omega
      | ⟨1, _⟩ => show win1_1.index t (1 : Fin 2) * 64 + 1 * j.val = j.val; omega
    exact congrArg₂ (fun a b : EReal => a * b) (congrArg (V c (Pipeline.arrRef spec1 0)) h0) (congrArg (V c (Pipeline.arrRef spec1 1)) h1)
  · exact congrArg (V c (Pipeline.arrRef spec1 2)) h2
  · exact congrArg (V c (Pipeline.arrRef spec1 3)) h3

/-- An index of the output array is in point t's block iff its row is one of the block's 400 rows. -/
theorem mem_blk (t : Fin cfg1.N) (i : S10000x32.Idx) :
    i ∈ ((cfg1.win 4).blk t).view.set ↔ ∀ a : Fin 2, win1_4.index t a * S400x32.size a ≤ (i a).val ∧ (i a).val < win1_4.index t a * S400x32.size a + S400x32.size a := by
  show i ∈ ((View.whole main_v2).slice (win1_4.rect t)).set ↔ _
  rw [View.set_slice_whole, Rect.mem_set_unit]
  exact Iff.rfl

/-- Row r lies in the block of point r / 400. -/
theorem cover (i : S10000x32.Idx) : ∃ t : Fin cfg1.N, (cfg1.win 4).flush t = true ∧ i ∈ ((cfg1.win 4).blk t).view.set := by
  have hi0 : (i 0).val < 10000 := (i 0).isLt
  have hi1 : (i 1).val < 32 := (i 1).isLt
  have hq : (i 0).val / 400 < 25 := by omega
  refine ⟨⟨(i 0).val / 400, hq⟩, flush1_4 _, ?_⟩
  rw [mem_blk]
  have hf := idx_facts ⟨(i 0).val / 400, hq⟩
  have e0 : win1_4.index ⟨(i 0).val / 400, hq⟩ (0 : Fin 2) = (i 0).val / 400 := hf.2.2.2.2.2.2.2.2.1
  have e1 : win1_4.index ⟨(i 0).val / 400, hq⟩ (1 : Fin 2) = 0 := hf.2.2.2.2.2.2.2.2.2
  intro a
  match a with
  | ⟨0, _⟩ => show win1_4.index ⟨(i 0).val / 400, hq⟩ (0 : Fin 2) * 400 ≤ (i 0).val ∧ (i 0).val < win1_4.index ⟨(i 0).val / 400, hq⟩ (0 : Fin 2) * 400 + 400; omega
  | ⟨1, _⟩ => show win1_4.index ⟨(i 0).val / 400, hq⟩ (1 : Fin 2) * 32 ≤ (i 1).val ∧ (i 1).val < win1_4.index ⟨(i 0).val / 400, hq⟩ (1 : Fin 2) * 32 + 32; omega

/-- After the launch the output array is relu(adj · P + b) · Wn of the four input arrays as the launch found them. -/
theorem final (c : Dev nD) : (dat1 V c).arrAt 4 cfg1.N
    = midLayer (n := 10000) (h := 64) (hn := 32) (V c (Pipeline.arrRef spec1 0)) (V c (Pipeline.arrRef spec1 1))
        (V c (Pipeline.arrRef spec1 2)) (V c (Pipeline.arrRef spec1 3)) :=
  (dat1 V c).arrAt_eq_of_cover 4 _ (fun t _ => flushed_eq V c t) (cover)

end Cert.KernelIdeal.Mid1

end
-- ==== Proof.RegionMid2.lean ====
/-
  Launch 2: one graph-convolution layer with the next layer's projection folded in,
  Pn = relu(adj · P + b) · Wn, 400 rows at a time.

  The grid has 25 points; point t receives rows 400t … 400t+399 of adj, and the whole of P ([10000, 32]), of the bias
  (as a [1, 32] row) and of Wn ([32, 32]).  Entry (p, o) of what it writes is
  the sum over j of  max( (sum over q of adj(400t+p, q) · P(q, j)) + b(j), 0 ) · Wn(j, o):
  row 400t+p of the whole-array expression, so the block is that expression's restriction and the 25 blocks tile it.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Mid2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency strip and the output sit at block row t, the three resident operands
    at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The body's result at (p, o). -/
theorem pay_apply (x0 : Vec Ideal S400x10000 .f32) (x1 : Vec Ideal S10000x32 .f32) (x2 : Vec Ideal S1x32 .f32)
    (x3 : Vec Ideal S32x32 .f32) (p : Fin 400) (o : Fin 32) :
    k2_pay1 x0 x1 x2 x3 (ix2 p o)
      = ∑ j : Fin 32, max ((∑ q : Fin 10000, x0 (ix2 p q) * x1 (ix2 q j)) + x2 (ix2 (0 : Fin 1) j)) z0 * x3 (ix2 j o) := by
  unfold k2_pay1
  refine (Cert.LibPlainDot.matmul_zero_apply dot_S400x32_S32x32_S400x32_1_0_0_1_n_n rfl rfl rfl rfl rfl rfl none _ x3 p o).trans ?_
  refine Finset.sum_congr rfl fun j _ => ?_
  refine congrArg (fun a : EReal => a * x3 (ix2 j o)) ?_
  simp only [maximumf_apply, addf_apply, broadcast_apply, shapeCast_self]
  rw [broadcastTo_1b_ab_apply]
  exact congrArg (fun a : EReal => max (a + x2 (ix2 (0 : Fin 1) j)) z0)
    (Cert.LibPlainDot.matmul_zero_apply dot_S400x10000_S10000x32_S400x32_1_0_0_1_n_n rfl rfl rfl rfl rfl rfl none x0 x1 p j)

/-- What point t writes back is rows 400t … 400t+399 of relu(adj · P + b) · Wn. -/
theorem flushed_eq (c : Dev nD) (t : Fin cfg2.N) :
    (dat2 V c).flushed 4 t = ((cfg2.win 4).blk t).view.read (Elt Ideal)
      (midLayer (n := 10000) (h := 32) (hn := 32) (V c (Pipeline.arrRef spec2 0)) (V c (Pipeline.arrRef spec2 1))
        (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x32) hz, View.ld_unit_zero (S := S1x32) hz,
    View.ld_unit_zero (S := S32x32) hz]
  obtain ⟨e00, e01, e10, e11, e20, e21, e30, e31, e40, e41⟩ := idx_facts t
  have ht : t.val < 25 := t.isLt
  funext i
  obtain ⟨p, o, rfl⟩ : ∃ (p : Fin 400) (o : Fin 32), i = ix2 p o := ⟨i 0, i 1, eq_ix2 i⟩
  have hp : p.val < 400 := p.isLt
  refine (pay_apply (iblk2 V c 0 t) (iblk2 V c 1 t) (iblk2 V c 2 t) (iblk2 V c 3 t) p o).trans ?_
  have hout : ((cfg2.win 4).blk t).view.emb (ix2 p o) = ix2 (⟨t.val * 400 + p.val, by omega⟩ : Fin 10000) o := by
    funext a; apply Fin.ext
    match a with
    | ⟨0, _⟩ => show win2_4.index t (0 : Fin 2) * 400 + 1 * p.val = t.val * 400 + p.val; omega
    | ⟨1, _⟩ => show win2_4.index t (1 : Fin 2) * 32 + 1 * o.val = o.val; omega
  show _ = midLayer (n := 10000) (h := 32) (hn := 32) (V c (Pipeline.arrRef spec2 0)) (V c (Pipeline.arrRef spec2 1))
        (V c (Pipeline.arrRef spec2 2)) (V c (Pipeline.arrRef spec2 3)) (((cfg2.win 4).blk t).view.emb (ix2 p o))
  rw [hout, midLayer_apply]
  refine Finset.sum_congr rfl fun j _ => ?_
  have h3 : ((cfg2.win 3).blk t).view.emb (ix2 j o) = ix2 j o := by
    funext a; apply Fin.ext
    match a with
    | ⟨0, _⟩ => show win2_3.index t (0 : Fin 2) * 32 + 1 * j.val = j.val; omega
    | ⟨1, _⟩ => show win2_3.index t (1 : Fin 2) * 32 + 1 * o.val = o.val; omega
  have h2 : ((cfg2.win 2).blk t).view.emb (ix2 (0 : Fin 1) j) = ix2 (0 : Fin 1) j := by
    funext a; apply Fin.ext
    match a with
    | ⟨0, _⟩ => show win2_2.index t (0 : Fin 2) * 1 + 1 * (0 : Fin 1).val = (0 : Fin 1).val; omega
    | ⟨1, _⟩ => show win2_2.index t (1 : Fin 2) * 32 + 1 * j.val = j.val; omega
  refine congrArg₂ (fun a b : EReal => a * b) (congrArg (fun u : EReal => max u z0) (congrArg₂ (· + ·) (Finset.sum_congr rfl fun q _ => ?_) ?_)) ?_
  · have h0 : ((cfg2.win 0).blk t).view.emb (ix2 p q) = ix2 (⟨t.val * 400 + p.val, by omega⟩ : Fin 10000) q := by
      funext a; apply Fin.ext
      match a with
      | ⟨0, _⟩ => show win2_0.index t (0 : Fin 2) * 400 + 1 * p.val = t.val * 400 + p.val; omega
      | ⟨1, _⟩ => show win2_0.index t (1 : Fin 2) * 10000 + 1 * q.val = q.val; omega
    have h1 : ((cfg2.win 1).blk t).view.emb (ix2 q j) = ix2 q j := by
      funext a; apply Fin.ext
      match a with
      | ⟨0, _⟩ => show win2_1.index t (0 : Fin 2) * 10000 + 1 * q.val = q.val; omega
      | ⟨1, _⟩ => show win2_1.index t (1 : Fin 2) * 32 + 1 * j.val = j.val; omega
    exact congrArg₂ (fun a b : EReal => a * b) (congrArg (V c (Pipeline.arrRef spec2 0)) h0) (congrArg (V c (Pipeline.arrRef spec2 1)) h1)
  · exact congrArg (V c (Pipeline.arrRef spec2 2)) h2
  · exact congrArg (V c (Pipeline.arrRef spec2 3)) h3

/-- An index of the output array is in point t's block iff its row is one of the block's 400 rows. -/
theorem mem_blk (t : Fin cfg2.N) (i : S10000x32.Idx) :
    i ∈ ((cfg2.win 4).blk t).view.set ↔ ∀ a : Fin 2, win2_4.index t a * S400x32.size a ≤ (i a).val ∧ (i a).val < win2_4.index t a * S400x32.size a + S400x32.size a := by
  show i ∈ ((View.whole main_v4).slice (win2_4.rect t)).set ↔ _
  rw [View.set_slice_whole, Rect.mem_set_unit]
  exact Iff.rfl

/-- Row r lies in the block of point r / 400. -/
theorem cover (i : S10000x32.Idx) : ∃ t : Fin cfg2.N, (cfg2.win 4).flush t = true ∧ i ∈ ((cfg2.win 4).blk t).view.set := by
  have hi0 : (i 0).val < 10000 := (i 0).isLt
  have hi1 : (i 1).val < 32 := (i 1).isLt
  have hq : (i 0).val / 400 < 25 := by omega
  refine ⟨⟨(i 0).val / 400, hq⟩, flush2_4 _, ?_⟩
  rw [mem_blk]
  have hf := idx_facts ⟨(i 0).val / 400, hq⟩
  have e0 : win2_4.index ⟨(i 0).val / 400, hq⟩ (0 : Fin 2) = (i 0).val / 400 := hf.2.2.2.2.2.2.2.2.1
  have e1 : win2_4.index ⟨(i 0).val / 400, hq⟩ (1 : Fin 2) = 0 := hf.2.2.2.2.2.2.2.2.2
  intro a
  match a with
  | ⟨0, _⟩ => show win2_4.index ⟨(i 0).val / 400, hq⟩ (0 : Fin 2) * 400 ≤ (i 0).val ∧ (i 0).val < win2_4.index ⟨(i 0).val / 400, hq⟩ (0 : Fin 2) * 400 + 400; omega
  | ⟨1, _⟩ => show win2_4.index ⟨(i 0).val / 400, hq⟩ (1 : Fin 2) * 32 ≤ (i 1).val ∧ (i 1).val < win2_4.index ⟨(i 0).val / 400, hq⟩ (1 : Fin 2) * 32 + 32; omega

/-- After the launch the output array is relu(adj · P + b) · Wn of the four input arrays as the launch found them. -/
theorem final (c : Dev nD) : (dat2 V c).arrAt 4 cfg2.N
    = midLayer (n := 10000) (h := 32) (hn := 32) (V c (Pipeline.arrRef spec2 0)) (V c (Pipeline.arrRef spec2 1))
        (V c (Pipeline.arrRef spec2 2)) (V c (Pipeline.arrRef spec2 3)) :=
  (dat2 V c).arrAt_eq_of_cover 4 _ (fun t _ => flushed_eq V c t) (cover)

end Cert.KernelIdeal.Mid2

end
-- ==== Proof.RegionLast3.lean ====
/-
  Launch 3: the last graph-convolution layer  z = adj · P + b, 400 rows at a time.

  The grid has 25 points; point t receives rows 400t … 400t+399 of adj and the whole of P ([10000, 32]) and of the
  bias (a [1, 32] row).  Entry (p, o) of what it writes is (sum over q of adj(400t+p, q) · P(q, o)) + b(o): row
  400t+p of the whole-array expression; the 25 blocks tile the output.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Last3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's result at (p, o). -/
theorem pay_apply (x0 : Vec Ideal S400x10000 .f32) (x1 : Vec Ideal S10000x32 .f32) (x2 : Vec Ideal S1x32 .f32)
    (p : Fin 400) (o : Fin 32) :
    k3_pay1 x0 x1 x2 (ix2 p o) = (∑ q : Fin 10000, x0 (ix2 p q) * x1 (ix2 q o)) + x2 (ix2 (0 : Fin 1) o) := by
  unfold k3_pay1
  simp only [addf_apply, shapeCast_self]
  rw [broadcastTo_1b_ab_apply]
  exact congrArg (fun a : EReal => a + x2 (ix2 (0 : Fin 1) o))
    (Cert.LibPlainDot.matmul_zero_apply dot_S400x10000_S10000x32_S400x32_1_0_0_1_n_n rfl rfl rfl rfl rfl rfl none x0 x1 p o)

/-- What point t writes back is rows 400t … 400t+399 of adj · P + b. -/
theorem flushed_eq (c : Dev nD) (t : Fin cfg3.N) :
    (dat3 V c).flushed 3 t = ((cfg3.win 3).blk t).view.read (Elt Ideal)
      (lastLayer (n := 10000) (h := 32) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x32) hz, View.ld_unit_zero (S := S1x32) hz]
  obtain ⟨e00, e01, e10, e11, e20, e21, e30, e31⟩ := idx_facts t
  have ht : t.val < 25 := t.isLt
  funext i
  obtain ⟨p, o, rfl⟩ : ∃ (p : Fin 400) (o : Fin 32), i = ix2 p o := ⟨i 0, i 1, eq_ix2 i⟩
  have hp : p.val < 400 := p.isLt
  refine (pay_apply (iblk3 V c 0 t) (iblk3 V c 1 t) (iblk3 V c 2 t) p o).trans ?_
  have hout : ((cfg3.win 3).blk t).view.emb (ix2 p o) = ix2 (⟨t.val * 400 + p.val, by omega⟩ : Fin 10000) o := by
    funext a; apply Fin.ext
    match a with
    | ⟨0, _⟩ => show win3_3.index t (0 : Fin 2) * 400 + 1 * p.val = t.val * 400 + p.val; omega
    | ⟨1, _⟩ => show win3_3.index t (1 : Fin 2) * 32 + 1 * o.val = o.val; omega
  show _ = lastLayer (n := 10000) (h := 32) (V c (Pipeline.arrRef spec3 0)) (V c (Pipeline.arrRef spec3 1)) (V c (Pipeline.arrRef spec3 2))
        (((cfg3.win 3).blk t).view.emb (ix2 p o))
  rw [hout, lastLayer_apply]
  have h2 : ((cfg3.win 2).blk t).view.emb (ix2 (0 : Fin 1) o) = ix2 (0 : Fin 1) o := by
    funext a; apply Fin.ext
    match a with
    | ⟨0, _⟩ => show win3_2.index t (0 : Fin 2) * 1 + 1 * (0 : Fin 1).val = (0 : Fin 1).val; omega
    | ⟨1, _⟩ => show win3_2.index t (1 : Fin 2) * 32 + 1 * o.val = o.val; omega
  refine congrArg₂ (fun a b : EReal => a + b) (Finset.sum_congr rfl fun q _ => ?_) ?_
  · have h0 : ((cfg3.win 0).blk t).view.emb (ix2 p q) = ix2 (⟨t.val * 400 + p.val, by omega⟩ : Fin 10000) q := by
      funext a; apply Fin.ext
      match a with
      | ⟨0, _⟩ => show win3_0.index t (0 : Fin 2) * 400 + 1 * p.val = t.val * 400 + p.val; omega
      | ⟨1, _⟩ => show win3_0.index t (1 : Fin 2) * 10000 + 1 * q.val = q.val; omega
    have h1 : ((cfg3.win 1).blk t).view.emb (ix2 q o) = ix2 q o := by
      funext a; apply Fin.ext
      match a with
      | ⟨0, _⟩ => show win3_1.index t (0 : Fin 2) * 10000 + 1 * q.val = q.val; omega
      | ⟨1, _⟩ => show win3_1.index t (1 : Fin 2) * 32 + 1 * o.val = o.val; omega
    exact congrArg₂ (fun a b : EReal => a * b) (congrArg (V c (Pipeline.arrRef spec3 0)) h0) (congrArg (V c (Pipeline.arrRef spec3 1)) h1)
  · exact congrArg (V c (Pipeline.arrRef spec3 2)) h2

/-- An index of the output array is in point t's block iff its row is one of the block's 400 rows. -/
theorem mem_blk (t : Fin cfg3.N) (i : S10000x32.Idx) :
    i ∈ ((cfg3.win 3).blk t).view.set ↔ ∀ a : Fin 2, win3_3.index t a * S400x32.size a ≤ (i a).val ∧ (i a).val < win3_3.index t a * S400x32.size a + S400x32.size a := by
  show i ∈ ((View.whole main_v6).slice (win3_3.rect t)).set ↔ _
  rw [View.set_slice_whole, Rect.mem_set_unit]
  exact Iff.rfl

/-- Row r lies in the block of point r / 400. -/
theorem cover (i : S10000x32.Idx) : ∃ t : Fin cfg3.N, (cfg3.win 3).flush t = true ∧ i ∈ ((cfg3.win 3).blk t).view.set := by
  have hi0 : (i 0).val < 10000 := (i 0).isLt
  have hi1 : (i 1).val < 32 := (i 1).isLt
  have hq : (i 0).val / 400 < 25 := by omega
  refine ⟨⟨(i 0).val / 400, hq⟩, flush3_3 _, ?_⟩
  rw [mem_blk]
  have hf := idx_facts ⟨(i 0).val / 400, hq⟩
  have e0 : win3_3.index ⟨(i 0).val / 400, hq⟩ (0 : Fin 2) = (i 0).val / 400 := hf.2.2.2.2.2.2.1
  have e1 : win3_3.index ⟨(i 0).val / 400, hq⟩ (1 : Fin 2) = 0 := hf.2.2.2.2.2.2.2
  intro a
  match a with
  | ⟨0, _⟩ => show win3_3.index ⟨(i 0).val / 400, hq⟩ (0 : Fin 2) * 400 ≤ (i 0).val ∧ (i 0).val < win3_3.index ⟨(i 0).val / 400, hq⟩ (0 : Fin 2) * 400 + 400; omega
  | ⟨1, _⟩ => show win3_3.index ⟨(i 0).val / 400, hq⟩ (1 : Fin 2) * 32 ≤ (i 1).val ∧ (i 1).val < win3_3.index ⟨(i 0).val / 400, hq⟩ (1 : Fin 2) * 32 + 32; omega

/-- After the launch the output array is adj · P + b of the three input arrays as the launch found them. -/
theorem final (c : Dev nD) : (dat3 V c).arrAt 3 cfg3.N
    = lastLayer (n := 10000) (h := 32) (V c (Pipeline.arrRef spec3 0)) (V c (Pipeline.arrRef spec3 1)) (V c (Pipeline.arrRef spec3 2)) :=
  (dat3 V c).arrAt_eq_of_cover 3 _ (fun t _ => flushed_eq V c t) (cover)

end Cert.KernelIdeal.Last3

end
-- ==== Proof.RegionProj4.lean ====
/-
  Launch 4: the projection  P = x · W  of a graph's features, 400 rows at a time.

  The grid has 25 points; point t receives rows 400t … 400t+399 of x and the whole of W, and writes rows
  400t … 400t+399 of the product.  Entry (p, o) of what it writes is the sum over j of x(400t+p, j) · W(j, o): the
  block is the restriction of the one whole-array product to those rows.  The 25 blocks tile the 10000 rows, so the
  output array ends as x · W.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Proj4

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-block windows sit at block row t, the weight window at its one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's result at (p, o): row p of the feature block against column o of the weights. -/
theorem pay_apply (x0 : Vec Ideal S400x128 .f32) (x1 : Vec Ideal S128x64 .f32) (p : Fin 400) (o : Fin 64) :
    k4_pay1 x0 x1 (ix2 p o) = ∑ j : Fin 128, x0 (ix2 p j) * x1 (ix2 j o) := by
  unfold k4_pay1
  exact Cert.LibPlainDot.matmul_zero_apply dot_S400x128_S128x64_S400x64_1_0_0_1_n_n rfl rfl rfl rfl rfl rfl none x0 x1 p o

/-- What point t writes back is rows 400t … 400t+399 of x · W. -/
theorem flushed_eq (c : Dev nD) (t : Fin cfg4.N) :
    (dat4 V c).flushed 2 t = ((cfg4.win 2).blk t).view.read (Elt Ideal)
      (mm (n := 10000) (k := 128) (d := 64) (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S400x128) hz, View.ld_unit_zero (S := S128x64) hz]
  obtain ⟨e00, e01, e10, e11, e20, e21⟩ := idx_facts t
  have ht : t.val < 25 := t.isLt
  funext j
  obtain ⟨p, o, rfl⟩ : ∃ (p : Fin 400) (o : Fin 64), j = ix2 p o := ⟨j 0, j 1, eq_ix2 j⟩
  have hp : p.val < 400 := p.isLt
  refine (pay_apply (iblk4 V c 0 t) (iblk4 V c 1 t) p o).trans ?_
  have hout : ((cfg4.win 2).blk t).view.emb (ix2 p o) = ix2 (⟨t.val * 400 + p.val, by omega⟩ : Fin 10000) o := by
    funext a; apply Fin.ext
    match a with
    | ⟨0, _⟩ => show win4_2.index t (0 : Fin 2) * 400 + 1 * p.val = t.val * 400 + p.val; omega
    | ⟨1, _⟩ => show win4_2.index t (1 : Fin 2) * 64 + 1 * o.val = o.val; omega
  show _ = mm (n := 10000) (k := 128) (d := 64) (V c (Pipeline.arrRef spec4 0)) (V c (Pipeline.arrRef spec4 1)) (((cfg4.win 2).blk t).view.emb (ix2 p o))
  rw [hout, mm_apply]
  refine Finset.sum_congr rfl fun j _ => ?_
  have h0 : ((cfg4.win 0).blk t).view.emb (ix2 p j) = ix2 (⟨t.val * 400 + p.val, by omega⟩ : Fin 10000) j := by
    funext a; apply Fin.ext
    match a with
    | ⟨0, _⟩ => show win4_0.index t (0 : Fin 2) * 400 + 1 * p.val = t.val * 400 + p.val; omega
    | ⟨1, _⟩ => show win4_0.index t (1 : Fin 2) * 128 + 1 * j.val = j.val; omega
  have h1 : ((cfg4.win 1).blk t).view.emb (ix2 j o) = ix2 j o := by
    funext a; apply Fin.ext
    match a with
    | ⟨0, _⟩ => show win4_1.index t (0 : Fin 2) * 128 + 1 * j.val = j.val; omega
    | ⟨1, _⟩ => show win4_1.index t (1 : Fin 2) * 64 + 1 * o.val = o.val; omega
  exact congrArg₂ (fun a b : EReal => a * b) (congrArg (V c (Pipeline.arrRef spec4 0)) h0) (congrArg (V c (Pipeline.arrRef spec4 1)) h1)

/-- An index of the output array is in point t's block iff its row is one of the block's 400 rows. -/
theorem mem_blk (t : Fin cfg4.N) (i : S10000x64.Idx) :
    i ∈ ((cfg4.win 2).blk t).view.set ↔ ∀ a : Fin 2, win4_2.index t a * S400x64.size a ≤ (i a).val ∧ (i a).val < win4_2.index t a * S400x64.size a + S400x64.size a := by
  show i ∈ ((View.whole main_v7).slice (win4_2.rect t)).set ↔ _
  rw [View.set_slice_whole, Rect.mem_set_unit]
  exact Iff.rfl

/-- Row r lies in the block of point r / 400. -/
theorem cover (i : S10000x64.Idx) : ∃ t : Fin cfg4.N, (cfg4.win 2).flush t = true ∧ i ∈ ((cfg4.win 2).blk t).view.set := by
  have hi0 : (i 0).val < 10000 := (i 0).isLt
  have hi1 : (i 1).val < 64 := (i 1).isLt
  have hq : (i 0).val / 400 < 25 := by omega
  refine ⟨⟨(i 0).val / 400, hq⟩, flush4_2 _, ?_⟩
  rw [mem_blk]
  obtain ⟨-, -, -, -, e20, e21⟩ := idx_facts ⟨(i 0).val / 400, hq⟩
  have e20' : win4_2.index ⟨(i 0).val / 400, hq⟩ (0 : Fin 2) = (i 0).val / 400 := e20
  intro a
  match a with
  | ⟨0, _⟩ => show win4_2.index ⟨(i 0).val / 400, hq⟩ (0 : Fin 2) * 400 ≤ (i 0).val ∧ (i 0).val < win4_2.index ⟨(i 0).val / 400, hq⟩ (0 : Fin 2) * 400 + 400; omega
  | ⟨1, _⟩ => show win4_2.index ⟨(i 0).val / 400, hq⟩ (1 : Fin 2) * 64 ≤ (i 1).val ∧ (i 1).val < win4_2.index ⟨(i 0).val / 400, hq⟩ (1 : Fin 2) * 64 + 64; omega

/-- After the launch the output array is x · W of the two input arrays as the launch found them. -/
theorem final (c : Dev nD) : (dat4 V c).arrAt 2 cfg4.N
    = mm (n := 10000) (k := 128) (d := 64) (V c (Pipeline.arrRef spec4 0)) (V c (Pipeline.arrRef spec4 1)) :=
  (dat4 V c).arrAt_eq_of_cover 2 _ (fun t _ => flushed_eq V c t) (cover)

end Cert.KernelIdeal.Proj4

end
-- ==== Proof.RegionMid5.lean ====
/-
  Launch 5: one graph-convolution layer with the next layer's projection folded in,
  Pn = relu(adj · P + b) · Wn, 400 rows at a time.

  The grid has 25 points; point t receives rows 400t … 400t+399 of adj, and the whole of P ([10000, 64]), of the bias
  (as a [1, 64] row) and of Wn ([64, 32]).  Entry (p, o) of what it writes is
  the sum over j of  max( (sum over q of adj(400t+p, q) · P(q, j)) + b(j), 0 ) · Wn(j, o):
  row 400t+p of the whole-array expression, so the block is that expression's restriction and the 25 blocks tile it.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Mid5

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency strip and the output sit at block row t, the three resident operands
    at their one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's result at (p, o). -/
theorem pay_apply (x0 : Vec Ideal S400x10000 .f32) (x1 : Vec Ideal S10000x64 .f32) (x2 : Vec Ideal S1x64 .f32)
    (x3 : Vec Ideal S64x32 .f32) (p : Fin 400) (o : Fin 32) :
    k5_pay1 x0 x1 x2 x3 (ix2 p o)
      = ∑ j : Fin 64, max ((∑ q : Fin 10000, x0 (ix2 p q) * x1 (ix2 q j)) + x2 (ix2 (0 : Fin 1) j)) z0 * x3 (ix2 j o) := by
  unfold k5_pay1
  refine (Cert.LibPlainDot.matmul_zero_apply dot_S400x64_S64x32_S400x32_1_0_0_1_n_n rfl rfl rfl rfl rfl rfl none _ x3 p o).trans ?_
  refine Finset.sum_congr rfl fun j _ => ?_
  refine congrArg (fun a : EReal => a * x3 (ix2 j o)) ?_
  simp only [maximumf_apply, addf_apply, broadcast_apply, shapeCast_self]
  rw [broadcastTo_1b_ab_apply]
  exact congrArg (fun a : EReal => max (a + x2 (ix2 (0 : Fin 1) j)) z0)
    (Cert.LibPlainDot.matmul_zero_apply dot_S400x10000_S10000x64_S400x64_1_0_0_1_n_n rfl rfl rfl rfl rfl rfl none x0 x1 p j)

/-- What point t writes back is rows 400t … 400t+399 of relu(adj · P + b) · Wn. -/
theorem flushed_eq (c : Dev nD) (t : Fin cfg5.N) :
    (dat5 V c).flushed 4 t = ((cfg5.win 4).blk t).view.read (Elt Ideal)
      (midLayer (n := 10000) (h := 64) (hn := 32) (V c (Pipeline.arrRef spec5 0)) (V c (Pipeline.arrRef spec5 1))
        (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S400x10000) hz, View.ld_unit_zero (S := S10000x64) hz, View.ld_unit_zero (S := S1x64) hz,
    View.ld_unit_zero (S := S64x32) hz]
  obtain ⟨e00, e01, e10, e11, e20, e21, e30, e31, e40, e41⟩ := idx_facts t
  have ht : t.val < 25 := t.isLt
  funext i
  obtain ⟨p, o, rfl⟩ : ∃ (p : Fin 400) (o : Fin 32), i = ix2 p o := ⟨i 0, i 1, eq_ix2 i⟩
  have hp : p.val < 400 := p.isLt
  refine (pay_apply (iblk5 V c 0 t) (iblk5 V c 1 t) (iblk5 V c 2 t) (iblk5 V c 3 t) p o).trans ?_
  have hout : ((cfg5.win 4).blk t).view.emb (ix2 p o) = ix2 (⟨t.val * 400 + p.val, by omega⟩ : Fin 10000) o := by
    funext a; apply Fin.ext
    match a with
    | ⟨0, _⟩ => show win5_4.index t (0 : Fin 2) * 400 + 1 * p.val = t.val * 400 + p.val; omega
    | ⟨1, _⟩ => show win5_4.index t (1 : Fin 2) * 32 + 1 * o.val = o.val; omega
  show _ = midLayer (n := 10000) (h := 64) (hn := 32) (V c (Pipeline.arrRef spec5 0)) (V c (Pipeline.arrRef spec5 1))
        (V c (Pipeline.arrRef spec5 2)) (V c (Pipeline.arrRef spec5 3)) (((cfg5.win 4).blk t).view.emb (ix2 p o))
  rw [hout, midLayer_apply]
  refine Finset.sum_congr rfl fun j _ => ?_
  have h3 : ((cfg5.win 3).blk t).view.emb (ix2 j o) = ix2 j o := by
    funext a; apply Fin.ext
    match a with
    | ⟨0, _⟩ => show win5_3.index t (0 : Fin 2) * 64 + 1 * j.val = j.val; omega
    | ⟨1, _⟩ => show win5_3.index t (1 : Fin 2) * 32 + 1 * o.val = o.val; omega
  have h2 : ((cfg5.win 2).blk t).view.emb (ix2 (0 : Fin 1) j) = ix2 (0 : Fin 1) j := by
    funext a; apply Fin.ext
    match a with
    | ⟨0, _⟩ => show win5_2.index t (0 : Fin 2) * 1 + 1 * (0 : Fin 1).val = (0 : Fin 1).val; omega
    | ⟨1, _⟩ => show win5_2.index t (1 : Fin 2) * 64 + 1 * j.val = j.val; omega
  refine congrArg₂ (fun a b : EReal => a * b) (congrArg (fun u : EReal => max u z0) (congrArg₂ (· + ·) (Finset.sum_congr rfl fun q _ => ?_) ?_)) ?_
  · have h0 : ((cfg5.win 0).blk t).view.emb (ix2 p q) = ix2 (⟨t.val * 400 + p.val, by omega⟩ : Fin 10000) q := by
      funext a; apply Fin.ext
      match a with
      | ⟨0, _⟩ => show win5_0.index t (0 : Fin 2) * 400 + 1 * p.val = t.val * 400 + p.val; omega
      | ⟨1, _⟩ => show win5_0.index t (1 : Fin 2) * 10000 + 1 * q.val = q.val; omega
    have h1 : ((cfg5.win 1).blk t).view.emb (ix2 q j) = ix2 q j := by
      funext a; apply Fin.ext
      match a with
      | ⟨0, _⟩ => show win5_1.index t (0 : Fin 2) * 10000 + 1 * q.val = q.val; omega
      | ⟨1, _⟩ => show win5_1.index t (1 : Fin 2) * 64 + 1 * j.val = j.val; omega
    exact congrArg₂ (fun a b : EReal => a * b) (congrArg (V c (Pipeline.arrRef spec5 0)) h0) (congrArg (V c (Pipeline.arrRef spec5 1)) h1)
  · exact congrArg (V c (Pipeline.arrRef spec5 2)) h2
  · exact congrArg (V c (Pipeline.arrRef spec5 3)) h3

/-- An index of the output array is in point t's block iff its row is one of the block's 400 rows. -/
theorem mem_blk (t : Fin cfg5.N) (i : S10000x32.Idx) :
    i ∈ ((cfg5.win 4).blk t).view.set ↔ ∀ a : Fin 2, win5_4.index t a * S400x32.size a ≤ (i a).val ∧ (i a).val < win5_4.index t a * S400x32.size a + S400x32.size a := by
  show i ∈ ((View.whole main_v9).slice (win5_4.rect t)).set ↔ _
  rw [View.set_slice_whole, Rect.mem_set_unit]
  exact Iff.rfl

/-- Row r lies in the block of point r / 400. -/
theorem cover (i : S10000x32.Idx) : ∃ t : Fin cfg5.N, (cfg5.win 4).flush t = true ∧ i ∈ ((cfg5.win 4).blk t).view.set := by
  have hi0 : (i 0).val < 10000 := (i 0).isLt
  have hi1 : (i 1).val < 32 := (i 1).isLt
  have hq : (i 0).val / 400 < 25 := by omega
  refine ⟨⟨(i 0).val / 400, hq⟩, flush5_4 _, ?_⟩
  rw [mem_blk]
  have hf := idx_facts ⟨(i 0).val / 400, hq⟩
  have e0 : win5_4.index ⟨(i 0).val / 400, hq⟩ (0 : Fin 2) = (i 0).val / 400 := hf.2.2.2.2.2.2.2.2.1
  have e1 : win5_4.index ⟨(i 0).val / 400, hq⟩ (1 : Fin 2) = 0 := hf.2.2.2.2.2.2.2.2.2
  intro a
  match a with
  | ⟨0, _⟩ => show win5_4.index ⟨(i 0).val / 400, hq⟩ (0 : Fin 2) * 400 ≤ (i 0).val ∧ (i 0).val < win5_4.index ⟨(i 0).val / 400, hq⟩ (0 : Fin 2) * 400 + 400; omega
  | ⟨1, _⟩ => show win5_4.index ⟨(i 0).val / 400, hq⟩ (1 : Fin 2) * 32 ≤ (i 1).val ∧ (i 1).val < win5_4.index ⟨(i 0).val / 400, hq⟩ (1 : Fin 2) * 32 + 32; omega

/-- After the launch the output array is relu(adj · P + b) · Wn of the four input arrays as the launch found them. -/
theorem final (c : Dev nD) : (dat5 V c).arrAt 4 cfg5.N
    = midLayer (n := 10000) (h := 64) (hn := 32) (V c (Pipeline.arrRef spec5 0)) (V c (Pipeline.arrRef spec5 1))
        (V c (Pipeline.arrRef spec5 2)) (V c (Pipeline.arrRef spec5 3)) :=
  (dat5 V c).arrAt_eq_of_cover 4 _ (fun t _ => flushed_eq V c t) (cover)

end Cert.KernelIdeal.Mid5

end
-- ==== Proof.RegionMid6.lean ====
/-
  Launch 6: one graph-convolution layer with the next layer's projection folded in,
  Pn = relu(adj · P + b) · Wn, 400 rows at a time.

  The grid has 25 points; point t receives rows 400t … 400t+399 of adj, and the whole of P ([10000, 32]), of the bias
  (as a [1, 32] row) and of Wn ([32, 32]).  Entry (p, o) of what it writes is
  the sum over j of  max( (sum over q of adj(400t+p, q) · P(q, j)) + b(j), 0 ) · Wn(j, o):
  row 400t+p of the whole-array expression, so the block is that expression's restriction and the 25 blocks tile it.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Mid6

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency strip and the output sit at block row t, the three resident operands
    at their one block. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The body's result at (p, o). -/
theorem pay_apply (x0 : Vec Ideal S400x10000 .f32) (x1 : Vec Ideal S10000x32 .f32) (x2 : Vec Ideal S1x32 .f32)
    (x3 : Vec Ideal S32x32 .f32) (p : Fin 400) (o : Fin 32) :
    k6_pay1 x0 x1 x2 x3 (ix2 p o)
      = ∑ j : Fin 32, max ((∑ q : Fin 10000, x0 (ix2 p q) * x1 (ix2 q j)) + x2 (ix2 (0 : Fin 1) j)) z0 * x3 (ix2 j o) := by
  unfold k6_pay1
  refine (Cert.LibPlainDot.matmul_zero_apply dot_S400x32_S32x32_S400x32_1_0_0_1_n_n rfl rfl rfl rfl rfl rfl none _ x3 p o).trans ?_
  refine Finset.sum_congr rfl fun j _ => ?_
  refine congrArg (fun a : EReal => a * x3 (ix2 j o)) ?_
  simp only [maximumf_apply, addf_apply, broadcast_apply, shapeCast_self]
  rw [broadcastTo_1b_ab_apply]
  exact congrArg (fun a : EReal => max (a + x2 (ix2 (0 : Fin 1) j)) z0)
    (Cert.LibPlainDot.matmul_zero_apply dot_S400x10000_S10000x32_S400x32_1_0_0_1_n_n rfl rfl rfl rfl rfl rfl none x0 x1 p j)

/-- What point t writes back is rows 400t … 400t+399 of relu(adj · P + b) · Wn. -/
theorem flushed_eq (c : Dev nD) (t : Fin cfg6.N) :
    (dat6 V c).flushed 4 t = ((cfg6.win 4).blk t).view.read (Elt Ideal)
      (midLayer (n := 10000) (h := 32) (hn := 32) (V c (Pipeline.arrRef spec6 0)) (V c (Pipeline.arrRef spec6 1))
        (V c (Pipeline.arrRef spec6 2)) (V c (Pipeline.arrRef spec6 3))) := by
  show (cfg6.win 4).cut (grid6.coords t) ((dat6 V c).after 4 t) = _
  rw [after6_4]
  unfold out6_4
  rw [View.canon_unit_zero hz]
  simp only [View.ld_unit_zero (S := S400x10000) hz, View.ld_unit_zero (S := S10000x32) hz, View.ld_unit_zero (S := S1x32) hz,
    View.ld_unit_zero (S := S32x32) hz]
  obtain ⟨e00, e01, e10, e11, e20, e21, e30, e31, e40, e41⟩ := idx_facts t
  have ht : t.val < 25 := t.isLt
  funext i
  obtain ⟨p, o, rfl⟩ : ∃ (p : Fin 400) (o : Fin 32), i = ix2 p o := ⟨i 0, i 1, eq_ix2 i⟩
  have hp : p.val < 400 := p.isLt
  refine (pay_apply (iblk6 V c 0 t) (iblk6 V c 1 t) (iblk6 V c 2 t) (iblk6 V c 3 t) p o).trans ?_
  have hout : ((cfg6.win 4).blk t).view.emb (ix2 p o) = ix2 (⟨t.val * 400 + p.val, by omega⟩ : Fin 10000) o := by
    funext a; apply Fin.ext
    match a with
    | ⟨0, _⟩ => show win6_4.index t (0 : Fin 2) * 400 + 1 * p.val = t.val * 400 + p.val; omega
    | ⟨1, _⟩ => show win6_4.index t (1 : Fin 2) * 32 + 1 * o.val = o.val; omega
  show _ = midLayer (n := 10000) (h := 32) (hn := 32) (V c (Pipeline.arrRef spec6 0)) (V c (Pipeline.arrRef spec6 1))
        (V c (Pipeline.arrRef spec6 2)) (V c (Pipeline.arrRef spec6 3)) (((cfg6.win 4).blk t).view.emb (ix2 p o))
  rw [hout, midLayer_apply]
  refine Finset.sum_congr rfl fun j _ => ?_
  have h3 : ((cfg6.win 3).blk t).view.emb (ix2 j o) = ix2 j o := by
    funext a; apply Fin.ext
    match a with
    | ⟨0, _⟩ => show win6_3.index t (0 : Fin 2) * 32 + 1 * j.val = j.val; omega
    | ⟨1, _⟩ => show win6_3.index t (1 : Fin 2) * 32 + 1 * o.val = o.val; omega
  have h2 : ((cfg6.win 2).blk t).view.emb (ix2 (0 : Fin 1) j) = ix2 (0 : Fin 1) j := by
    funext a; apply Fin.ext
    match a with
    | ⟨0, _⟩ => show win6_2.index t (0 : Fin 2) * 1 + 1 * (0 : Fin 1).val = (0 : Fin 1).val; omega
    | ⟨1, _⟩ => show win6_2.index t (1 : Fin 2) * 32 + 1 * j.val = j.val; omega
  refine congrArg₂ (fun a b : EReal => a * b) (congrArg (fun u : EReal => max u z0) (congrArg₂ (· + ·) (Finset.sum_congr rfl fun q _ => ?_) ?_)) ?_
  · have h0 : ((cfg6.win 0).blk t).view.emb (ix2 p q) = ix2 (⟨t.val * 400 + p.val, by omega⟩ : Fin 10000) q := by
      funext a; apply Fin.ext
      match a with
      | ⟨0, _⟩ => show win6_0.index t (0 : Fin 2) * 400 + 1 * p.val = t.val * 400 + p.val; omega
      | ⟨1, _⟩ => show win6_0.index t (1 : Fin 2) * 10000 + 1 * q.val = q.val; omega
    have h1 : ((cfg6.win 1).blk t).view.emb (ix2 q j) = ix2 q j := by
      funext a; apply Fin.ext
      match a with
      | ⟨0, _⟩ => show win6_1.index t (0 : Fin 2) * 10000 + 1 * q.val = q.val; omega
      | ⟨1, _⟩ => show win6_1.index t (1 : Fin 2) * 32 + 1 * j.val = j.val; omega
    exact congrArg₂ (fun a b : EReal => a * b) (congrArg (V c (Pipeline.arrRef spec6 0)) h0) (congrArg (V c (Pipeline.arrRef spec6 1)) h1)
  · exact congrArg (V c (Pipeline.arrRef spec6 2)) h2
  · exact congrArg (V c (Pipeline.arrRef spec6 3)) h3

/-- An index of the output array is in point t's block iff its row is one of the block's 400 rows. -/
theorem mem_blk (t : Fin cfg6.N) (i : S10000x32.Idx) :
    i ∈ ((cfg6.win 4).blk t).view.set ↔ ∀ a : Fin 2, win6_4.index t a * S400x32.size a ≤ (i a).val ∧ (i a).val < win6_4.index t a * S400x32.size a + S400x32.size a := by
  show i ∈ ((View.whole main_v11).slice (win6_4.rect t)).set ↔ _
  rw [View.set_slice_whole, Rect.mem_set_unit]
  exact Iff.rfl

/-- Row r lies in the block of point r / 400. -/
theorem cover (i : S10000x32.Idx) : ∃ t : Fin cfg6.N, (cfg6.win 4).flush t = true ∧ i ∈ ((cfg6.win 4).blk t).view.set := by
  have hi0 : (i 0).val < 10000 := (i 0).isLt
  have hi1 : (i 1).val < 32 := (i 1).isLt
  have hq : (i 0).val / 400 < 25 := by omega
  refine ⟨⟨(i 0).val / 400, hq⟩, flush6_4 _, ?_⟩
  rw [mem_blk]
  have hf := idx_facts ⟨(i 0).val / 400, hq⟩
  have e0 : win6_4.index ⟨(i 0).val / 400, hq⟩ (0 : Fin 2) = (i 0).val / 400 := hf.2.2.2.2.2.2.2.2.1
  have e1 : win6_4.index ⟨(i 0).val / 400, hq⟩ (1 : Fin 2) = 0 := hf.2.2.2.2.2.2.2.2.2
  intro a
  match a with
  | ⟨0, _⟩ => show win6_4.index ⟨(i 0).val / 400, hq⟩ (0 : Fin 2) * 400 ≤ (i 0).val ∧ (i 0).val < win6_4.index ⟨(i 0).val / 400, hq⟩ (0 : Fin 2) * 400 + 400; omega
  | ⟨1, _⟩ => show win6_4.index ⟨(i 0).val / 400, hq⟩ (1 : Fin 2) * 32 ≤ (i 1).val ∧ (i 1).val < win6_4.index ⟨(i 0).val / 400, hq⟩ (1 : Fin 2) * 32 + 32; omega

/-- After the launch the output array is relu(adj · P + b) · Wn of the four input arrays as the launch found them. -/
theorem final (c : Dev nD) : (dat6 V c).arrAt 4 cfg6.N
    = midLayer (n := 10000) (h := 32) (hn := 32) (V c (Pipeline.arrRef spec6 0)) (V c (Pipeline.arrRef spec6 1))
        (V c (Pipeline.arrRef spec6 2)) (V c (Pipeline.arrRef spec6 3)) :=
  (dat6 V c).arrAt_eq_of_cover 4 _ (fun t _ => flushed_eq V c t) (cover)

end Cert.KernelIdeal.Mid6

end
-- ==== Proof.RegionLast7.lean ====
/-
  Launch 7: the last graph-convolution layer  z = adj · P + b, 400 rows at a time.

  The grid has 25 points; point t receives rows 400t … 400t+399 of adj and the whole of P ([10000, 32]) and of the
  bias (a [1, 32] row).  Entry (p, o) of what it writes is (sum over q of adj(400t+p, q) · P(q, o)) + b(o): row
  400t+p of the whole-array expression; the 25 blocks tile the output.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Last7

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

-- the buffers' contents when the launch is entered: a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The body's result at (p, o). -/
theorem pay_apply (x0 : Vec Ideal S400x10000 .f32) (x1 : Vec Ideal S10000x32 .f32) (x2 : Vec Ideal S1x32 .f32)
    (p : Fin 400) (o : Fin 32) :
    k7_pay1 x0 x1 x2 (ix2 p o) = (∑ q : Fin 10000, x0 (ix2 p q) * x1 (ix2 q o)) + x2 (ix2 (0 : Fin 1) o) := by
  unfold k7_pay1
  simp only [addf_apply, shapeCast_self]
  rw [broadcastTo_1b_ab_apply]
  exact congrArg (fun a : EReal => a + x2 (ix2 (0 : Fin 1) o))
    (Cert.LibPlainDot.matmul_zero_apply dot_S400x10000_S10000x32_S400x32_1_0_0_1_n_n rfl rfl rfl rfl rfl rfl none x0 x1 p o)

/-- What point t writes back is rows 400t … 400t+399 of adj · P + b. -/
theorem flushed_eq (c : Dev nD) (t : Fin cfg7.N) :
    (dat7 V c).flushed 3 t = ((cfg7.win 3).blk t).view.read (Elt Ideal)
      (lastLayer (n := 10000) (h := 32) (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S400x10000) hz, View.ld_unit_zero (S := S10000x32) hz, View.ld_unit_zero (S := S1x32) hz]
  obtain ⟨e00, e01, e10, e11, e20, e21, e30, e31⟩ := idx_facts t
  have ht : t.val < 25 := t.isLt
  funext i
  obtain ⟨p, o, rfl⟩ : ∃ (p : Fin 400) (o : Fin 32), i = ix2 p o := ⟨i 0, i 1, eq_ix2 i⟩
  have hp : p.val < 400 := p.isLt
  refine (pay_apply (iblk7 V c 0 t) (iblk7 V c 1 t) (iblk7 V c 2 t) p o).trans ?_
  have hout : ((cfg7.win 3).blk t).view.emb (ix2 p o) = ix2 (⟨t.val * 400 + p.val, by omega⟩ : Fin 10000) o := by
    funext a; apply Fin.ext
    match a with
    | ⟨0, _⟩ => show win7_3.index t (0 : Fin 2) * 400 + 1 * p.val = t.val * 400 + p.val; omega
    | ⟨1, _⟩ => show win7_3.index t (1 : Fin 2) * 32 + 1 * o.val = o.val; omega
  show _ = lastLayer (n := 10000) (h := 32) (V c (Pipeline.arrRef spec7 0)) (V c (Pipeline.arrRef spec7 1)) (V c (Pipeline.arrRef spec7 2))
        (((cfg7.win 3).blk t).view.emb (ix2 p o))
  rw [hout, lastLayer_apply]
  have h2 : ((cfg7.win 2).blk t).view.emb (ix2 (0 : Fin 1) o) = ix2 (0 : Fin 1) o := by
    funext a; apply Fin.ext
    match a with
    | ⟨0, _⟩ => show win7_2.index t (0 : Fin 2) * 1 + 1 * (0 : Fin 1).val = (0 : Fin 1).val; omega
    | ⟨1, _⟩ => show win7_2.index t (1 : Fin 2) * 32 + 1 * o.val = o.val; omega
  refine congrArg₂ (fun a b : EReal => a + b) (Finset.sum_congr rfl fun q _ => ?_) ?_
  · have h0 : ((cfg7.win 0).blk t).view.emb (ix2 p q) = ix2 (⟨t.val * 400 + p.val, by omega⟩ : Fin 10000) q := by
      funext a; apply Fin.ext
      match a with
      | ⟨0, _⟩ => show win7_0.index t (0 : Fin 2) * 400 + 1 * p.val = t.val * 400 + p.val; omega
      | ⟨1, _⟩ => show win7_0.index t (1 : Fin 2) * 10000 + 1 * q.val = q.val; omega
    have h1 : ((cfg7.win 1).blk t).view.emb (ix2 q o) = ix2 q o := by
      funext a; apply Fin.ext
      match a with
      | ⟨0, _⟩ => show win7_1.index t (0 : Fin 2) * 10000 + 1 * q.val = q.val; omega
      | ⟨1, _⟩ => show win7_1.index t (1 : Fin 2) * 32 + 1 * o.val = o.val; omega
    exact congrArg₂ (fun a b : EReal => a * b) (congrArg (V c (Pipeline.arrRef spec7 0)) h0) (congrArg (V c (Pipeline.arrRef spec7 1)) h1)
  · exact congrArg (V c (Pipeline.arrRef spec7 2)) h2

/-- An index of the output array is in point t's block iff its row is one of the block's 400 rows. -/
theorem mem_blk (t : Fin cfg7.N) (i : S10000x32.Idx) :
    i ∈ ((cfg7.win 3).blk t).view.set ↔ ∀ a : Fin 2, win7_3.index t a * S400x32.size a ≤ (i a).val ∧ (i a).val < win7_3.index t a * S400x32.size a + S400x32.size a := by
  show i ∈ ((View.whole main_v13).slice (win7_3.rect t)).set ↔ _
  rw [View.set_slice_whole, Rect.mem_set_unit]
  exact Iff.rfl

/-- Row r lies in the block of point r / 400. -/
theorem cover (i : S10000x32.Idx) : ∃ t : Fin cfg7.N, (cfg7.win 3).flush t = true ∧ i ∈ ((cfg7.win 3).blk t).view.set := by
  have hi0 : (i 0).val < 10000 := (i 0).isLt
  have hi1 : (i 1).val < 32 := (i 1).isLt
  have hq : (i 0).val / 400 < 25 := by omega
  refine ⟨⟨(i 0).val / 400, hq⟩, flush7_3 _, ?_⟩
  rw [mem_blk]
  have hf := idx_facts ⟨(i 0).val / 400, hq⟩
  have e0 : win7_3.index ⟨(i 0).val / 400, hq⟩ (0 : Fin 2) = (i 0).val / 400 := hf.2.2.2.2.2.2.1
  have e1 : win7_3.index ⟨(i 0).val / 400, hq⟩ (1 : Fin 2) = 0 := hf.2.2.2.2.2.2.2
  intro a
  match a with
  | ⟨0, _⟩ => show win7_3.index ⟨(i 0).val / 400, hq⟩ (0 : Fin 2) * 400 ≤ (i 0).val ∧ (i 0).val < win7_3.index ⟨(i 0).val / 400, hq⟩ (0 : Fin 2) * 400 + 400; omega
  | ⟨1, _⟩ => show win7_3.index ⟨(i 0).val / 400, hq⟩ (1 : Fin 2) * 32 ≤ (i 1).val ∧ (i 1).val < win7_3.index ⟨(i 0).val / 400, hq⟩ (1 : Fin 2) * 32 + 32; omega

/-- After the launch the output array is adj · P + b of the three input arrays as the launch found them. -/
theorem final (c : Dev nD) : (dat7 V c).arrAt 3 cfg7.N
    = lastLayer (n := 10000) (h := 32) (V c (Pipeline.arrRef spec7 0)) (V c (Pipeline.arrRef spec7 1)) (V c (Pipeline.arrRef spec7 2)) :=
  (dat7 V c).arrAt_eq_of_cover 3 _ (fun t _ => flushed_eq V c t) (cover)

end Cert.KernelIdeal.Last7

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.RegionAttn8.lean ====
/-
  Launch 8, the body's values entry by entry.

  For one block of 400 nodes the body scores each of the two views: the score of a node is the sum over the 160
  hidden units j of  tanh( (sum over a of z(p, a) · W(a, j)) + (sum over b of x(p, b) · W(32 + b, j)) + bias(j) ) · w2(j),
  the first 32 rows of the weight block meeting the encoding z and the other 128 the features x.  The two scores s1,
  s2 of a node are normalised with the larger one m = max(s1, s2) subtracted: e1 = exp(s1 - m), e2 = exp(s2 - m),
  the weights are e1 / (e1 + e2) and e2 / (e1 + e2), and the fused encoding is the first weight times the first
  view's encoding plus the second weight times the second's.  Every statement here is read off the body's
  operations one at a time; no sum is rearranged.
-/
import proofs.«139367_g38302518346020_cont_8to1_b_1765_3_alg».proof.Proof.Gen.KernelIdeal.Frame
import proofs.«139367_g38302518346020_cont_8to1_b_1765_3_alg».proof.Proof.Spec
import proofs.«139367_g38302518346020_cont_8to1_b_1765_3_alg».proof.Proof.LibPlainDot
import proofs.«139367_g38302518346020_cont_8to1_b_1765_3_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Attn8

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

/-- The one coordinate of a unit axis is 0. -/
theorem fin1_eq (u : Fin 1) : u = (0 : Fin 1) := Fin.ext (by omega)

/-- The first view's score at node p of the block, from the body's operands: the two weight strips, the encoding
    block, the feature block, the bias row and the output column. -/
theorem score1_apply (v0 : Vec Ideal S32x160 .f32) (v1 : Vec Ideal S128x160 .f32) (v2 : Vec Ideal S400x32 .f32)
    (v7 : Vec Ideal S400x128 .f32) (v10 : Vec Ideal S1x160 .f32) (v24 : Vec Ideal S160x1 .f32) (p : Fin 400) (u : Fin 1) :
    k8_pay4 v0 v1 v2 v7 v10 v24 (ix2 p u)
      = ∑ j : Fin 160, Ideal.tanh (((∑ a : Fin 32, v2 (ix2 p a) * v0 (ix2 a j)) + (∑ b : Fin 128, v7 (ix2 p b) * v1 (ix2 b j)))
          + v10 (ix2 (0 : Fin 1) j)) * v24 (ix2 j u) := by
  unfold k8_pay4 k8_pay2
  refine (Cert.LibPlainDot.matmul_zero_apply dot_S400x160_S160x1_S400x1_1_0_0_1_n_n rfl rfl rfl rfl rfl rfl none _ v24 p u).trans ?_
  refine Finset.sum_congr rfl fun j _ => ?_
  refine congrArg (fun a : EReal => a * v24 (ix2 j u)) ?_
  refine congrArg (fun a : EReal => Ideal.tanh a) ?_
  refine congrArg₂ (fun a b : EReal => a + b) (congrArg₂ (fun a b : EReal => a + b) ?_ ?_) ?_
  · rw [shapeCast_self]
    exact Cert.LibPlainDot.matmul_zero_apply dot_S400x32_S32x160_S400x160_1_0_0_1_n_n rfl rfl rfl rfl rfl rfl none v2 v0 p j
  · exact Cert.LibPlainDot.matmul_zero_apply dot_S400x128_S128x160_S400x160_1_0_0_1_n_n rfl rfl rfl rfl rfl rfl none v7 v1 p j
  · rw [shapeCast_self]
    exact broadcastTo_1b_ab_apply v10 broadcasts_S1x160_S400x160 p j

/-- The second view's score: the same expression of its own operands. -/
theorem score2_apply (v0 : Vec Ideal S32x160 .f32) (v1 : Vec Ideal S128x160 .f32) (v4 : Vec Ideal S400x32 .f32)
    (v16 : Vec Ideal S400x128 .f32) (v19 : Vec Ideal S1x160 .f32) (v24 : Vec Ideal S160x1 .f32) (p : Fin 400) (u : Fin 1) :
    k8_pay5 v0 v1 v4 v16 v19 v24 (ix2 p u)
      = ∑ j : Fin 160, Ideal.tanh (((∑ a : Fin 32, v4 (ix2 p a) * v0 (ix2 a j)) + (∑ b : Fin 128, v16 (ix2 p b) * v1 (ix2 b j)))
          + v19 (ix2 (0 : Fin 1) j)) * v24 (ix2 j u) := by
  unfold k8_pay5 k8_pay3
  refine (Cert.LibPlainDot.matmul_zero_apply dot_S400x160_S160x1_S400x1_1_0_0_1_n_n rfl rfl rfl rfl rfl rfl none _ v24 p u).trans ?_
  refine Finset.sum_congr rfl fun j _ => ?_
  refine congrArg (fun a : EReal => a * v24 (ix2 j u)) ?_
  refine congrArg (fun a : EReal => Ideal.tanh a) ?_
  refine congrArg₂ (fun a b : EReal => a + b) (congrArg₂ (fun a b : EReal => a + b) ?_ ?_) ?_
  · rw [shapeCast_self]
    exact Cert.LibPlainDot.matmul_zero_apply dot_S400x32_S32x160_S400x160_1_0_0_1_n_n rfl rfl rfl rfl rfl rfl none v4 v0 p j
  · exact Cert.LibPlainDot.matmul_zero_apply dot_S400x128_S128x160_S400x160_1_0_0_1_n_n rfl rfl rfl rfl rfl rfl none v16 v1 p j
  · rw [shapeCast_self]
    exact broadcastTo_1b_ab_apply v19 broadcasts_S1x160_S400x160 p j

/-- The first weight at an index, from the two scores there: exp(s1 - m) / (exp(s1 - m) + exp(s2 - m)), m = max(s1, s2). -/
theorem weight1_pay (v0 : Vec Ideal S32x160 .f32) (v1 : Vec Ideal S128x160 .f32) (v2 v4 : Vec Ideal S400x32 .f32)
    (v7 : Vec Ideal S400x128 .f32) (v10 : Vec Ideal S1x160 .f32) (v16 : Vec Ideal S400x128 .f32) (v19 : Vec Ideal S1x160 .f32)
    (v24 : Vec Ideal S160x1 .f32) (i : S400x1.Idx) :
    k8_pay10 v0 v1 v2 v4 v7 v10 v16 v19 v24 i
      = Ideal.div (Ideal.exp (k8_pay4 v0 v1 v2 v7 v10 v24 i - max (k8_pay4 v0 v1 v2 v7 v10 v24 i) (k8_pay5 v0 v1 v4 v16 v19 v24 i)))
          (Ideal.exp (k8_pay4 v0 v1 v2 v7 v10 v24 i - max (k8_pay4 v0 v1 v2 v7 v10 v24 i) (k8_pay5 v0 v1 v4 v16 v19 v24 i))
            + Ideal.exp (k8_pay5 v0 v1 v4 v16 v19 v24 i - max (k8_pay4 v0 v1 v2 v7 v10 v24 i) (k8_pay5 v0 v1 v4 v16 v19 v24 i))) := rfl

/-- The second weight at an index: exp(s2 - m) / (exp(s1 - m) + exp(s2 - m)). -/
theorem weight2_pay (v0 : Vec Ideal S32x160 .f32) (v1 : Vec Ideal S128x160 .f32) (v2 v4 : Vec Ideal S400x32 .f32)
    (v7 : Vec Ideal S400x128 .f32) (v10 : Vec Ideal S1x160 .f32) (v16 : Vec Ideal S400x128 .f32) (v19 : Vec Ideal S1x160 .f32)
    (v24 : Vec Ideal S160x1 .f32) (i : S400x1.Idx) :
    k8_pay11 v0 v1 v2 v4 v7 v10 v16 v19 v24 i
      = Ideal.div (Ideal.exp (k8_pay5 v0 v1 v4 v16 v19 v24 i - max (k8_pay4 v0 v1 v2 v7 v10 v24 i) (k8_pay5 v0 v1 v4 v16 v19 v24 i)))
          (Ideal.exp (k8_pay4 v0 v1 v2 v7 v10 v24 i - max (k8_pay4 v0 v1 v2 v7 v10 v24 i) (k8_pay5 v0 v1 v4 v16 v19 v24 i))
            + Ideal.exp (k8_pay5 v0 v1 v4 v16 v19 v24 i - max (k8_pay4 v0 v1 v2 v7 v10 v24 i) (k8_pay5 v0 v1 v4 v16 v19 v24 i))) := rfl

/-- The fused entry (p, o): the first weight of node p times the first encoding plus the second weight times the second. -/
theorem fuse_pay (v3 v5 : FVec Ideal S400x32 .f32) (v33 v34 : FVec Ideal S400x1 .f32) (p : Fin 400) (o : Fin 32) :
    k8_pay1 v3 v5 v33 v34 (ix2 p o)
      = v33 (ix2 p (0 : Fin 1)) * v3 (ix2 p o) + v34 (ix2 p (0 : Fin 1)) * v5 (ix2 p o) := by
  unfold k8_pay1
  refine congrArg₂ (fun a b : EReal => a + b) (congrArg (fun a : EReal => a * v3 (ix2 p o)) ?_) (congrArg (fun a : EReal => a * v5 (ix2 p o)) ?_)
  · exact Cert.LibKeepdims.broadcastTo_a1_ab_apply v33 broadcasts_S400x1_S400x32 p o
  · exact Cert.LibKeepdims.broadcastTo_a1_ab_apply v34 broadcasts_S400x1_S400x32 p o

/-! ## Loads through part of the weight block, and the two column stores -/

theorem zero2 : (![0, 0] : Fin 2 → Nat) = fun _ => 0 := funext fun a => by fin_cases a <;> rfl

/-- A load through rows 0 … 31 of the weight block reads row 0 + a. -/
theorem ld_rows0 (x4 : Vec Ideal S160x160 .f32) (a : Fin 32) (j : Fin 160) :
    View.ld x4 r8_0 (ix2 a j) = x4 (ix2 (⟨0 + a.val, by omega⟩ : Fin 160) j) := by
  refine congrArg x4 (funext fun d => Fin.ext ?_)
  match d with
  | ⟨0, _⟩ => show 0 + 1 * a.val = 0 + a.val; omega
  | ⟨1, _⟩ => show 0 + 1 * j.val = j.val; omega

/-- A load through rows 32 … 159 of the weight block reads row 32 + b. -/
theorem ld_rows32 (x4 : Vec Ideal S160x160 .f32) (b : Fin 128) (j : Fin 160) :
    View.ld x4 r8_1 (ix2 b j) = x4 (ix2 (⟨32 + b.val, by omega⟩ : Fin 160) j) := by
  refine congrArg x4 (funext fun d => Fin.ext ?_)
  match d with
  | ⟨0, _⟩ => show 32 + 1 * b.val = 32 + b.val; omega
  | ⟨1, _⟩ => show 0 + 1 * j.val = j.val; omega

/-- The two column stores, the one into column 1 made last: column 1 of the buffer holds that store's payload. -/
theorem canon_col1 (P11 P10 : Vec Ideal S400x1 .f32) (p : Fin 400) :
    View.canon ([⟨r8_7, P11⟩, ⟨r8_6, P10⟩] : List (View.Piece (Elt Ideal) S400x2 .f32)) (ix2 p (1 : Fin 2)) = P11 (ix2 p (0 : Fin 1)) := by
  have e1 : (ix2 p (1 : Fin 2) : S400x2.Idx) = r8_7.emb (ix2 p (0 : Fin 1)) := by
    funext d; apply Fin.ext
    match d with
    | ⟨0, _⟩ => show p.val = 0 + 1 * p.val; omega
    | ⟨1, _⟩ => show 1 = 1 + 1 * 0; rfl
  rw [e1, View.canon_cons_emb]

/-- Column 0 is outside the last store's rectangle, so it holds the earlier store's payload. -/
theorem canon_col0 (P11 P10 : Vec Ideal S400x1 .f32) (p : Fin 400) :
    View.canon ([⟨r8_7, P11⟩, ⟨r8_6, P10⟩] : List (View.Piece (Elt Ideal) S400x2 .f32)) (ix2 p (0 : Fin 2)) = P10 (ix2 p (0 : Fin 1)) := by
  have hnot : (ix2 p (0 : Fin 2) : S400x2.Idx) ∉ r8_7.set := by
    rw [Rect.mem_set_unit]
    intro h
    have h1 : (1 : ℕ) ≤ 0 := (h 1).1
    omega
  refine (View.canon_cons_of_not_mem (⟨r8_7, P11⟩ : View.Piece (Elt Ideal) S400x2 .f32) [⟨r8_6, P10⟩] hnot).trans ?_
  have e0 : (ix2 p (0 : Fin 2) : S400x2.Idx) = r8_6.emb (ix2 p (0 : Fin 1)) := by
    funext d; apply Fin.ext
    match d with
    | ⟨0, _⟩ => show p.val = 0 + 1 * p.val; omega
    | ⟨1, _⟩ => show 0 = 0 + 1 * 0; rfl
  rw [e0, View.canon_cons_emb]

/-! ## The block's values are the whole-array functions at the block's rows

The operands of a block are the arrays' entries of its rows: the encodings and features at row r of the arrays for
row p of the block, the weight block, the bias row and the output column whole.  Under those readings every entry the
body computes is the entry of the whole-array function at row r. -/

/-- The softmax weight of the first of two scores. -/
def w1of (s1 s2 : EReal) : EReal :=
  Ideal.div (Ideal.exp (s1 - max s1 s2)) (Ideal.exp (s1 - max s1 s2) + Ideal.exp (s2 - max s1 s2))

/-- The softmax weight of the second of two scores. -/
def w2of (s1 s2 : EReal) : EReal :=
  Ideal.div (Ideal.exp (s2 - max s1 s2)) (Ideal.exp (s1 - max s1 s2) + Ideal.exp (s2 - max s1 s2))

/-- The first view's score of block row p is the whole-array score of row r. -/
theorem score1_eq {n : ℕ} (Z : Mat n 32) (X : Mat n 128) (Wp1 : Mat 160 160) (B : Mat 1 160) (Wp2 : Mat 160 1)
    (x4 : Vec Ideal S160x160 .f32) (z : Vec Ideal S400x32 .f32) (x : Vec Ideal S400x128 .f32) (x5 : Vec Ideal S1x160 .f32)
    (x6 : Vec Ideal S160x1 .f32) (p : Fin 400) (r : Fin n)
    (hzr : ∀ a : Fin 32, z (ix2 p a) = Z (ix2 r a)) (hxr : ∀ b : Fin 128, x (ix2 p b) = X (ix2 r b))
    (h4 : ∀ a j : Fin 160, x4 (ix2 a j) = Wp1 (ix2 a j))
    (h5 : ∀ j : Fin 160, x5 (ix2 (0 : Fin 1) j) = B (ix2 (0 : Fin 1) j))
    (h6 : ∀ j : Fin 160, x6 (ix2 j (0 : Fin 1)) = Wp2 (ix2 j (0 : Fin 1))) :
    k8_pay4 (View.ld x4 r8_0) (View.ld x4 r8_1) z x x5 x6 (ix2 p (0 : Fin 1)) = score Z X Wp1 B Wp2 (ix2 r (0 : Fin 1)) := by
  refine (score1_apply (View.ld x4 r8_0) (View.ld x4 r8_1) z x x5 x6 p 0).trans ?_
  show _ = ∑ j : Fin 160, Ideal.tanh (((∑ a : Fin 32, Z (ix2 r a) * Wp1 (ix2 (⟨0 + a.val, by omega⟩ : Fin 160) j))
      + (∑ b : Fin 128, X (ix2 r b) * Wp1 (ix2 (⟨32 + b.val, by omega⟩ : Fin 160) j))) + B (ix2 (0 : Fin 1) j)) * Wp2 (ix2 j (0 : Fin 1))
  refine Finset.sum_congr rfl fun j _ => ?_
  refine congrArg₂ (fun a b : EReal => a * b) (congrArg (fun a : EReal => Ideal.tanh a) (congrArg₂ (fun a b : EReal => a + b)
    (congrArg₂ (fun a b : EReal => a + b) (Finset.sum_congr rfl fun a _ => ?_) (Finset.sum_congr rfl fun b _ => ?_)) (h5 j))) (h6 j)
  · exact congrArg₂ (fun a b : EReal => a * b) (hzr a) ((ld_rows0 x4 a j).trans (h4 _ j))
  · exact congrArg₂ (fun a b : EReal => a * b) (hxr b) ((ld_rows32 x4 b j).trans (h4 _ j))

/-- The second view's score of block row p is the whole-array score of row r. -/
theorem score2_eq {n : ℕ} (Z : Mat n 32) (X : Mat n 128) (Wp1 : Mat 160 160) (B : Mat 1 160) (Wp2 : Mat 160 1)
    (x4 : Vec Ideal S160x160 .f32) (z : Vec Ideal S400x32 .f32) (x : Vec Ideal S400x128 .f32) (x5 : Vec Ideal S1x160 .f32)
    (x6 : Vec Ideal S160x1 .f32) (p : Fin 400) (r : Fin n)
    (hzr : ∀ a : Fin 32, z (ix2 p a) = Z (ix2 r a)) (hxr : ∀ b : Fin 128, x (ix2 p b) = X (ix2 r b))
    (h4 : ∀ a j : Fin 160, x4 (ix2 a j) = Wp1 (ix2 a j))
    (h5 : ∀ j : Fin 160, x5 (ix2 (0 : Fin 1) j) = B (ix2 (0 : Fin 1) j))
    (h6 : ∀ j : Fin 160, x6 (ix2 j (0 : Fin 1)) = Wp2 (ix2 j (0 : Fin 1))) :
    k8_pay5 (View.ld x4 r8_0) (View.ld x4 r8_1) z x x5 x6 (ix2 p (0 : Fin 1)) = score Z X Wp1 B Wp2 (ix2 r (0 : Fin 1)) := by
  refine (score2_apply (View.ld x4 r8_0) (View.ld x4 r8_1) z x x5 x6 p 0).trans ?_
  show _ = ∑ j : Fin 160, Ideal.tanh (((∑ a : Fin 32, Z (ix2 r a) * Wp1 (ix2 (⟨0 + a.val, by omega⟩ : Fin 160) j))
      + (∑ b : Fin 128, X (ix2 r b) * Wp1 (ix2 (⟨32 + b.val, by omega⟩ : Fin 160) j))) + B (ix2 (0 : Fin 1) j)) * Wp2 (ix2 j (0 : Fin 1))
  refine Finset.sum_congr rfl fun j _ => ?_
  refine congrArg₂ (fun a b : EReal => a * b) (congrArg (fun a : EReal => Ideal.tanh a) (congrArg₂ (fun a b : EReal => a + b)
    (congrArg₂ (fun a b : EReal => a + b) (Finset.sum_congr rfl fun a _ => ?_) (Finset.sum_congr rfl fun b _ => ?_)) (h5 j))) (h6 j)
  · exact congrArg₂ (fun a b : EReal => a * b) (hzr a) ((ld_rows0 x4 a j).trans (h4 _ j))
  · exact congrArg₂ (fun a b : EReal => a * b) (hxr b) ((ld_rows32 x4 b j).trans (h4 _ j))

/-- The first weight of block row p is the whole-array first weight of row r. -/
theorem weight1_blk {n : ℕ} (Ze : Mat n 32) (Xe : Mat n 128) (Zf : Mat n 32) (Xf : Mat n 128) (Wp1 : Mat 160 160) (B : Mat 1 160) (Wp2 : Mat 160 1)
    (x0 : Vec Ideal S400x32 .f32) (x1 : Vec Ideal S400x128 .f32) (x2 : Vec Ideal S400x32 .f32) (x3 : Vec Ideal S400x128 .f32)
    (x4 : Vec Ideal S160x160 .f32) (x5 : Vec Ideal S1x160 .f32) (x6 : Vec Ideal S160x1 .f32) (p : Fin 400) (r : Fin n)
    (h0 : ∀ a : Fin 32, x0 (ix2 p a) = Ze (ix2 r a)) (h1 : ∀ b : Fin 128, x1 (ix2 p b) = Xe (ix2 r b))
    (h2 : ∀ a : Fin 32, x2 (ix2 p a) = Zf (ix2 r a)) (h3 : ∀ b : Fin 128, x3 (ix2 p b) = Xf (ix2 r b))
    (h4 : ∀ a j : Fin 160, x4 (ix2 a j) = Wp1 (ix2 a j))
    (h5 : ∀ j : Fin 160, x5 (ix2 (0 : Fin 1) j) = B (ix2 (0 : Fin 1) j))
    (h6 : ∀ j : Fin 160, x6 (ix2 j (0 : Fin 1)) = Wp2 (ix2 j (0 : Fin 1))) :
    k8_pay10 (View.ld x4 r8_0) (View.ld x4 r8_1) x0 x2 x1 x5 x3 x5 x6 (ix2 p (0 : Fin 1)) = weight1 (score Ze Xe Wp1 B Wp2) (score Zf Xf Wp1 B Wp2) (ix2 r (0 : Fin 1)) :=
  (weight1_pay (View.ld x4 r8_0) (View.ld x4 r8_1) x0 x2 x1 x5 x3 x5 x6 (ix2 p (0 : Fin 1))).trans
    (congrArg₂ w1of (score1_eq Ze Xe Wp1 B Wp2 x4 x0 x1 x5 x6 p r h0 h1 h4 h5 h6) (score2_eq Zf Xf Wp1 B Wp2 x4 x2 x3 x5 x6 p r h2 h3 h4 h5 h6))

/-- The second weight of block row p is the whole-array second weight of row r. -/
theorem weight2_blk {n : ℕ} (Ze : Mat n 32) (Xe : Mat n 128) (Zf : Mat n 32) (Xf : Mat n 128) (Wp1 : Mat 160 160) (B : Mat 1 160) (Wp2 : Mat 160 1)
    (x0 : Vec Ideal S400x32 .f32) (x1 : Vec Ideal S400x128 .f32) (x2 : Vec Ideal S400x32 .f32) (x3 : Vec Ideal S400x128 .f32)
    (x4 : Vec Ideal S160x160 .f32) (x5 : Vec Ideal S1x160 .f32) (x6 : Vec Ideal S160x1 .f32) (p : Fin 400) (r : Fin n)
    (h0 : ∀ a : Fin 32, x0 (ix2 p a) = Ze (ix2 r a)) (h1 : ∀ b : Fin 128, x1 (ix2 p b) = Xe (ix2 r b))
    (h2 : ∀ a : Fin 32, x2 (ix2 p a) = Zf (ix2 r a)) (h3 : ∀ b : Fin 128, x3 (ix2 p b) = Xf (ix2 r b))
    (h4 : ∀ a j : Fin 160, x4 (ix2 a j) = Wp1 (ix2 a j))
    (h5 : ∀ j : Fin 160, x5 (ix2 (0 : Fin 1) j) = B (ix2 (0 : Fin 1) j))
    (h6 : ∀ j : Fin 160, x6 (ix2 j (0 : Fin 1)) = Wp2 (ix2 j (0 : Fin 1))) :
    k8_pay11 (View.ld x4 r8_0) (View.ld x4 r8_1) x0 x2 x1 x5 x3 x5 x6 (ix2 p (0 : Fin 1)) = weight2 (score Ze Xe Wp1 B Wp2) (score Zf Xf Wp1 B Wp2) (ix2 r (0 : Fin 1)) :=
  (weight2_pay (View.ld x4 r8_0) (View.ld x4 r8_1) x0 x2 x1 x5 x3 x5 x6 (ix2 p (0 : Fin 1))).trans
    (congrArg₂ w2of (score1_eq Ze Xe Wp1 B Wp2 x4 x0 x1 x5 x6 p r h0 h1 h4 h5 h6) (score2_eq Zf Xf Wp1 B Wp2 x4 x2 x3 x5 x6 p r h2 h3 h4 h5 h6))

/-- What the body leaves in the fused-encoding buffer, at (p, o), is the whole-array fused encoding at (r, o). -/
theorem out7_apply {n : ℕ} (Ze : Mat n 32) (Xe : Mat n 128) (Zf : Mat n 32) (Xf : Mat n 128) (Wp1 : Mat 160 160) (B : Mat 1 160) (Wp2 : Mat 160 1)
    (x0 : Vec Ideal S400x32 .f32) (x1 : Vec Ideal S400x128 .f32) (x2 : Vec Ideal S400x32 .f32) (x3 : Vec Ideal S400x128 .f32)
    (x4 : Vec Ideal S160x160 .f32) (x5 : Vec Ideal S1x160 .f32) (x6 : Vec Ideal S160x1 .f32) (p : Fin 400) (o : Fin 32) (r : Fin n)
    (h0 : ∀ a : Fin 32, x0 (ix2 p a) = Ze (ix2 r a)) (h1 : ∀ b : Fin 128, x1 (ix2 p b) = Xe (ix2 r b))
    (h2 : ∀ a : Fin 32, x2 (ix2 p a) = Zf (ix2 r a)) (h3 : ∀ b : Fin 128, x3 (ix2 p b) = Xf (ix2 r b))
    (h4 : ∀ a j : Fin 160, x4 (ix2 a j) = Wp1 (ix2 a j))
    (h5 : ∀ j : Fin 160, x5 (ix2 (0 : Fin 1) j) = B (ix2 (0 : Fin 1) j))
    (h6 : ∀ j : Fin 160, x6 (ix2 j (0 : Fin 1)) = Wp2 (ix2 j (0 : Fin 1))) :
    out8_7 x0 x1 x2 x3 x4 x5 x6 (ix2 p o) = attnFused Ze Xe Zf Xf Wp1 B Wp2 (ix2 r o) := by
  unfold out8_7
  rw [View.canon_unit_zero zero2]
  simp only [View.ld_unit_zero (S := S400x32) zero2, View.ld_unit_zero (S := S400x128) zero2, View.ld_unit_zero (S := S1x160) zero2,
    View.ld_unit_zero (S := S160x1) zero2]
  refine (fuse_pay (k8_pay2 x0) (k8_pay3 x2) (k8_pay10 (View.ld x4 r8_0) (View.ld x4 r8_1) x0 x2 x1 x5 x3 x5 x6) (k8_pay11 (View.ld x4 r8_0) (View.ld x4 r8_1) x0 x2 x1 x5 x3 x5 x6) p o).trans ?_
  show _ = weight1 (score Ze Xe Wp1 B Wp2) (score Zf Xf Wp1 B Wp2) (ix2 r (0 : Fin 1)) * Ze (ix2 r o) + weight2 (score Ze Xe Wp1 B Wp2) (score Zf Xf Wp1 B Wp2) (ix2 r (0 : Fin 1)) * Zf (ix2 r o)
  refine congrArg₂ (fun a b : EReal => a + b)
    (congrArg₂ (fun a b : EReal => a * b) (weight1_blk Ze Xe Zf Xf Wp1 B Wp2 x0 x1 x2 x3 x4 x5 x6 p r h0 h1 h2 h3 h4 h5 h6) ?_)
    (congrArg₂ (fun a b : EReal => a * b) (weight2_blk Ze Xe Zf Xf Wp1 B Wp2 x0 x1 x2 x3 x4 x5 x6 p r h0 h1 h2 h3 h4 h5 h6) ?_)
  · unfold k8_pay2; rw [shapeCast_self]; exact h0 o
  · unfold k8_pay3; rw [shapeCast_self]; exact h2 o

/-- What the body leaves in the weights buffer, at (p, o), is the whole-array pair of weights at (r, o). -/
theorem out8_apply {n : ℕ} (Ze : Mat n 32) (Xe : Mat n 128) (Zf : Mat n 32) (Xf : Mat n 128) (Wp1 : Mat 160 160) (B : Mat 1 160) (Wp2 : Mat 160 1)
    (x0 : Vec Ideal S400x32 .f32) (x1 : Vec Ideal S400x128 .f32) (x2 : Vec Ideal S400x32 .f32) (x3 : Vec Ideal S400x128 .f32)
    (x4 : Vec Ideal S160x160 .f32) (x5 : Vec Ideal S1x160 .f32) (x6 : Vec Ideal S160x1 .f32) (p : Fin 400) (o : Fin 2) (r : Fin n)
    (h0 : ∀ a : Fin 32, x0 (ix2 p a) = Ze (ix2 r a)) (h1 : ∀ b : Fin 128, x1 (ix2 p b) = Xe (ix2 r b))
    (h2 : ∀ a : Fin 32, x2 (ix2 p a) = Zf (ix2 r a)) (h3 : ∀ b : Fin 128, x3 (ix2 p b) = Xf (ix2 r b))
    (h4 : ∀ a j : Fin 160, x4 (ix2 a j) = Wp1 (ix2 a j))
    (h5 : ∀ j : Fin 160, x5 (ix2 (0 : Fin 1) j) = B (ix2 (0 : Fin 1) j))
    (h6 : ∀ j : Fin 160, x6 (ix2 j (0 : Fin 1)) = Wp2 (ix2 j (0 : Fin 1))) :
    out8_8 x0 x1 x2 x3 x4 x5 x6 (ix2 p o) = attnWeights Ze Xe Zf Xf Wp1 B Wp2 (ix2 r o) := by
  unfold out8_8
  simp only [View.ld_unit_zero (S := S400x32) zero2, View.ld_unit_zero (S := S400x128) zero2, View.ld_unit_zero (S := S1x160) zero2,
    View.ld_unit_zero (S := S160x1) zero2]
  have ho : o = (0 : Fin 2) ∨ o = (1 : Fin 2) := by
    rcases o with ⟨_ | _ | k, hk⟩
    · left; rfl
    · right; rfl
    · omega
  rcases ho with rfl | rfl
  · refine (canon_col0 (k8_pay11 (View.ld x4 r8_0) (View.ld x4 r8_1) x0 x2 x1 x5 x3 x5 x6) (k8_pay10 (View.ld x4 r8_0) (View.ld x4 r8_1) x0 x2 x1 x5 x3 x5 x6) p).trans ?_
    refine (weight1_blk Ze Xe Zf Xf Wp1 B Wp2 x0 x1 x2 x3 x4 x5 x6 p r h0 h1 h2 h3 h4 h5 h6).trans ?_
    show _ = if ((0 : Fin 2)).val = 0 then weight1 (score Ze Xe Wp1 B Wp2) (score Zf Xf Wp1 B Wp2) (ix2 r (0 : Fin 1)) else weight2 (score Ze Xe Wp1 B Wp2) (score Zf Xf Wp1 B Wp2) (ix2 r (0 : Fin 1))
    exact (if_pos (show ((0 : Fin 2)).val = 0 from rfl)).symm
  · refine (canon_col1 (k8_pay11 (View.ld x4 r8_0) (View.ld x4 r8_1) x0 x2 x1 x5 x3 x5 x6) (k8_pay10 (View.ld x4 r8_0) (View.ld x4 r8_1) x0 x2 x1 x5 x3 x5 x6) p).trans ?_
    refine (weight2_blk Ze Xe Zf Xf Wp1 B Wp2 x0 x1 x2 x3 x4 x5 x6 p r h0 h1 h2 h3 h4 h5 h6).trans ?_
    show _ = if ((1 : Fin 2)).val = 0 then weight1 (score Ze Xe Wp1 B Wp2) (score Zf Xf Wp1 B Wp2) (ix2 r (0 : Fin 1)) else weight2 (score Ze Xe Wp1 B Wp2) (score Zf Xf Wp1 B Wp2) (ix2 r (0 : Fin 1))
    exact (if_neg (show ¬ ((1 : Fin 2)).val = 0 by decide)).symm

/-! ## From the blocks to the arrays

The grid has 25 points; point t receives rows 400t … 400t+399 of the two encodings and the two feature arrays, and
the weight block, the bias row and the output column whole, and writes rows 400t … 400t+399 of the two outputs.  The
25 blocks tile the 10000 rows. -/

-- the buffers' contents when the launch is entered: a parameter
variable (V : (c : Dev nD) → (b : Ref sig .tc) → Buf (Elt Ideal) ((c : Thread nD τ).loc b))

/-! The index maps over the grid: the row-block windows sit at block row t, the three resident operands at their one block. -/
theorem idx_0 : ∀ t : Fin cfg8.N, win8_0.index t (0 : Fin 2) = t.val ∧ win8_0.index t (1 : Fin 2) = 0 :=
  (by decide +kernel : ∀ t : Fin grid8.N, _)
theorem idx_1 : ∀ t : Fin cfg8.N, win8_1.index t (0 : Fin 2) = t.val ∧ win8_1.index t (1 : Fin 2) = 0 :=
  (by decide +kernel : ∀ t : Fin grid8.N, _)
theorem idx_2 : ∀ t : Fin cfg8.N, win8_2.index t (0 : Fin 2) = t.val ∧ win8_2.index t (1 : Fin 2) = 0 :=
  (by decide +kernel : ∀ t : Fin grid8.N, _)
theorem idx_3 : ∀ t : Fin cfg8.N, win8_3.index t (0 : Fin 2) = t.val ∧ win8_3.index t (1 : Fin 2) = 0 :=
  (by decide +kernel : ∀ t : Fin grid8.N, _)
theorem idx_7 : ∀ t : Fin cfg8.N, win8_7.index t (0 : Fin 2) = t.val ∧ win8_7.index t (1 : Fin 2) = 0 :=
  (by decide +kernel : ∀ t : Fin grid8.N, _)
theorem idx_8 : ∀ t : Fin cfg8.N, win8_8.index t (0 : Fin 2) = t.val ∧ win8_8.index t (1 : Fin 2) = 0 :=
  (by decide +kernel : ∀ t : Fin grid8.N, _)
theorem idx_4 : ∀ t : Fin cfg8.N, win8_4.index t (0 : Fin 2) = 0 ∧ win8_4.index t (1 : Fin 2) = 0 :=
  (by decide +kernel : ∀ t : Fin grid8.N, _)
theorem idx_5 : ∀ t : Fin cfg8.N, win8_5.index t (0 : Fin 2) = 0 ∧ win8_5.index t (1 : Fin 2) = 0 :=
  (by decide +kernel : ∀ t : Fin grid8.N, _)
theorem idx_6 : ∀ t : Fin cfg8.N, win8_6.index t (0 : Fin 2) = 0 ∧ win8_6.index t (1 : Fin 2) = 0 :=
  (by decide +kernel : ∀ t : Fin grid8.N, _)

/-! An entry of a window's block is the array's entry at the block's offset. -/
theorem emb_0 (t : Fin cfg8.N) (p : Fin 400) (a : Fin 32) (h : t.val * 400 + p.val < 10000) :
    ((cfg8.win 0).blk t).view.emb (ix2 p a) = ix2 (⟨t.val * 400 + p.val, h⟩ : Fin 10000) a := by
  obtain ⟨e0, e1⟩ := idx_0 t
  funext d; apply Fin.ext
  match d with
  | ⟨0, _⟩ => show win8_0.index t (0 : Fin 2) * 400 + 1 * p.val = t.val * 400 + p.val; omega
  | ⟨1, _⟩ => show win8_0.index t (1 : Fin 2) * 32 + 1 * a.val = a.val; omega
theorem emb_1 (t : Fin cfg8.N) (p : Fin 400) (a : Fin 128) (h : t.val * 400 + p.val < 10000) :
    ((cfg8.win 1).blk t).view.emb (ix2 p a) = ix2 (⟨t.val * 400 + p.val, h⟩ : Fin 10000) a := by
  obtain ⟨e0, e1⟩ := idx_1 t
  funext d; apply Fin.ext
  match d with
  | ⟨0, _⟩ => show win8_1.index t (0 : Fin 2) * 400 + 1 * p.val = t.val * 400 + p.val; omega
  | ⟨1, _⟩ => show win8_1.index t (1 : Fin 2) * 128 + 1 * a.val = a.val; omega
theorem emb_2 (t : Fin cfg8.N) (p : Fin 400) (a : Fin 32) (h : t.val * 400 + p.val < 10000) :
    ((cfg8.win 2).blk t).view.emb (ix2 p a) = ix2 (⟨t.val * 400 + p.val, h⟩ : Fin 10000) a := by
  obtain ⟨e0, e1⟩ := idx_2 t
  funext d; apply Fin.ext
  match d with
  | ⟨0, _⟩ => show win8_2.index t (0 : Fin 2) * 400 + 1 * p.val = t.val * 400 + p.val; omega
  | ⟨1, _⟩ => show win8_2.index t (1 : Fin 2) * 32 + 1 * a.val = a.val; omega
theorem emb_3 (t : Fin cfg8.N) (p : Fin 400) (a : Fin 128) (h : t.val * 400 + p.val < 10000) :
    ((cfg8.win 3).blk t).view.emb (ix2 p a) = ix2 (⟨t.val * 400 + p.val, h⟩ : Fin 10000) a := by
  obtain ⟨e0, e1⟩ := idx_3 t
  funext d; apply Fin.ext
  match d with
  | ⟨0, _⟩ => show win8_3.index t (0 : Fin 2) * 400 + 1 * p.val = t.val * 400 + p.val; omega
  | ⟨1, _⟩ => show win8_3.index t (1 : Fin 2) * 128 + 1 * a.val = a.val; omega
theorem emb_7 (t : Fin cfg8.N) (p : Fin 400) (a : Fin 32) (h : t.val * 400 + p.val < 10000) :
    ((cfg8.win 7).blk t).view.emb (ix2 p a) = ix2 (⟨t.val * 400 + p.val, h⟩ : Fin 10000) a := by
  obtain ⟨e0, e1⟩ := idx_7 t
  funext d; apply Fin.ext
  match d with
  | ⟨0, _⟩ => show win8_7.index t (0 : Fin 2) * 400 + 1 * p.val = t.val * 400 + p.val; omega
  | ⟨1, _⟩ => show win8_7.index t (1 : Fin 2) * 32 + 1 * a.val = a.val; omega
theorem emb_8 (t : Fin cfg8.N) (p : Fin 400) (a : Fin 2) (h : t.val * 400 + p.val < 10000) :
    ((cfg8.win 8).blk t).view.emb (ix2 p a) = ix2 (⟨t.val * 400 + p.val, h⟩ : Fin 10000) a := by
  obtain ⟨e0, e1⟩ := idx_8 t
  funext d; apply Fin.ext
  match d with
  | ⟨0, _⟩ => show win8_8.index t (0 : Fin 2) * 400 + 1 * p.val = t.val * 400 + p.val; omega
  | ⟨1, _⟩ => show win8_8.index t (1 : Fin 2) * 2 + 1 * a.val = a.val; omega
theorem emb_4 (t : Fin cfg8.N) (a : Fin 160) (j : Fin 160) :
    ((cfg8.win 4).blk t).view.emb (ix2 a j) = ix2 a j := by
  obtain ⟨e0, e1⟩ := idx_4 t
  funext d; apply Fin.ext
  match d with
  | ⟨0, _⟩ => show win8_4.index t (0 : Fin 2) * 160 + 1 * a.val = a.val; omega
  | ⟨1, _⟩ => show win8_4.index t (1 : Fin 2) * 160 + 1 * j.val = j.val; omega
theorem emb_5 (t : Fin cfg8.N) (a : Fin 1) (j : Fin 160) :
    ((cfg8.win 5).blk t).view.emb (ix2 a j) = ix2 a j := by
  obtain ⟨e0, e1⟩ := idx_5 t
  funext d; apply Fin.ext
  match d with
  | ⟨0, _⟩ => show win8_5.index t (0 : Fin 2) * 1 + 1 * a.val = a.val; omega
  | ⟨1, _⟩ => show win8_5.index t (1 : Fin 2) * 160 + 1 * j.val = j.val; omega
theorem emb_6 (t : Fin cfg8.N) (a : Fin 160) (j : Fin 1) :
    ((cfg8.win 6).blk t).view.emb (ix2 a j) = ix2 a j := by
  obtain ⟨e0, e1⟩ := idx_6 t
  funext d; apply Fin.ext
  match d with
  | ⟨0, _⟩ => show win8_6.index t (0 : Fin 2) * 160 + 1 * a.val = a.val; omega
  | ⟨1, _⟩ => show win8_6.index t (1 : Fin 2) * 1 + 1 * j.val = j.val; omega

/-- What point t writes back to output 7 is rows 400t … 400t+399 of the whole-array function. -/
theorem flushed7_eq (c : Dev nD) (t : Fin cfg8.N) :
    (dat8 V c).flushed 7 t = ((cfg8.win 7).blk t).view.read (Elt Ideal)
      (attnFused (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))) := by
  show (cfg8.win 7).cut (grid8.coords t) ((dat8 V c).after 7 t) = _
  rw [after8_7]
  have ht : t.val < 25 := t.isLt
  funext i
  obtain ⟨p, o, rfl⟩ : ∃ (p : Fin 400) (o : Fin 32), i = ix2 p o := ⟨i 0, i 1, eq_ix2 i⟩
  have hp : p.val < 400 := p.isLt
  have hr : t.val * 400 + p.val < 10000 := by omega
  refine (out7_apply (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))
      (iblk8 V c 0 t) (iblk8 V c 1 t) (iblk8 V c 2 t) (iblk8 V c 3 t) (iblk8 V c 4 t) (iblk8 V c 5 t) (iblk8 V c 6 t) p o ⟨t.val * 400 + p.val, hr⟩
      (fun a => congrArg (V c (Pipeline.arrRef spec8 0)) (emb_0 t p a hr)) (fun b => congrArg (V c (Pipeline.arrRef spec8 1)) (emb_1 t p b hr))
      (fun a => congrArg (V c (Pipeline.arrRef spec8 2)) (emb_2 t p a hr)) (fun b => congrArg (V c (Pipeline.arrRef spec8 3)) (emb_3 t p b hr))
      (fun a j => congrArg (V c (Pipeline.arrRef spec8 4)) (emb_4 t a j)) (fun j => congrArg (V c (Pipeline.arrRef spec8 5)) (emb_5 t (0 : Fin 1) j))
      (fun j => congrArg (V c (Pipeline.arrRef spec8 6)) (emb_6 t j (0 : Fin 1)))).trans ?_
  exact (congrArg (attnFused (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))) (emb_7 t p o hr)).symm

/-- What point t writes back to output 8 is rows 400t … 400t+399 of the whole-array function. -/
theorem flushed8_eq (c : Dev nD) (t : Fin cfg8.N) :
    (dat8 V c).flushed 8 t = ((cfg8.win 8).blk t).view.read (Elt Ideal)
      (attnWeights (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))) := by
  show (cfg8.win 8).cut (grid8.coords t) ((dat8 V c).after 8 t) = _
  rw [after8_8]
  have ht : t.val < 25 := t.isLt
  funext i
  obtain ⟨p, o, rfl⟩ : ∃ (p : Fin 400) (o : Fin 2), i = ix2 p o := ⟨i 0, i 1, eq_ix2 i⟩
  have hp : p.val < 400 := p.isLt
  have hr : t.val * 400 + p.val < 10000 := by omega
  refine (out8_apply (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))
      (iblk8 V c 0 t) (iblk8 V c 1 t) (iblk8 V c 2 t) (iblk8 V c 3 t) (iblk8 V c 4 t) (iblk8 V c 5 t) (iblk8 V c 6 t) p o ⟨t.val * 400 + p.val, hr⟩
      (fun a => congrArg (V c (Pipeline.arrRef spec8 0)) (emb_0 t p a hr)) (fun b => congrArg (V c (Pipeline.arrRef spec8 1)) (emb_1 t p b hr))
      (fun a => congrArg (V c (Pipeline.arrRef spec8 2)) (emb_2 t p a hr)) (fun b => congrArg (V c (Pipeline.arrRef spec8 3)) (emb_3 t p b hr))
      (fun a j => congrArg (V c (Pipeline.arrRef spec8 4)) (emb_4 t a j)) (fun j => congrArg (V c (Pipeline.arrRef spec8 5)) (emb_5 t (0 : Fin 1) j))
      (fun j => congrArg (V c (Pipeline.arrRef spec8 6)) (emb_6 t j (0 : Fin 1)))).trans ?_
  exact (congrArg (attnWeights (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6))) (emb_8 t p o hr)).symm

/-- An index of output 7's array is in point t's block iff its row is one of the block's 400 rows. -/
theorem mem_blk7 (t : Fin cfg8.N) (i : S10000x32.Idx) :
    i ∈ ((cfg8.win 7).blk t).view.set ↔ ∀ a : Fin 2, win8_7.index t a * S400x32.size a ≤ (i a).val ∧ (i a).val < win8_7.index t a * S400x32.size a + S400x32.size a := by
  show i ∈ ((View.whole main_v15_0).slice (win8_7.rect t)).set ↔ _
  rw [View.set_slice_whole, Rect.mem_set_unit]
  exact Iff.rfl

/-- Row r lies in the block of point r / 400. -/
theorem cover7 (i : S10000x32.Idx) : ∃ t : Fin cfg8.N, (cfg8.win 7).flush t = true ∧ i ∈ ((cfg8.win 7).blk t).view.set := by
  have hi0 : (i 0).val < 10000 := (i 0).isLt
  have hi1 : (i 1).val < 32 := (i 1).isLt
  have hq : (i 0).val / 400 < 25 := by omega
  refine ⟨⟨(i 0).val / 400, hq⟩, flush8_7 _, ?_⟩
  rw [mem_blk7]
  obtain ⟨e0, e1⟩ := idx_7 ⟨(i 0).val / 400, hq⟩
  have e0' : win8_7.index ⟨(i 0).val / 400, hq⟩ (0 : Fin 2) = (i 0).val / 400 := e0
  intro a
  match a with
  | ⟨0, _⟩ => show win8_7.index ⟨(i 0).val / 400, hq⟩ (0 : Fin 2) * 400 ≤ (i 0).val ∧ (i 0).val < win8_7.index ⟨(i 0).val / 400, hq⟩ (0 : Fin 2) * 400 + 400; omega
  | ⟨1, _⟩ => show win8_7.index ⟨(i 0).val / 400, hq⟩ (1 : Fin 2) * 32 ≤ (i 1).val ∧ (i 1).val < win8_7.index ⟨(i 0).val / 400, hq⟩ (1 : Fin 2) * 32 + 32; omega

/-- An index of output 8's array is in point t's block iff its row is one of the block's 400 rows. -/
theorem mem_blk8 (t : Fin cfg8.N) (i : S10000x2.Idx) :
    i ∈ ((cfg8.win 8).blk t).view.set ↔ ∀ a : Fin 2, win8_8.index t a * S400x2.size a ≤ (i a).val ∧ (i a).val < win8_8.index t a * S400x2.size a + S400x2.size a := by
  show i ∈ ((View.whole main_v15_1).slice (win8_8.rect t)).set ↔ _
  rw [View.set_slice_whole, Rect.mem_set_unit]
  exact Iff.rfl

/-- Row r lies in the block of point r / 400. -/
theorem cover8 (i : S10000x2.Idx) : ∃ t : Fin cfg8.N, (cfg8.win 8).flush t = true ∧ i ∈ ((cfg8.win 8).blk t).view.set := by
  have hi0 : (i 0).val < 10000 := (i 0).isLt
  have hi1 : (i 1).val < 2 := (i 1).isLt
  have hq : (i 0).val / 400 < 25 := by omega
  refine ⟨⟨(i 0).val / 400, hq⟩, flush8_8 _, ?_⟩
  rw [mem_blk8]
  obtain ⟨e0, e1⟩ := idx_8 ⟨(i 0).val / 400, hq⟩
  have e0' : win8_8.index ⟨(i 0).val / 400, hq⟩ (0 : Fin 2) = (i 0).val / 400 := e0
  intro a
  match a with
  | ⟨0, _⟩ => show win8_8.index ⟨(i 0).val / 400, hq⟩ (0 : Fin 2) * 400 ≤ (i 0).val ∧ (i 0).val < win8_8.index ⟨(i 0).val / 400, hq⟩ (0 : Fin 2) * 400 + 400; omega
  | ⟨1, _⟩ => show win8_8.index ⟨(i 0).val / 400, hq⟩ (1 : Fin 2) * 2 ≤ (i 1).val ∧ (i 1).val < win8_8.index ⟨(i 0).val / 400, hq⟩ (1 : Fin 2) * 2 + 2; omega

/-- After the launch output 7's array is the fused encoding of the seven input arrays as the launch found them. -/
theorem final7 (c : Dev nD) : (dat8 V c).arrAt 7 cfg8.N
    = attnFused (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) :=
  (dat8 V c).arrAt_eq_of_cover 7 _ (fun t _ => flushed7_eq V c t) (cover7)

/-- After the launch output 8's array is the pair of weights of the seven input arrays as the launch found them. -/
theorem final8 (c : Dev nD) : (dat8 V c).arrAt 8 cfg8.N
    = attnWeights (n := 10000) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) :=
  (dat8 V c).arrAt_eq_of_cover 8 _ (fun t _ => flushed8_eq V c t) (cover8)

end Cert.KernelIdeal.Attn8

end
-- ==== Proof.Chain.lean ====
/-
  The contents of the kernel program's buffers at each launch, as functions of the arguments.

  Walking the sixteen segments in order: the first launch of a graph leaves  P₁ = x · W₁ ; a host reshape lays the
  first bias out as a row; the next launch finds the adjacency, P₁, that row and W₂ — the arguments are as launched and
  P₁ is as the first launch left it, because no segment in between writes them — and leaves
  P₂ = relu(adj · P₁ + b₁) · W₂ ; likewise P₃ ; the fourth launch leaves the encoding  z = adj · P₃ + b₃ .  The same
  four launches run for the second graph, and the last launch finds both encodings, both feature matrices and the
  scoring weights and leaves the fused encoding and the two weights of every node.
-/
import proofs.«139367_g38302518346020_cont_8to1_b_1765_3_alg».proof.Proof.Ladder
import proofs.«139367_g38302518346020_cont_8to1_b_1765_3_alg».proof.Proof.RegionProj0
import proofs.«139367_g38302518346020_cont_8to1_b_1765_3_alg».proof.Proof.RegionMid1
import proofs.«139367_g38302518346020_cont_8to1_b_1765_3_alg».proof.Proof.RegionMid2
import proofs.«139367_g38302518346020_cont_8to1_b_1765_3_alg».proof.Proof.RegionLast3
import proofs.«139367_g38302518346020_cont_8to1_b_1765_3_alg».proof.Proof.RegionProj4
import proofs.«139367_g38302518346020_cont_8to1_b_1765_3_alg».proof.Proof.RegionMid5
import proofs.«139367_g38302518346020_cont_8to1_b_1765_3_alg».proof.Proof.RegionMid6
import proofs.«139367_g38302518346020_cont_8to1_b_1765_3_alg».proof.Proof.RegionLast7
import proofs.«139367_g38302518346020_cont_8to1_b_1765_3_alg».proof.Proof.RegionAttn8
import Idealize.ShloMosaic.Lib.StableHlo.Run

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

variable (m : (ℓ : Loc nD τ sig) → Buf (Elt Ideal) ℓ) (ρ : Dev nD → PrngReg)

/-! ## The intermediate arrays, as the specification's terms -/

def P1e (c : Dev nD) : Mat 10000 64 := mm (n := 10000) (k := 128) (d := 64) (m ((c : Thread nD τ).loc main_arg0)) (m ((c : Thread nD τ).loc main_arg4))
def P2e (c : Dev nD) : Mat 10000 32 := midLayer (n := 10000) (h := 64) (hn := 32) (m ((c : Thread nD τ).loc main_arg1)) (P1e m c) (asRow (d := 64) (m ((c : Thread nD τ).loc main_arg5))) (m ((c : Thread nD τ).loc main_arg6))
def P3e (c : Dev nD) : Mat 10000 32 := midLayer (n := 10000) (h := 32) (hn := 32) (m ((c : Thread nD τ).loc main_arg1)) (P2e m c) (asRow (d := 32) (m ((c : Thread nD τ).loc main_arg7))) (m ((c : Thread nD τ).loc main_arg8))
/-- The first graph's encoding. -/
def Ze (c : Dev nD) : Mat 10000 32 := lastLayer (n := 10000) (h := 32) (m ((c : Thread nD τ).loc main_arg1)) (P3e m c) (asRow (d := 32) (m ((c : Thread nD τ).loc main_arg9)))
def P1f (c : Dev nD) : Mat 10000 64 := mm (n := 10000) (k := 128) (d := 64) (m ((c : Thread nD τ).loc main_arg2)) (m ((c : Thread nD τ).loc main_arg10))
def P2f (c : Dev nD) : Mat 10000 32 := midLayer (n := 10000) (h := 64) (hn := 32) (m ((c : Thread nD τ).loc main_arg3)) (P1f m c) (asRow (d := 64) (m ((c : Thread nD τ).loc main_arg11))) (m ((c : Thread nD τ).loc main_arg12))
def P3f (c : Dev nD) : Mat 10000 32 := midLayer (n := 10000) (h := 32) (hn := 32) (m ((c : Thread nD τ).loc main_arg3)) (P2f m c) (asRow (d := 32) (m ((c : Thread nD τ).loc main_arg13))) (m ((c : Thread nD τ).loc main_arg14))
/-- The second graph's encoding. -/
def Zf (c : Dev nD) : Mat 10000 32 := lastLayer (n := 10000) (h := 32) (m ((c : Thread nD τ).loc main_arg3)) (P3f m c) (asRow (d := 32) (m ((c : Thread nD τ).loc main_arg15)))

/-- The encodings are the specification's `encode` of each graph's eight arrays. -/
theorem Ze_eq (c : Dev nD) : Ze m c = encode (n := 10000) (f := 128) (h1 := 64) (h2 := 32) (h3 := 32) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := rfl
theorem Zf_eq (c : Dev nD) : Zf m c = encode (n := 10000) (f := 128) (h1 := 64) (h2 := 32) (h3 := 32) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := rfl

/-! ## The host reshapes: a bias vector laid out as a [1, d] row -/

theorem host1 (c : Dev nD) : W2 m ρ c (Proc.devRef .tc main_v1) = asRow (d := 64) (m ((c : Thread nD τ).loc main_arg5)) := by
  have e : W2 m ρ c (Proc.devRef .tc main_v1) = fun i => shapeCast S1x64 (W1 m ρ c (Proc.devRef .tc main_arg5)) shapeCasts_S64_S1x64 i := by
    show StableHlo.after hostOps1 (W1 m ρ c) (Proc.devRef .tc main_v1) = _
    after_results; rfl
  rw [e, Ladder.upto1 m ρ c main_arg5 (by decide)]
  funext i
  obtain ⟨u, j, rfl⟩ : ∃ (u : Fin 1) (j : Fin 64), i = ix2 u j := ⟨i 0, i 1, eq_ix2 i⟩
  exact shapeCast_a_1a_apply _ shapeCasts_S64_S1x64 u j

theorem host3 (c : Dev nD) : W4 m ρ c (Proc.devRef .tc main_v3) = asRow (d := 32) (m ((c : Thread nD τ).loc main_arg7)) := by
  have e : W4 m ρ c (Proc.devRef .tc main_v3) = fun i => shapeCast S1x32 (W3 m ρ c (Proc.devRef .tc main_arg7)) shapeCasts_S32_S1x32 i := by
    show StableHlo.after hostOps2 (W3 m ρ c) (Proc.devRef .tc main_v3) = _
    after_results; rfl
  rw [e, Ladder.upto3 m ρ c main_arg7 (by decide)]
  funext i
  obtain ⟨u, j, rfl⟩ : ∃ (u : Fin 1) (j : Fin 32), i = ix2 u j := ⟨i 0, i 1, eq_ix2 i⟩
  exact shapeCast_a_1a_apply _ shapeCasts_S32_S1x32 u j

theorem host5 (c : Dev nD) : W6 m ρ c (Proc.devRef .tc main_v5) = asRow (d := 32) (m ((c : Thread nD τ).loc main_arg9)) := by
  have e : W6 m ρ c (Proc.devRef .tc main_v5) = fun i => shapeCast S1x32 (W5 m ρ c (Proc.devRef .tc main_arg9)) shapeCasts_S32_S1x32 i := by
    show StableHlo.after hostOps3 (W5 m ρ c) (Proc.devRef .tc main_v5) = _
    after_results; rfl
  rw [e, Ladder.upto5 m ρ c main_arg9 (by decide)]
  funext i
  obtain ⟨u, j, rfl⟩ : ∃ (u : Fin 1) (j : Fin 32), i = ix2 u j := ⟨i 0, i 1, eq_ix2 i⟩
  exact shapeCast_a_1a_apply _ shapeCasts_S32_S1x32 u j

theorem host8 (c : Dev nD) : W9 m ρ c (Proc.devRef .tc main_v8) = asRow (d := 64) (m ((c : Thread nD τ).loc main_arg11)) := by
  have e : W9 m ρ c (Proc.devRef .tc main_v8) = fun i => shapeCast S1x64 (W8 m ρ c (Proc.devRef .tc main_arg11)) shapeCasts_S64_S1x64 i := by
    show StableHlo.after hostOps5 (W8 m ρ c) (Proc.devRef .tc main_v8) = _
    after_results; rfl
  rw [e, Ladder.upto8 m ρ c main_arg11 (by decide)]
  funext i
  obtain ⟨u, j, rfl⟩ : ∃ (u : Fin 1) (j : Fin 64), i = ix2 u j := ⟨i 0, i 1, eq_ix2 i⟩
  exact shapeCast_a_1a_apply _ shapeCasts_S64_S1x64 u j

theorem host10 (c : Dev nD) : W11 m ρ c (Proc.devRef .tc main_v10) = asRow (d := 32) (m ((c : Thread nD τ).loc main_arg13)) := by
  have e : W11 m ρ c (Proc.devRef .tc main_v10) = fun i => shapeCast S1x32 (W10 m ρ c (Proc.devRef .tc main_arg13)) shapeCasts_S32_S1x32 i := by
    show StableHlo.after hostOps6 (W10 m ρ c) (Proc.devRef .tc main_v10) = _
    after_results; rfl
  rw [e, Ladder.upto10 m ρ c main_arg13 (by decide)]
  funext i
  obtain ⟨u, j, rfl⟩ : ∃ (u : Fin 1) (j : Fin 32), i = ix2 u j := ⟨i 0, i 1, eq_ix2 i⟩
  exact shapeCast_a_1a_apply _ shapeCasts_S32_S1x32 u j

theorem host12 (c : Dev nD) : W13 m ρ c (Proc.devRef .tc main_v12) = asRow (d := 32) (m ((c : Thread nD τ).loc main_arg15)) := by
  have e : W13 m ρ c (Proc.devRef .tc main_v12) = fun i => shapeCast S1x32 (W12 m ρ c (Proc.devRef .tc main_arg15)) shapeCasts_S32_S1x32 i := by
    show StableHlo.after hostOps7 (W12 m ρ c) (Proc.devRef .tc main_v12) = _
    after_results; rfl
  rw [e, Ladder.upto12 m ρ c main_arg15 (by decide)]
  funext i
  obtain ⟨u, j, rfl⟩ : ∃ (u : Fin 1) (j : Fin 32), i = ix2 u j := ⟨i 0, i 1, eq_ix2 i⟩
  exact shapeCast_a_1a_apply _ shapeCasts_S32_S1x32 u j

theorem host14 (c : Dev nD) : W15 m ρ c (Proc.devRef .tc main_v14) = asRow (d := 160) (m ((c : Thread nD τ).loc main_arg17)) := by
  have e : W15 m ρ c (Proc.devRef .tc main_v14) = fun i => shapeCast S1x160 (W14 m ρ c (Proc.devRef .tc main_arg17)) shapeCasts_S160_S1x160 i := by
    show StableHlo.after hostOps8 (W14 m ρ c) (Proc.devRef .tc main_v14) = _
    after_results; rfl
  rw [e, Ladder.upto14 m ρ c main_arg17 (by decide)]
  funext i
  obtain ⟨u, j, rfl⟩ : ∃ (u : Fin 1) (j : Fin 160), i = ix2 u j := ⟨i 0, i 1, eq_ix2 i⟩
  exact shapeCast_a_1a_apply _ shapeCasts_S160_S1x160 u j

/-! ## The launches, in order -/

theorem out0 (c : Dev nD) : W1 m ρ c (Proc.devRef .tc main_v0) = P1e m c := by
  refine (W1_arr m ρ c 2).trans ((Proj0.final (V0 m ρ) c).trans ?_)
  have e0 : V0 m ρ c (Pipeline.arrRef spec0 0) = (m ((c : Thread nD τ).loc main_arg0)) := Ladder.upto0 m ρ c main_arg0
  have e1 : V0 m ρ c (Pipeline.arrRef spec0 1) = (m ((c : Thread nD τ).loc main_arg4)) := Ladder.upto0 m ρ c main_arg4
  rw [e0, e1]; rfl

theorem out1 (c : Dev nD) : W3 m ρ c (Proc.devRef .tc main_v2) = P2e m c := by
  refine (W3_arr m ρ c 4).trans ((Mid1.final (V2 m ρ) c).trans ?_)
  have e0 : V2 m ρ c (Pipeline.arrRef spec1 0) = (m ((c : Thread nD τ).loc main_arg1)) := Ladder.upto2 m ρ c main_arg1 (by decide)
  have e1 : V2 m ρ c (Pipeline.arrRef spec1 1) = P1e m c := (Ladder.keep1 m ρ c main_v0 (by decide)).trans (out0 m ρ c)
  have e2 : V2 m ρ c (Pipeline.arrRef spec1 2) = asRow (m ((c : Thread nD τ).loc main_arg5)) := host1 m ρ c
  have e3 : V2 m ρ c (Pipeline.arrRef spec1 3) = (m ((c : Thread nD τ).loc main_arg6)) := Ladder.upto2 m ρ c main_arg6 (by decide)
  rw [e0, e1, e2, e3]; rfl

theorem out2 (c : Dev nD) : W5 m ρ c (Proc.devRef .tc main_v4) = P3e m c := by
  refine (W5_arr m ρ c 4).trans ((Mid2.final (V4 m ρ) c).trans ?_)
  have e0 : V4 m ρ c (Pipeline.arrRef spec2 0) = (m ((c : Thread nD τ).loc main_arg1)) := Ladder.upto4 m ρ c main_arg1 (by decide)
  have e1 : V4 m ρ c (Pipeline.arrRef spec2 1) = P2e m c := (Ladder.keep3 m ρ c main_v2 (by decide)).trans (out1 m ρ c)
  have e2 : V4 m ρ c (Pipeline.arrRef spec2 2) = asRow (m ((c : Thread nD τ).loc main_arg7)) := host3 m ρ c
  have e3 : V4 m ρ c (Pipeline.arrRef spec2 3) = (m ((c : Thread nD τ).loc main_arg8)) := Ladder.upto4 m ρ c main_arg8 (by decide)
  rw [e0, e1, e2, e3]; rfl

theorem out3 (c : Dev nD) : W7 m ρ c (Proc.devRef .tc main_v6) = Ze m c := by
  refine (W7_arr m ρ c 3).trans ((Last3.final (V6 m ρ) c).trans ?_)
  have e0 : V6 m ρ c (Pipeline.arrRef spec3 0) = (m ((c : Thread nD τ).loc main_arg1)) := Ladder.upto6 m ρ c main_arg1 (by decide)
  have e1 : V6 m ρ c (Pipeline.arrRef spec3 1) = P3e m c := (Ladder.keep5 m ρ c main_v4 (by decide)).trans (out2 m ρ c)
  have e2 : V6 m ρ c (Pipeline.arrRef spec3 2) = asRow (m ((c : Thread nD τ).loc main_arg9)) := host5 m ρ c
  rw [e0, e1, e2]; rfl

theorem out4 (c : Dev nD) : W8 m ρ c (Proc.devRef .tc main_v7) = P1f m c := by
  refine (W8_arr m ρ c 2).trans ((Proj4.final (V7 m ρ) c).trans ?_)
  have e0 : V7 m ρ c (Pipeline.arrRef spec4 0) = (m ((c : Thread nD τ).loc main_arg2)) := Ladder.upto7 m ρ c main_arg2 (by decide)
  have e1 : V7 m ρ c (Pipeline.arrRef spec4 1) = (m ((c : Thread nD τ).loc main_arg10)) := Ladder.upto7 m ρ c main_arg10 (by decide)
  rw [e0, e1]; rfl

theorem out5 (c : Dev nD) : W10 m ρ c (Proc.devRef .tc main_v9) = P2f m c := by
  refine (W10_arr m ρ c 4).trans ((Mid5.final (V9 m ρ) c).trans ?_)
  have e0 : V9 m ρ c (Pipeline.arrRef spec5 0) = (m ((c : Thread nD τ).loc main_arg3)) := Ladder.upto9 m ρ c main_arg3 (by decide)
  have e1 : V9 m ρ c (Pipeline.arrRef spec5 1) = P1f m c := (Ladder.keep8 m ρ c main_v7 (by decide)).trans (out4 m ρ c)
  have e2 : V9 m ρ c (Pipeline.arrRef spec5 2) = asRow (m ((c : Thread nD τ).loc main_arg11)) := host8 m ρ c
  have e3 : V9 m ρ c (Pipeline.arrRef spec5 3) = (m ((c : Thread nD τ).loc main_arg12)) := Ladder.upto9 m ρ c main_arg12 (by decide)
  rw [e0, e1, e2, e3]; rfl

theorem out6 (c : Dev nD) : W12 m ρ c (Proc.devRef .tc main_v11) = P3f m c := by
  refine (W12_arr m ρ c 4).trans ((Mid6.final (V11 m ρ) c).trans ?_)
  have e0 : V11 m ρ c (Pipeline.arrRef spec6 0) = (m ((c : Thread nD τ).loc main_arg3)) := Ladder.upto11 m ρ c main_arg3 (by decide)
  have e1 : V11 m ρ c (Pipeline.arrRef spec6 1) = P2f m c := (Ladder.keep10 m ρ c main_v9 (by decide)).trans (out5 m ρ c)
  have e2 : V11 m ρ c (Pipeline.arrRef spec6 2) = asRow (m ((c : Thread nD τ).loc main_arg13)) := host10 m ρ c
  have e3 : V11 m ρ c (Pipeline.arrRef spec6 3) = (m ((c : Thread nD τ).loc main_arg14)) := Ladder.upto11 m ρ c main_arg14 (by decide)
  rw [e0, e1, e2, e3]; rfl

theorem out7 (c : Dev nD) : W14 m ρ c (Proc.devRef .tc main_v13) = Zf m c := by
  refine (W14_arr m ρ c 3).trans ((Last7.final (V13 m ρ) c).trans ?_)
  have e0 : V13 m ρ c (Pipeline.arrRef spec7 0) = (m ((c : Thread nD τ).loc main_arg3)) := Ladder.upto13 m ρ c main_arg3 (by decide)
  have e1 : V13 m ρ c (Pipeline.arrRef spec7 1) = P3f m c := (Ladder.keep12 m ρ c main_v11 (by decide)).trans (out6 m ρ c)
  have e2 : V13 m ρ c (Pipeline.arrRef spec7 2) = asRow (m ((c : Thread nD τ).loc main_arg15)) := host12 m ρ c
  rw [e0, e1, e2]; rfl

/-- The first encoding is still in its buffer when the last launch starts: none of the eight segments in between writes it. -/
theorem at15_v6 (c : Dev nD) : W15 m ρ c (Proc.devRef .tc main_v6) = Ze m c :=
  (Ladder.keep14 m ρ c main_v6 (by decide)).trans ((Ladder.keep13 m ρ c main_v6 (by decide)).trans ((Ladder.keep12 m ρ c main_v6 (by decide)).trans ((Ladder.keep11 m ρ c main_v6 (by decide)).trans ((Ladder.keep10 m ρ c main_v6 (by decide)).trans ((Ladder.keep9 m ρ c main_v6 (by decide)).trans ((Ladder.keep8 m ρ c main_v6 (by decide)).trans ((Ladder.keep7 m ρ c main_v6 (by decide)).trans (out3 m ρ c))))))))
theorem at15_v13 (c : Dev nD) : W15 m ρ c (Proc.devRef .tc main_v13) = Zf m c :=
  (Ladder.keep14 m ρ c main_v13 (by decide)).trans (out7 m ρ c)

/-! ## The four results at the end of the run -/

theorem entry8 (c : Dev nD) : V15 m ρ c (Pipeline.arrRef spec8 0) = Ze m c ∧ V15 m ρ c (Pipeline.arrRef spec8 1) = (m ((c : Thread nD τ).loc main_arg0))
    ∧ V15 m ρ c (Pipeline.arrRef spec8 2) = Zf m c ∧ V15 m ρ c (Pipeline.arrRef spec8 3) = (m ((c : Thread nD τ).loc main_arg2))
    ∧ V15 m ρ c (Pipeline.arrRef spec8 4) = (m ((c : Thread nD τ).loc main_arg16)) ∧ V15 m ρ c (Pipeline.arrRef spec8 5) = asRow (d := 160) (m ((c : Thread nD τ).loc main_arg17))
    ∧ V15 m ρ c (Pipeline.arrRef spec8 6) = (m ((c : Thread nD τ).loc main_arg18)) :=
  ⟨at15_v6 m ρ c, Ladder.upto15 m ρ c main_arg0 (by decide), at15_v13 m ρ c, Ladder.upto15 m ρ c main_arg2 (by decide),
    Ladder.upto15 m ρ c main_arg16 (by decide), host14 m ρ c, Ladder.upto15 m ρ c main_arg18 (by decide)⟩

theorem res_fused (c : Dev nD) : W16 m ρ c (Proc.devRef .tc main_v15_0)
    = attnFused (n := 10000) (Ze m c) (m ((c : Thread nD τ).loc main_arg0)) (Zf m c) (m ((c : Thread nD τ).loc main_arg2)) (m ((c : Thread nD τ).loc main_arg16)) (asRow (d := 160) (m ((c : Thread nD τ).loc main_arg17))) (m ((c : Thread nD τ).loc main_arg18)) := by
  refine (W16_arr m ρ c 7).trans ((Attn8.final7 (V15 m ρ) c).trans ?_)
  obtain ⟨e0, e1, e2, e3, e4, e5, e6⟩ := entry8 m ρ c
  rw [e0, e1, e2, e3, e4, e5, e6]

theorem res_weights (c : Dev nD) : W16 m ρ c (Proc.devRef .tc main_v15_1)
    = attnWeights (n := 10000) (Ze m c) (m ((c : Thread nD τ).loc main_arg0)) (Zf m c) (m ((c : Thread nD τ).loc main_arg2)) (m ((c : Thread nD τ).loc main_arg16)) (asRow (d := 160) (m ((c : Thread nD τ).loc main_arg17))) (m ((c : Thread nD τ).loc main_arg18)) := by
  refine (W16_arr m ρ c 8).trans ((Attn8.final8 (V15 m ρ) c).trans ?_)
  obtain ⟨e0, e1, e2, e3, e4, e5, e6⟩ := entry8 m ρ c
  rw [e0, e1, e2, e3, e4, e5, e6]

theorem res_ze (c : Dev nD) : W16 m ρ c (Proc.devRef .tc main_v6) = Ze m c :=
  (Ladder.keep15 m ρ c main_v6 (by decide) (by decide)).trans (at15_v6 m ρ c)

theorem res_zf (c : Dev nD) : W16 m ρ c (Proc.devRef .tc main_v13) = Zf m c :=
  (Ladder.keep15 m ρ c main_v13 (by decide) (by decide)).trans (at15_v13 m ρ c)

end Cert.KernelIdeal.Chain

end
-- ==== Proof.KernelRun.lean ====
/-
  The kernel program's run with its four results named: every weakly fair execution terminates with the fused
  encoding, the two weights and the two encodings at the specification's functions of the argument arrays, and the
  arguments unchanged.  The final contents of every buffer come from the whole-program run; the four result buffers
  are read through the chain of launches, the arguments through the generated "ends as launched" facts.
-/
import proofs.«139367_g38302518346020_cont_8to1_b_1765_3_alg».proof.Proof.RunAll
import proofs.«139367_g38302518346020_cont_8to1_b_1765_3_alg».proof.Proof.Chain

set_option maxRecDepth 16384

noncomputable section

namespace Cert.KernelIdeal.Final

open Idealize.ShloMosaic Idealize.ShloMosaic.TcCoe Idealize.SL.Sem
open Cert.KernelIdeal Cert.KernelIdeal.Gen Cert.GcnSpec

variable (m : (ℓ : Loc nD τ sig) → Buf (Elt Ideal) ℓ) (ρ : Dev nD → PrngReg)

theorem kernel_run : θ_run defs (onTc (τ := τ) (main (F := Ideal))) ⟨m, fun _ => 0, ρ⟩ (fun r => ∀ c : Dev nD,
      r.2.mem ((c.tc : Thread nD τ).loc main_v15_0) = attnFused (n := 10000) (Chain.Ze m c) (m ((c.tc : Thread nD τ).loc main_arg0)) (Chain.Zf m c) (m ((c.tc : Thread nD τ).loc main_arg2)) (m ((c.tc : Thread nD τ).loc main_arg16)) (asRow (d := 160) (m ((c.tc : Thread nD τ).loc main_arg17))) (m ((c.tc : Thread nD τ).loc main_arg18))
      ∧ r.2.mem ((c.tc : Thread nD τ).loc main_v15_1) = attnWeights (n := 10000) (Chain.Ze m c) (m ((c.tc : Thread nD τ).loc main_arg0)) (Chain.Zf m c) (m ((c.tc : Thread nD τ).loc main_arg2)) (m ((c.tc : Thread nD τ).loc main_arg16)) (asRow (d := 160) (m ((c.tc : Thread nD τ).loc main_arg17))) (m ((c.tc : Thread nD τ).loc main_arg18))
      ∧ r.2.mem ((c.tc : Thread nD τ).loc main_v6) = Chain.Ze m c
      ∧ r.2.mem ((c.tc : Thread nD τ).loc main_v13) = Chain.Zf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v15_0 (by decide))).trans (Chain.res_fused m ρ c),
     (h c _ (mem_uc main_v15_1 (by decide))).trans (Chain.res_weights m ρ c),
     (h c _ (mem_uc main_v6 (by decide))).trans (Chain.res_ze m ρ c),
     (h c _ (mem_uc main_v13 (by decide))).trans (Chain.res_zf m ρ c),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c),
     (h c _ (mem_uc main_arg12 (by decide))).trans (W16_main_arg12 m ρ c),
     (h c _ (mem_uc main_arg13 (by decide))).trans (W16_main_arg13 m ρ c),
     (h c _ (mem_uc main_arg14 (by decide))).trans (W16_main_arg14 m ρ c),
     (h c _ (mem_uc main_arg15 (by decide))).trans (W16_main_arg15 m ρ c),
     (h c _ (mem_uc main_arg16 (by decide))).trans (W16_main_arg16 m ρ c),
     (h c _ (mem_uc main_arg17 (by decide))).trans (W16_main_arg17 m ρ c),
     (h c _ (mem_uc main_arg18 (by decide))).trans (W16_main_arg18 m ρ c)⟩)
    (Whole.run_all m ρ)

end Cert.KernelIdeal.Final

end
-- ==== Proof.RefOps.lean ====
/-
  The host's array operations of a dense graph-convolution layer, read as the matrix operations of the specification,
  on the extended reals.

  A contraction of axis 1 of an [n, k] matrix with axis 0 of a [k, d] matrix is the matrix product; a bias vector laid
  out as the one row of a [1, d] matrix and then repeated down the n rows, added entry by entry, is the bias added to
  every row; the entrywise maximum with the zero constant repeated over all entries is the clipping below at zero.  Each
  statement is an equality of whole arrays, over variables, so that both graphs' encoders use the same ones.
-/
import Idealize.ShloMosaic.PureOps.Ideal
import Idealize.ShloMosaic.PureOps.Ideal.Laws
import Idealize.ShloMosaic.Lib.ValueIdx
import Idealize.ShloMosaic.Lib.Pipeline.Value
import proofs.«139367_g38302518346020_cont_8to1_b_1765_3_alg».proof.Proof.Spec
import proofs.«139367_g38302518346020_cont_8to1_b_1765_3_alg».proof.Proof.LibPlainDot

noncomputable section

namespace Cert.ReferenceIdeal.RefValue

open Idealize.ShloMosaic Idealize.ShloMosaic.ValueIdx Cert.GcnSpec

/-- The host's plain contraction of an [n, k] with a [k, d] matrix is the matrix product. -/
theorem hostDot_eq_mm {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (A : Mat n k) (B : Mat k d) :
    Host.dotGeneral (F := Ideal) (φ₁ := .f32) (φ₂ := .f32) D none A B = mm A B := by
  funext i
  obtain ⟨p, o, rfl⟩ : ∃ p o, i = ix2 p o := ⟨i 0, i 1, eq_ix2 i⟩
  exact LibPlainDot.dotGeneral_apply D hlc hrc hln hrn hlb hrb none .single A B p o

/-- A [d] vector broadcast along a new leading axis of extent one is the vector laid out as one row. -/
theorem bcastRow_eq_asRow {d : ℕ} (h : (⟨1, ![d]⟩ : Shape).BroadcastsInDim ⟨2, ![1, d]⟩ (![1] : Fin 1 → Fin 2)) (b : Row d) :
    broadcastInDim ⟨2, ![1, d]⟩ ![1] h b = asRow b := by
  funext i
  refine broadcastInDim_apply _ h b i (ix1 (i 1)) fun a => ?_
  match a with
  | ⟨0, _⟩ =>
    show (i 1).val = if d = 1 then 0 else (i 1).val
    split
    · have := idx2_lt1 i; omega
    · rfl

/-- A [1, d] row repeated down n rows and added entry by entry is the row added to every row of the matrix. -/
theorem add_bcastRows_eq_addRow1 {n d : ℕ} (h : (⟨2, ![1, d]⟩ : Shape).BroadcastsInDim ⟨2, ![n, d]⟩ (![0, 1] : Fin 2 → Fin 2))
    (X : Mat n d) (B : Mat 1 d) :
    addf (F := Ideal) (φ := .f32) X (broadcastInDim ⟨2, ![n, d]⟩ ![0, 1] h B) = addRow1 X B := by
  funext i
  show X i + broadcastInDim ⟨2, ![n, d]⟩ ![0, 1] h B i = X i + B (ix2 (0 : Fin 1) (i 1))
  refine congrArg (X i + ·) (broadcastInDim_apply _ h B i (ix2 (0 : Fin 1) (i 1)) fun a => ?_)
  match a with
  | ⟨0, _⟩ =>
    show (0 : Fin 1).val = if (1 : ℕ) = 1 then 0 else (i 0).val
    rw [if_pos rfl]; rfl
  | ⟨1, _⟩ =>
    show (i 1).val = if d = 1 then 0 else (i 1).val
    split
    · have := idx2_lt1 i; omega
    · rfl

/-- The entrywise maximum with the zero constant repeated over every entry is the clipping below at zero. -/
theorem max_bcastZero_eq_relu {n d : ℕ} (h : (⟨0, ![]⟩ : Shape).BroadcastsInDim ⟨2, ![n, d]⟩ (![] : Fin 0 → Fin 2)) (X : Mat n d) :
    maximumf (F := Ideal) (φ := .f32) X (broadcastInDim ⟨2, ![n, d]⟩ ![] h (constant (F := Ideal) ⟨0, ![]⟩ .f32 0x00000000#32)) = relu X := by
  funext i
  show max (X i) (broadcastInDim ⟨2, ![n, d]⟩ ![] h (constant (F := Ideal) ⟨0, ![]⟩ .f32 0x00000000#32) i) = max (X i) z0
  refine congrArg (max (X i) ·) ?_
  exact broadcastInDim_apply _ h _ i (fun a => a.elim0) fun a => a.elim0

end Cert.ReferenceIdeal.RefValue

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.RefAttn.lean ====
/-
  The two-view attention of the reference, read as the specification's, on the extended reals.

  Three small laws carry it.  (1) The product of the joined matrix [z | x] with a [160, 160] matrix splits as the product
  of z with the first 32 rows plus the product of x with the other 128: a sum over 160 indices is the sum over the first
  32 plus the sum over the last 128.  (2) The running maximum of two scores started from minus infinity, and bounded below
  by minus infinity once more, is the larger of the two.  (3) The sum of two terms started from zero is their sum.  The
  rest is reading layout operations at an entry: two arrays joined along the columns, a column cut out of a two-column
  array, a vector turned into a column, a column repeated along the columns.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«139367_g38302518346020_cont_8to1_b_1765_3_alg».proof.Proof.Spec
import proofs.«139367_g38302518346020_cont_8to1_b_1765_3_alg».proof.Proof.LibPlainDot
import proofs.«139367_g38302518346020_cont_8to1_b_1765_3_alg».proof.Proof.LibRowReduce
import proofs.«139367_g38302518346020_cont_8to1_b_1765_3_alg».proof.Proof.RefOps

noncomputable section

namespace Cert.ReferenceIdeal.RefValue

open Idealize.ShloMosaic Idealize.ShloMosaic.ValueIdx Cert.GcnSpec

/-! ## Layout operations read at an entry -/

/-- Two matrices joined along the columns, read in the first one's columns. -/
theorem concatCols_left {n a b c : ℕ} (Z : Mat n a) (X : Mat n b)
    (hc : Shape.Concatenates [(⟨2, ![n, a]⟩ : Shape), ⟨2, ![n, b]⟩] ⟨2, ![n, c]⟩ (1 : Fin 2)) (p : Fin n) (j : Fin c) (ja : Fin a)
    (h : ja.val = j.val) :
    concatenate ⟨2, ![n, c]⟩ (1 : Fin 2) [⟨⟨2, ![n, a]⟩, Z⟩, ⟨⟨2, ![n, b]⟩, X⟩] hc (ix2 p j) = Z (ix2 p ja) :=
  concatenate_pair_apply_left (t := ⟨2, ![n, c]⟩) (s₁ := ⟨2, ![n, a]⟩) (s₂ := ⟨2, ![n, b]⟩) (1 : Fin 2) Z X hc (ix2 p j) rfl (ix2 p ja) fun q => by
    match q with
    | ⟨0, _⟩ => rfl
    | ⟨1, _⟩ => exact h

/-- Two matrices joined along the columns, read in the second one's columns. -/
theorem concatCols_right {n a b c : ℕ} (Z : Mat n a) (X : Mat n b)
    (hc : Shape.Concatenates [(⟨2, ![n, a]⟩ : Shape), ⟨2, ![n, b]⟩] ⟨2, ![n, c]⟩ (1 : Fin 2)) (p : Fin n) (j : Fin c) (jb : Fin b)
    (h : jb.val + a = j.val) :
    concatenate ⟨2, ![n, c]⟩ (1 : Fin 2) [⟨⟨2, ![n, a]⟩, Z⟩, ⟨⟨2, ![n, b]⟩, X⟩] hc (ix2 p j) = X (ix2 p jb) :=
  concatenate_pair_apply_right (t := ⟨2, ![n, c]⟩) (s₁ := ⟨2, ![n, a]⟩) (s₂ := ⟨2, ![n, b]⟩) (1 : Fin 2) Z X hc (ix2 p j) rfl rfl (ix2 p jb)
    (fun q hq => by
      match q with
      | ⟨0, _⟩ => rfl
      | ⟨1, _⟩ => exact absurd rfl hq)
    h

/-- An [n] vector turned into an [n, 1] column. -/
theorem bcastCol_apply {n : ℕ} (h : (⟨1, ![n]⟩ : Shape).BroadcastsInDim ⟨2, ![n, 1]⟩ (![0] : Fin 1 → Fin 2)) (v : Row n)
    (p : Fin n) (u : Fin 1) : broadcastInDim ⟨2, ![n, 1]⟩ ![0] h v (ix2 p u) = v (ix1 p) := by
  refine broadcastInDim_apply _ h v (ix2 p u) (ix1 p) fun a => ?_
  match a with
  | ⟨0, _⟩ =>
    show p.val = if n = 1 then 0 else p.val
    split
    · have := p.isLt; omega
    · rfl

/-- An [n, 1] column repeated along b columns. -/
theorem bcastCols_apply {n b : ℕ} (h : (⟨2, ![n, 1]⟩ : Shape).BroadcastsInDim ⟨2, ![n, b]⟩ (![0, 1] : Fin 2 → Fin 2)) (V : Mat n 1)
    (p : Fin n) (o : Fin b) : broadcastInDim ⟨2, ![n, b]⟩ ![0, 1] h V (ix2 p o) = V (ix2 p (0 : Fin 1)) := by
  refine broadcastInDim_apply _ h V (ix2 p o) (ix2 p (0 : Fin 1)) fun a => ?_
  match a with
  | ⟨0, _⟩ =>
    show p.val = if n = 1 then 0 else p.val
    split
    · have := p.isLt; omega
    · rfl
  | ⟨1, _⟩ =>
    show (0 : Fin 1).val = if (1 : ℕ) = 1 then 0 else o.val
    rw [if_pos rfl]; rfl

/-! ## Law 1: the product with the joined matrix -/

/-- [z | x] · W = z · (rows 0..31 of W) + x · (rows 32..159 of W). -/
theorem mm_concat {n : ℕ} (Z : Mat n 32) (X : Mat n 128)
    (hc : Shape.Concatenates [(⟨2, ![n, 32]⟩ : Shape), ⟨2, ![n, 128]⟩] ⟨2, ![n, 160]⟩ (1 : Fin 2)) (W : Mat 160 160) :
    mm (concatenate ⟨2, ![n, 160]⟩ (1 : Fin 2) [⟨⟨2, ![n, 32]⟩, Z⟩, ⟨⟨2, ![n, 128]⟩, X⟩] hc) W
      = fun i => mm Z (rowsFrom 32 0 (by norm_num) W) i + mm X (rowsFrom 128 32 (by norm_num) W) i := by
  funext i
  obtain ⟨p, o, rfl⟩ : ∃ p o, i = ix2 p o := ⟨i 0, i 1, eq_ix2 i⟩
  rw [mm_apply, mm_apply, mm_apply]
  refine (Fin.sum_univ_add (a := 32) (b := 128) fun j : Fin 160 =>
    concatenate ⟨2, ![n, 160]⟩ (1 : Fin 2) [⟨⟨2, ![n, 32]⟩, Z⟩, ⟨⟨2, ![n, 128]⟩, X⟩] hc (ix2 p j) * W (ix2 j o)).trans ?_
  refine congrArg₂ (· + ·) (Finset.sum_congr rfl fun j _ => ?_) (Finset.sum_congr rfl fun j _ => ?_)
  · rw [concatCols_left Z X hc p (Fin.castAdd 128 j) j rfl, rowsFrom_apply]
    exact congrArg (fun r => Z (ix2 p j) * W (ix2 r o)) (Fin.ext (Nat.zero_add j.val).symm)
  · rw [concatCols_right Z X hc p (Fin.natAdd 32 j) j (Nat.add_comm j.val 32), rowsFrom_apply]
    rfl

end Cert.ReferenceIdeal.RefValue

end
-- ==== Proof.RefSoftmax.lean ====
/-
  The reference's scoring network, its softmax over the two views and its mixing of the two encodings, each as the array
  expression the reference composes, shown equal to the specification's functions, on the extended reals.

  The softmax is computed with the larger score subtracted: the row maximum is the running maximum of the two scores from
  minus infinity, bounded below by minus infinity once more, which is the larger of the two; the normalising sum is the
  sum of the two exponentials started from zero.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«139367_g38302518346020_cont_8to1_b_1765_3_alg».proof.Proof.Spec
import proofs.«139367_g38302518346020_cont_8to1_b_1765_3_alg».proof.Proof.LibPlainDot
import proofs.«139367_g38302518346020_cont_8to1_b_1765_3_alg».proof.Proof.LibRowReduce
import proofs.«139367_g38302518346020_cont_8to1_b_1765_3_alg».proof.Proof.RefOps
import proofs.«139367_g38302518346020_cont_8to1_b_1765_3_alg».proof.Proof.RefAttn

noncomputable section

namespace Cert.ReferenceIdeal.RefValue

open Idealize.ShloMosaic Idealize.ShloMosaic.ValueIdx Cert.GcnSpec

/-! ## The score of one view -/

/-- The score as the reference composes it: tanh([z | x] · Wp₁ + bp₁) · Wp₂, the bias repeated down the rows. -/
def scoreRaw {n : ℕ} (D1 : DotDims ⟨2, ![n, 160]⟩ ⟨2, ![160, 160]⟩ ⟨2, ![n, 160]⟩) (D2 : DotDims ⟨2, ![n, 160]⟩ ⟨2, ![160, 1]⟩ ⟨2, ![n, 1]⟩)
    (hc : Shape.Concatenates [(⟨2, ![n, 32]⟩ : Shape), ⟨2, ![n, 128]⟩] ⟨2, ![n, 160]⟩ (1 : Fin 2))
    (hb1 : (⟨1, ![160]⟩ : Shape).BroadcastsInDim ⟨2, ![1, 160]⟩ (![1] : Fin 1 → Fin 2))
    (hb2 : (⟨2, ![1, 160]⟩ : Shape).BroadcastsInDim ⟨2, ![n, 160]⟩ (![0, 1] : Fin 2 → Fin 2))
    (Z : Mat n 32) (X : Mat n 128) (Wp1 : Mat 160 160) (bp1 : Row 160) (Wp2 : Mat 160 1) : Mat n 1 :=
  Host.dotGeneral (F := Ideal) (φ₁ := .f32) (φ₂ := .f32) D2 none
    (Host.tanh (F := Ideal) (φ := .f32)
      (addf (F := Ideal) (φ := .f32)
        (Host.dotGeneral (F := Ideal) (φ₁ := .f32) (φ₂ := .f32) D1 none
          (concatenate ⟨2, ![n, 160]⟩ (1 : Fin 2) [⟨⟨2, ![n, 32]⟩, Z⟩, ⟨⟨2, ![n, 128]⟩, X⟩] hc) Wp1)
        (broadcastInDim ⟨2, ![n, 160]⟩ ![0, 1] hb2 (broadcastInDim ⟨2, ![1, 160]⟩ ![1] hb1 bp1))))
    Wp2

theorem scoreRaw_eq {n : ℕ} (D1 : DotDims ⟨2, ![n, 160]⟩ ⟨2, ![160, 160]⟩ ⟨2, ![n, 160]⟩) (D2 : DotDims ⟨2, ![n, 160]⟩ ⟨2, ![160, 1]⟩ ⟨2, ![n, 1]⟩)
    (h1lc : D1.lhsContracting = [1]) (h1rc : D1.rhsContracting = [0]) (h1ln : D1.lhsNonContracting = [0]) (h1rn : D1.rhsNonContracting = [1])
    (h1lb : D1.lhsBatch = []) (h1rb : D1.rhsBatch = [])
    (h2lc : D2.lhsContracting = [1]) (h2rc : D2.rhsContracting = [0]) (h2ln : D2.lhsNonContracting = [0]) (h2rn : D2.rhsNonContracting = [1])
    (h2lb : D2.lhsBatch = []) (h2rb : D2.rhsBatch = [])
    (hc : Shape.Concatenates [(⟨2, ![n, 32]⟩ : Shape), ⟨2, ![n, 128]⟩] ⟨2, ![n, 160]⟩ (1 : Fin 2))
    (hb1 : (⟨1, ![160]⟩ : Shape).BroadcastsInDim ⟨2, ![1, 160]⟩ (![1] : Fin 1 → Fin 2))
    (hb2 : (⟨2, ![1, 160]⟩ : Shape).BroadcastsInDim ⟨2, ![n, 160]⟩ (![0, 1] : Fin 2 → Fin 2))
    (Z : Mat n 32) (X : Mat n 128) (Wp1 : Mat 160 160) (bp1 : Row 160) (Wp2 : Mat 160 1) :
    scoreRaw D1 D2 hc hb1 hb2 Z X Wp1 bp1 Wp2 = score Z X Wp1 (asRow bp1) Wp2 := by
  unfold scoreRaw
  rw [hostDot_eq_mm D1 h1lc h1rc h1ln h1rn h1lb h1rb, bcastRow_eq_asRow, add_bcastRows_eq_addRow1, mm_concat,
    hostDot_eq_mm D2 h2lc h2rc h2ln h2rn h2lb h2rb]
  rfl

/-! ## The softmax over the two views -/

section Softmax
variable {n : ℕ}
  (hc : Shape.Concatenates [(⟨2, ![n, 1]⟩ : Shape), ⟨2, ![n, 1]⟩] ⟨2, ![n, 2]⟩ (1 : Fin 2))
  (hr : (⟨2, ![n, 2]⟩ : Shape).ReducesTo [(1 : Fin 2)] ⟨1, ![n]⟩) (hu : 0 < (⟨0, ![]⟩ : Shape).numel)
  (hb0 : (⟨0, ![]⟩ : Shape).BroadcastsInDim ⟨1, ![n]⟩ (![] : Fin 0 → Fin 1))
  (hb1 : (⟨1, ![n]⟩ : Shape).BroadcastsInDim ⟨2, ![n, 1]⟩ (![0] : Fin 1 → Fin 2))
  (hb2 : (⟨2, ![n, 1]⟩ : Shape).BroadcastsInDim ⟨2, ![n, 2]⟩ (![0, 1] : Fin 2 → Fin 2))
  (w1 w2 : Mat n 1)

/-- The two score columns side by side. -/
def joined : Mat n 2 := concatenate ⟨2, ![n, 2]⟩ (1 : Fin 2) [⟨⟨2, ![n, 1]⟩, w1⟩, ⟨⟨2, ![n, 1]⟩, w2⟩] hc

/-- The row maximum as the reference composes it: the maximum-reduction of the two columns from minus infinity, then the
    maximum with minus infinity repeated over the rows. -/
def rowMax : Row n :=
  maximumf (F := Ideal) (φ := .f32) (broadcastInDim ⟨1, ![n]⟩ ![] hb0 (constant (F := Ideal) ⟨0, ![]⟩ .f32 0xFF800000#32))
    (Host.reduce (FloatOps.maximumf (F := Ideal) (φ := .f32)) (joined hc w1 w2) (constant (F := Ideal) ⟨0, ![]⟩ .f32 0xFF800000#32) hr hu)

/-- The exponentials of the scores less the row maximum. -/
def expShift : Mat n 2 :=
  Host.exp (F := Ideal) (φ := .f32) (subf (F := Ideal) (φ := .f32) (joined hc w1 w2)
    (broadcastInDim ⟨2, ![n, 2]⟩ ![0, 1] hb2 (broadcastInDim ⟨2, ![n, 1]⟩ ![0] hb1 (rowMax hc hr hu hb0 w1 w2))))

/-- The softmax as the reference composes it: the exponentials divided by their row sums, summed from the zero constant. -/
def softmaxRaw : Mat n 2 :=
  Host.divf (F := Ideal) (φ := .f32) (expShift hc hr hu hb0 hb1 hb2 w1 w2)
    (broadcastInDim ⟨2, ![n, 2]⟩ ![0, 1] hb2 (broadcastInDim ⟨2, ![n, 1]⟩ ![0] hb1
      (Host.reduceAdd (F := Ideal) (φ := .f32) (expShift hc hr hu hb0 hb1 hb2 w1 w2) (constant (F := Ideal) ⟨0, ![]⟩ .f32 0x00000000#32) hr hu)))

theorem joined_apply0 (p : Fin n) : joined hc w1 w2 (ix2 p (0 : Fin 2)) = w1 (ix2 p (0 : Fin 1)) :=
  concatCols_left w1 w2 hc p (0 : Fin 2) (0 : Fin 1) rfl

theorem joined_apply1 (p : Fin n) : joined hc w1 w2 (ix2 p (1 : Fin 2)) = w2 (ix2 p (0 : Fin 1)) :=
  concatCols_right w1 w2 hc p (1 : Fin 2) (0 : Fin 1) rfl

/-- The all-ones exponent pattern with the sign set is minus infinity, the least extended real. -/
theorem ofBits_negInf_f32 : Ideal.ofBits .f32 0xFF800000#32 = ⊥ := by simp [Ideal.ofBits, Ideal.ieee]

/-- Law 2, the fold: the running maximum of two values from the least element is the larger of the two. -/
theorem fold_max_two (f : Fin 2 → EReal) : (Finset.univ : Finset (Fin 2)).fold max ⊥ f = max (f 0) (f 1) := by
  rw [Fin.univ_succ, Finset.fold_cons, Fin.univ_succ, Finset.map_cons, Finset.fold_cons]
  simp

/-- Law 2: the reference's row maximum is the larger of the two scores. -/
theorem rowMax_apply (h : (⟨2, ![n, 2]⟩ : Shape).Reduces [(1 : Fin 2)] ⟨1, ![n]⟩) (p : Fin n) :
    rowMax hc hr hu hb0 w1 w2 (ix1 p) = max (w1 (ix2 p (0 : Fin 1))) (w2 (ix2 p (0 : Fin 1))) := by
  have hb : broadcastInDim ⟨1, ![n]⟩ ![] hb0 (constant (F := Ideal) ⟨0, ![]⟩ .f32 0xFF800000#32) (ix1 p) = ⊥ :=
    (broadcastInDim_apply _ hb0 _ (ix1 p) (fun a => a.elim0) fun a => a.elim0).trans ofBits_negInf_f32
  have hi : constant (F := Ideal) ⟨0, ![]⟩ .f32 0xFF800000#32 (Shape.Idx.first hu) = ⊥ := ofBits_negInf_f32
  show max (broadcastInDim ⟨1, ![n]⟩ ![] hb0 (constant (F := Ideal) ⟨0, ![]⟩ .f32 0xFF800000#32) (ix1 p))
      (Host.reduce (FloatOps.maximumf (F := Ideal) (φ := .f32)) (joined hc w1 w2) (constant (F := Ideal) ⟨0, ![]⟩ .f32 0xFF800000#32) hr hu (ix1 p)) = _
  rw [hb, LibRowReduce.hostReduce_max_row _ _ hr h hu p, hi, fold_max_two, joined_apply0, joined_apply1]
  exact max_bot_left _

theorem expShift_apply (h : (⟨2, ![n, 2]⟩ : Shape).Reduces [(1 : Fin 2)] ⟨1, ![n]⟩) (p : Fin n) (o : Fin 2) :
    expShift hc hr hu hb0 hb1 hb2 w1 w2 (ix2 p o)
      = Ideal.exp (joined hc w1 w2 (ix2 p o) - max (w1 (ix2 p (0 : Fin 1))) (w2 (ix2 p (0 : Fin 1)))) := by
  show Ideal.exp (joined hc w1 w2 (ix2 p o)
    - broadcastInDim ⟨2, ![n, 2]⟩ ![0, 1] hb2 (broadcastInDim ⟨2, ![n, 1]⟩ ![0] hb1 (rowMax hc hr hu hb0 w1 w2)) (ix2 p o)) = _
  rw [bcastCols_apply, bcastCol_apply, rowMax_apply hc hr hu hb0 w1 w2 h p]

/-- The reference's softmax is the specification's two weights side by side (law 3 closes the normalising sum). -/
theorem softmaxRaw_eq (h : (⟨2, ![n, 2]⟩ : Shape).Reduces [(1 : Fin 2)] ⟨1, ![n]⟩) :
    softmaxRaw hc hr hu hb0 hb1 hb2 w1 w2 = weights (weight1 w1 w2) (weight2 w1 w2) := by
  funext i
  obtain ⟨p, o, rfl⟩ : ∃ p o, i = ix2 p o := ⟨i 0, i 1, eq_ix2 i⟩
  have h0 : constant (F := Ideal) ⟨0, ![]⟩ .f32 0x00000000#32 (Shape.Idx.first hu) = 0 := Ideal.ofBits_zero_f32
  show Ideal.div (expShift hc hr hu hb0 hb1 hb2 w1 w2 (ix2 p o))
    (broadcastInDim ⟨2, ![n, 2]⟩ ![0, 1] hb2 (broadcastInDim ⟨2, ![n, 1]⟩ ![0] hb1
      (Host.reduceAdd (F := Ideal) (φ := .f32) (expShift hc hr hu hb0 hb1 hb2 w1 w2) (constant (F := Ideal) ⟨0, ![]⟩ .f32 0x00000000#32) hr hu)) (ix2 p o)) = _
  rw [bcastCols_apply, bcastCol_apply, LibRowReduce.hostReduceAdd_row _ _ hr h hu p, h0, zero_add, Fin.sum_univ_two,
    expShift_apply hc hr hu hb0 hb1 hb2 w1 w2 h p 0, expShift_apply hc hr hu hb0 hb1 hb2 w1 w2 h p 1,
    expShift_apply hc hr hu hb0 hb1 hb2 w1 w2 h p o, joined_apply0, joined_apply1, weights_apply]
  match o with
  | ⟨0, _⟩ => rw [if_pos rfl]; exact congrArg (fun t => Ideal.div (Ideal.exp (t - _)) _) (joined_apply0 hc w1 w2 p)
  | ⟨1, _⟩ => rw [if_neg (show ¬ (1 : ℕ) = 0 from Nat.one_ne_zero)]; exact congrArg (fun t => Ideal.div (Ideal.exp (t - _)) _) (joined_apply1 hc w1 w2 p)

end Softmax

/-! ## The mixing of the two encodings -/

/-- The mixing as the reference composes it: each of the two columns of the weights cut out, repeated along the 32 columns,
    multiplied entry by entry with its view's encoding, and the two products added. -/
def fuseRaw {n : ℕ} (hs0 : (⟨2, ![n, 2]⟩ : Shape).Slices ![0, 0] ⟨2, ![n, 1]⟩) (hs1 : (⟨2, ![n, 2]⟩ : Shape).Slices ![0, 1] ⟨2, ![n, 1]⟩)
    (hb : (⟨2, ![n, 1]⟩ : Shape).BroadcastsInDim ⟨2, ![n, 32]⟩ (![0, 1] : Fin 2 → Fin 2)) (β : Mat n 2) (Ze Zf : Mat n 32) : Mat n 32 :=
  addf (F := Ideal) (φ := .f32)
    (mulf (F := Ideal) (φ := .f32) (broadcastInDim ⟨2, ![n, 32]⟩ ![0, 1] hb (extractStridedSlice ⟨2, ![n, 1]⟩ ![0, 0] β hs0)) Ze)
    (mulf (F := Ideal) (φ := .f32) (broadcastInDim ⟨2, ![n, 32]⟩ ![0, 1] hb (extractStridedSlice ⟨2, ![n, 1]⟩ ![0, 1] β hs1)) Zf)

theorem fuseRaw_weights {n : ℕ} (hs0 : (⟨2, ![n, 2]⟩ : Shape).Slices ![0, 0] ⟨2, ![n, 1]⟩) (hs1 : (⟨2, ![n, 2]⟩ : Shape).Slices ![0, 1] ⟨2, ![n, 1]⟩)
    (hb : (⟨2, ![n, 1]⟩ : Shape).BroadcastsInDim ⟨2, ![n, 32]⟩ (![0, 1] : Fin 2 → Fin 2)) (b1 b2 : Mat n 1) (Ze Zf : Mat n 32) :
    fuseRaw hs0 hs1 hb (weights b1 b2) Ze Zf = fuse b1 b2 Ze Zf := by
  funext i
  obtain ⟨p, o, rfl⟩ : ∃ p o, i = ix2 p o := ⟨i 0, i 1, eq_ix2 i⟩
  show broadcastInDim ⟨2, ![n, 32]⟩ ![0, 1] hb (extractStridedSlice ⟨2, ![n, 1]⟩ ![0, 0] (weights b1 b2) hs0) (ix2 p o) * Ze (ix2 p o)
    + broadcastInDim ⟨2, ![n, 32]⟩ ![0, 1] hb (extractStridedSlice ⟨2, ![n, 1]⟩ ![0, 1] (weights b1 b2) hs1) (ix2 p o) * Zf (ix2 p o) = _
  rw [bcastCols_apply, bcastCols_apply, slice2_axis1_eq 0 _ hs0 p 0, slice2_axis1_eq 1 _ hs1 p 0, fuse_apply, weights_apply, weights_apply]
  rfl

end Cert.ReferenceIdeal.RefValue

end
-- ==== Proof.RefEncode.lean ====
/-
  The encoder of one graph as the reference composes it, shown equal to the specification's encoding, on the extended
  reals.  The composition is the same on both sides, layer by layer: project by the weights, propagate along the
  adjacency, add the bias to every row, and between layers clip below at zero; so this is congruence only, with the three
  readings of the host's operations as matrix operations.  Both graphs use this one statement.
-/
import Idealize.ShloMosaic.PureOps.Ideal
import Idealize.ShloMosaic.PureOps.Ideal.Laws
import Idealize.ShloMosaic.Lib.ValueIdx
import Idealize.ShloMosaic.Lib.Pipeline.Value
import proofs.«139367_g38302518346020_cont_8to1_b_1765_3_alg».proof.Proof.Gen.ReferenceIdeal
import proofs.«139367_g38302518346020_cont_8to1_b_1765_3_alg».proof.Proof.Spec
import proofs.«139367_g38302518346020_cont_8to1_b_1765_3_alg».proof.Proof.LibPlainDot
import proofs.«139367_g38302518346020_cont_8to1_b_1765_3_alg».proof.Proof.RefOps

noncomputable section

namespace Cert.ReferenceIdeal.RefValue

open Cert.ReferenceIdeal Cert.ReferenceIdeal.Gen Idealize.ShloMosaic Idealize.ShloMosaic.ValueIdx Cert.GcnSpec

/-- The three-layer encoder as the reference composes it. -/
def encRaw (x : Mat 10000 128) (adj : Mat 10000 10000) (W1 : Mat 128 64) (b1 : Row 64) (W2 : Mat 64 32) (b2 : Row 32)
    (W3 : Mat 32 32) (b3 : Row 32) : Mat 10000 32 :=
  addf (F := Ideal) (φ := .f32) (Host.dotGeneral (F := Ideal) (φ₁ := .f32) (φ₂ := .f32) dot_S10000x10000_S10000x32_S10000x32_1_0_0_1_n_n none adj
    (Host.dotGeneral (F := Ideal) (φ₁ := .f32) (φ₂ := .f32) dot_S10000x32_S32x32_S10000x32_1_0_0_1_n_n none
      (maximumf (F := Ideal) (φ := .f32) (addf (F := Ideal) (φ := .f32) (Host.dotGeneral (F := Ideal) (φ₁ := .f32) (φ₂ := .f32) dot_S10000x10000_S10000x32_S10000x32_1_0_0_1_n_n none adj
        (Host.dotGeneral (F := Ideal) (φ₁ := .f32) (φ₂ := .f32) dot_S10000x64_S64x32_S10000x32_1_0_0_1_n_n none
          (maximumf (F := Ideal) (φ := .f32) (addf (F := Ideal) (φ := .f32) (Host.dotGeneral (F := Ideal) (φ₁ := .f32) (φ₂ := .f32) dot_S10000x10000_S10000x64_S10000x64_1_0_0_1_n_n none adj
            (Host.dotGeneral (F := Ideal) (φ₁ := .f32) (φ₂ := .f32) dot_S10000x128_S128x64_S10000x64_1_0_0_1_n_n none x W1))
            (broadcastInDim S10000x64 ![0, 1] bcast_S1x64_S10000x64_0_1 (broadcastInDim S1x64 ![1] bcast_S64_S1x64_1 b1)))
            (broadcastInDim S10000x64 ![] bcast_S_S10000x64 (constant (F := Ideal) S_ .f32 0x00000000#32)))
          W2))
        (broadcastInDim S10000x32 ![0, 1] bcast_S1x32_S10000x32_0_1 (broadcastInDim S1x32 ![1] bcast_S32_S1x32_1 b2)))
        (broadcastInDim S10000x32 ![] bcast_S_S10000x32 (constant (F := Ideal) S_ .f32 0x00000000#32)))
      W3))
    (broadcastInDim S10000x32 ![0, 1] bcast_S1x32_S10000x32_0_1 (broadcastInDim S1x32 ![1] bcast_S32_S1x32_1 b3))

theorem encRaw_eq (x : Mat 10000 128) (adj : Mat 10000 10000) (W1 : Mat 128 64) (b1 : Row 64) (W2 : Mat 64 32) (b2 : Row 32)
    (W3 : Mat 32 32) (b3 : Row 32) : encRaw x adj W1 b1 W2 b2 W3 b3 = encode x adj W1 b1 W2 b2 W3 b3 := by
  unfold encRaw
  rw [hostDot_eq_mm dot_S10000x128_S128x64_S10000x64_1_0_0_1_n_n rfl rfl rfl rfl rfl rfl,
    hostDot_eq_mm dot_S10000x10000_S10000x64_S10000x64_1_0_0_1_n_n rfl rfl rfl rfl rfl rfl,
    bcastRow_eq_asRow, add_bcastRows_eq_addRow1, max_bcastZero_eq_relu,
    hostDot_eq_mm dot_S10000x64_S64x32_S10000x32_1_0_0_1_n_n rfl rfl rfl rfl rfl rfl,
    hostDot_eq_mm dot_S10000x10000_S10000x32_S10000x32_1_0_0_1_n_n rfl rfl rfl rfl rfl rfl,
    bcastRow_eq_asRow, add_bcastRows_eq_addRow1, max_bcastZero_eq_relu,
    hostDot_eq_mm dot_S10000x32_S32x32_S10000x32_1_0_0_1_n_n rfl rfl rfl rfl rfl rfl,
    hostDot_eq_mm dot_S10000x10000_S10000x32_S10000x32_1_0_0_1_n_n rfl rfl rfl rfl rfl rfl,
    bcastRow_eq_asRow, add_bcastRows_eq_addRow1]
  rfl

end Cert.ReferenceIdeal.RefValue

end
-- ==== Proof.RefRun.lean ====
/-
  The reference's run, re-stated at the specification: every weakly fair execution of the reference terminates with the
  fused encoding, the two attention weights and the two graphs' encodings at the specification's functions of the
  argument arrays, the arguments unchanged.

  Each stage the run's terms are composed of is, by unfolding, one of the array expressions read in the preceding
  modules: the two encoders are the same three-layer composition at different arguments, the two scores the same scoring
  network at the two encodings, the weights the softmax of the two scores, the first result the mixing of the two
  encodings by the weights.  Rewriting each by its reading gives the specification's terms.
-/
import proofs.«139367_g38302518346020_cont_8to1_b_1765_3_alg».proof.Proof.Gen.ReferenceIdeal.Run
import proofs.«139367_g38302518346020_cont_8to1_b_1765_3_alg».proof.Proof.Gen.ReferenceIdeal.Read
import proofs.«139367_g38302518346020_cont_8to1_b_1765_3_alg».proof.Proof.Spec
import proofs.«139367_g38302518346020_cont_8to1_b_1765_3_alg».proof.Proof.RefOps
import proofs.«139367_g38302518346020_cont_8to1_b_1765_3_alg».proof.Proof.RefAttn
import proofs.«139367_g38302518346020_cont_8to1_b_1765_3_alg».proof.Proof.RefSoftmax
import proofs.«139367_g38302518346020_cont_8to1_b_1765_3_alg».proof.Proof.RefEncode

noncomputable section

namespace Cert.ReferenceIdeal.RefValue

open Cert.ReferenceIdeal Cert.ReferenceIdeal.Gen Idealize.ShloMosaic Idealize.ShloMosaic.TcCoe Idealize.SL.Sem Idealize.ShloMosaic.StableHlo Cert.GcnSpec

/-! ## The stages, by unfolding -/

theorem v16_raw (x0 : Mat 10000 128) (x1 : Mat 10000 10000) (x4 : Mat 128 64) (x5 : Row 64) (x6 : Mat 64 32) (x7 : Row 32) (x8 : Mat 32 32) (x9 : Row 32) :
    Read.val_main_v16 (F := Ideal) x0 x1 x4 x5 x6 x7 x8 x9 = encRaw x0 x1 x4 x5 x6 x7 x8 x9 := rfl

theorem v33_raw (x2 : Mat 10000 128) (x3 : Mat 10000 10000) (x10 : Mat 128 64) (x11 : Row 64) (x12 : Mat 64 32) (x13 : Row 32) (x14 : Mat 32 32) (x15 : Row 32) :
    Read.val_main_v33 (F := Ideal) x2 x3 x10 x11 x12 x13 x14 x15 = encRaw x2 x3 x10 x11 x12 x13 x14 x15 := rfl

theorem v41_raw (x0 : Mat 10000 128) (x1 : Mat 10000 10000) (x4 : Mat 128 64) (x5 : Row 64) (x6 : Mat 64 32) (x7 : Row 32) (x8 : Mat 32 32) (x9 : Row 32) (x16 : Mat 160 160) (x17 : Row 160) (x18 : Mat 160 1) :
    Read.val_main_v41 (F := Ideal) x0 x1 x4 x5 x6 x7 x8 x9 x16 x17 x18
      = scoreRaw dot_S10000x160_S160x160_S10000x160_1_0_0_1_n_n dot_S10000x160_S160x1_S10000x1_1_0_0_1_n_n concatenates_S10000x32_S10000x128_S10000x160_d1 bcast_S160_S1x160_1 bcast_S1x160_S10000x160_0_1 (Read.val_main_v16 (F := Ideal) x0 x1 x4 x5 x6 x7 x8 x9) x0 x16 x17 x18 := rfl

theorem v47_raw (x2 : Mat 10000 128) (x3 : Mat 10000 10000) (x10 : Mat 128 64) (x11 : Row 64) (x12 : Mat 64 32) (x13 : Row 32) (x14 : Mat 32 32) (x15 : Row 32) (x16 : Mat 160 160) (x17 : Row 160) (x18 : Mat 160 1) :
    Read.val_main_v47 (F := Ideal) x2 x3 x10 x11 x12 x13 x14 x15 x16 x17 x18
      = scoreRaw dot_S10000x160_S160x160_S10000x160_1_0_0_1_n_n dot_S10000x160_S160x1_S10000x1_1_0_0_1_n_n concatenates_S10000x32_S10000x128_S10000x160_d1 bcast_S160_S1x160_1 bcast_S1x160_S10000x160_0_1 (Read.val_main_v33 (F := Ideal) x2 x3 x10 x11 x12 x13 x14 x15) x2 x16 x17 x18 := rfl

theorem v59_raw (x0 : Mat 10000 128) (x1 : Mat 10000 10000) (x2 : Mat 10000 128) (x3 : Mat 10000 10000) (x4 : Mat 128 64) (x5 : Row 64) (x6 : Mat 64 32) (x7 : Row 32) (x8 : Mat 32 32) (x9 : Row 32) (x10 : Mat 128 64) (x11 : Row 64) (x12 : Mat 64 32) (x13 : Row 32) (x14 : Mat 32 32) (x15 : Row 32) (x16 : Mat 160 160) (x17 : Row 160) (x18 : Mat 160 1) :
    Read.val_main_v59 (F := Ideal) x0 x1 x2 x3 x4 x5 x6 x7 x8 x9 x10 x11 x12 x13 x14 x15 x16 x17 x18
      = softmaxRaw concatenates_S10000x1_S10000x1_S10000x2_d1 reducesTo_S10000x2_S10000_d1 h_S_ bcast_S_S10000 bcast_S10000_S10000x1_0 bcast_S10000x1_S10000x2_0_1
          (Read.val_main_v41 (F := Ideal) x0 x1 x4 x5 x6 x7 x8 x9 x16 x17 x18) (Read.val_main_v47 (F := Ideal) x2 x3 x10 x11 x12 x13 x14 x15 x16 x17 x18) := rfl

theorem v66_raw (x0 : Mat 10000 128) (x1 : Mat 10000 10000) (x2 : Mat 10000 128) (x3 : Mat 10000 10000) (x4 : Mat 128 64) (x5 : Row 64) (x6 : Mat 64 32) (x7 : Row 32) (x8 : Mat 32 32) (x9 : Row 32) (x10 : Mat 128 64) (x11 : Row 64) (x12 : Mat 64 32) (x13 : Row 32) (x14 : Mat 32 32) (x15 : Row 32) (x16 : Mat 160 160) (x17 : Row 160) (x18 : Mat 160 1) :
    Read.val_main_v66 (F := Ideal) x0 x1 x2 x3 x4 x5 x6 x7 x8 x9 x10 x11 x12 x13 x14 x15 x16 x17 x18
      = fuseRaw slices_S10000x2_S10000x1_0_0 slices_S10000x2_S10000x1_0_1 bcast_S10000x1_S10000x32_0_1 (Read.val_main_v59 (F := Ideal) x0 x1 x2 x3 x4 x5 x6 x7 x8 x9 x10 x11 x12 x13 x14 x15 x16 x17 x18)
          (Read.val_main_v16 (F := Ideal) x0 x1 x4 x5 x6 x7 x8 x9) (Read.val_main_v33 (F := Ideal) x2 x3 x10 x11 x12 x13 x14 x15) := rfl

/-! ## The stages at the specification -/

theorem v16_spec (x0 : Mat 10000 128) (x1 : Mat 10000 10000) (x4 : Mat 128 64) (x5 : Row 64) (x6 : Mat 64 32) (x7 : Row 32) (x8 : Mat 32 32) (x9 : Row 32) :
    Read.val_main_v16 (F := Ideal) x0 x1 x4 x5 x6 x7 x8 x9 = encode x0 x1 x4 x5 x6 x7 x8 x9 :=
  (v16_raw x0 x1 x4 x5 x6 x7 x8 x9).trans (encRaw_eq x0 x1 x4 x5 x6 x7 x8 x9)

theorem v33_spec (x2 : Mat 10000 128) (x3 : Mat 10000 10000) (x10 : Mat 128 64) (x11 : Row 64) (x12 : Mat 64 32) (x13 : Row 32) (x14 : Mat 32 32) (x15 : Row 32) :
    Read.val_main_v33 (F := Ideal) x2 x3 x10 x11 x12 x13 x14 x15 = encode x2 x3 x10 x11 x12 x13 x14 x15 :=
  (v33_raw x2 x3 x10 x11 x12 x13 x14 x15).trans (encRaw_eq x2 x3 x10 x11 x12 x13 x14 x15)

theorem v41_spec (x0 : Mat 10000 128) (x1 : Mat 10000 10000) (x4 : Mat 128 64) (x5 : Row 64) (x6 : Mat 64 32) (x7 : Row 32) (x8 : Mat 32 32) (x9 : Row 32) (x16 : Mat 160 160) (x17 : Row 160) (x18 : Mat 160 1) :
    Read.val_main_v41 (F := Ideal) x0 x1 x4 x5 x6 x7 x8 x9 x16 x17 x18 = score (encode x0 x1 x4 x5 x6 x7 x8 x9) x0 x16 (asRow x17) x18 := by
  rw [v41_raw, v16_spec]
  exact scoreRaw_eq dot_S10000x160_S160x160_S10000x160_1_0_0_1_n_n dot_S10000x160_S160x1_S10000x1_1_0_0_1_n_n rfl rfl rfl rfl rfl rfl rfl rfl rfl rfl rfl rfl _ _ _ _ _ _ _ _

theorem v47_spec (x2 : Mat 10000 128) (x3 : Mat 10000 10000) (x10 : Mat 128 64) (x11 : Row 64) (x12 : Mat 64 32) (x13 : Row 32) (x14 : Mat 32 32) (x15 : Row 32) (x16 : Mat 160 160) (x17 : Row 160) (x18 : Mat 160 1) :
    Read.val_main_v47 (F := Ideal) x2 x3 x10 x11 x12 x13 x14 x15 x16 x17 x18 = score (encode x2 x3 x10 x11 x12 x13 x14 x15) x2 x16 (asRow x17) x18 := by
  rw [v47_raw, v33_spec]
  exact scoreRaw_eq dot_S10000x160_S160x160_S10000x160_1_0_0_1_n_n dot_S10000x160_S160x1_S10000x1_1_0_0_1_n_n rfl rfl rfl rfl rfl rfl rfl rfl rfl rfl rfl rfl _ _ _ _ _ _ _ _

theorem v59_spec (x0 : Mat 10000 128) (x1 : Mat 10000 10000) (x2 : Mat 10000 128) (x3 : Mat 10000 10000) (x4 : Mat 128 64) (x5 : Row 64) (x6 : Mat 64 32) (x7 : Row 32) (x8 : Mat 32 32) (x9 : Row 32) (x10 : Mat 128 64) (x11 : Row 64) (x12 : Mat 64 32) (x13 : Row 32) (x14 : Mat 32 32) (x15 : Row 32) (x16 : Mat 160 160) (x17 : Row 160) (x18 : Mat 160 1) :
    Read.val_main_v59 (F := Ideal) x0 x1 x2 x3 x4 x5 x6 x7 x8 x9 x10 x11 x12 x13 x14 x15 x16 x17 x18
      = attnWeights (encode x0 x1 x4 x5 x6 x7 x8 x9) x0 (encode x2 x3 x10 x11 x12 x13 x14 x15) x2 x16 (asRow x17) x18 := by
  rw [v59_raw, v41_spec, v47_spec]
  exact softmaxRaw_eq _ _ _ _ _ _ _ _ (by decide)

theorem v66_spec (x0 : Mat 10000 128) (x1 : Mat 10000 10000) (x2 : Mat 10000 128) (x3 : Mat 10000 10000) (x4 : Mat 128 64) (x5 : Row 64) (x6 : Mat 64 32) (x7 : Row 32) (x8 : Mat 32 32) (x9 : Row 32) (x10 : Mat 128 64) (x11 : Row 64) (x12 : Mat 64 32) (x13 : Row 32) (x14 : Mat 32 32) (x15 : Row 32) (x16 : Mat 160 160) (x17 : Row 160) (x18 : Mat 160 1) :
    Read.val_main_v66 (F := Ideal) x0 x1 x2 x3 x4 x5 x6 x7 x8 x9 x10 x11 x12 x13 x14 x15 x16 x17 x18
      = attnFused (encode x0 x1 x4 x5 x6 x7 x8 x9) x0 (encode x2 x3 x10 x11 x12 x13 x14 x15) x2 x16 (asRow x17) x18 := by
  rw [v66_raw, v59_spec, v16_spec, v33_spec]
  exact fuseRaw_weights _ _ _ _ _ _ _

/-! ## The run -/

/-- The launch contents of an argument on a device. -/
abbrev argAt (m : (ℓ : Loc nD τ sig) → Buf (Elt Ideal) ℓ) (c : Dev nD) (b : Ref sig .tc) : Buf (Elt Ideal) ((c.tc : Thread nD τ).loc b) :=
  m ((c.tc : Thread nD τ).loc b)

/-- The first graph's encoding, of its launch contents. -/
def zE (m : (ℓ : Loc nD τ sig) → Buf (Elt Ideal) ℓ) (c : Dev nD) : Mat 10000 32 :=
  encode (n := 10000) (f := 128) (h1 := 64) (h2 := 32) (h3 := 32) (argAt m c main_arg0) (argAt m c main_arg1) (argAt m c main_arg4) (argAt m c main_arg5) (argAt m c main_arg6) (argAt m c main_arg7) (argAt m c main_arg8) (argAt m c main_arg9)

/-- The second graph's encoding, of its launch contents. -/
def zF (m : (ℓ : Loc nD τ sig) → Buf (Elt Ideal) ℓ) (c : Dev nD) : Mat 10000 32 :=
  encode (n := 10000) (f := 128) (h1 := 64) (h2 := 32) (h3 := 32) (argAt m c main_arg2) (argAt m c main_arg3) (argAt m c main_arg10) (argAt m c main_arg11) (argAt m c main_arg12) (argAt m c main_arg13) (argAt m c main_arg14) (argAt m c main_arg15)

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
        r.2.mem ((c.tc : Thread nD τ).loc main_v66) = attnFused (n := 10000) (zE m c) (argAt m c main_arg0) (zF m c) (argAt m c main_arg2) (argAt m c main_arg16) (asRow (d := 160) (argAt m c main_arg17)) (argAt m c main_arg18)
      ∧ r.2.mem ((c.tc : Thread nD τ).loc main_v59) = attnWeights (n := 10000) (zE m c) (argAt m c main_arg0) (zF m c) (argAt m c main_arg2) (argAt m c main_arg16) (asRow (d := 160) (argAt m c main_arg17)) (argAt m c main_arg18)
      ∧ r.2.mem ((c.tc : Thread nD τ).loc main_v16) = zE m c
      ∧ r.2.mem ((c.tc : Thread nD τ).loc main_v33) = zF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    ⟨(h c).1.trans ((Read.val_main_v66_eq (F := Ideal) m c).trans (v66_spec _ _ _ _ _ _ _ _ _ _ _ _ _ _ _ _ _ _ _)),
      (h c).2.1.trans ((Read.val_main_v59_eq (F := Ideal) m c).trans (v59_spec _ _ _ _ _ _ _ _ _ _ _ _ _ _ _ _ _ _ _)),
      (h c).2.2.1.trans (encRaw_eq _ _ _ _ _ _ _ _),
      (h c).2.2.2.1.trans (encRaw_eq _ _ _ _ _ _ _ _),
      (h c).2.2.2.2⟩)
    (Cert.ReferenceIdeal.Value.run (F := Ideal) m ρ)

end Cert.ReferenceIdeal.RefValue

end
-- ==== Proof.lean ====
/-
  Two dense three-layer graph-convolution encoders and a two-view attention, as nine kernel launches, against the
  plain array program.

  Both programs compute, for each graph,  z = adj · (relu(adj · (relu(adj · (x · W₁) + b₁) · W₂) + b₂) · W₃) + b₃  — the
  kernel with each layer's bias, clipping and next projection fused into one launch over 400-row strips of the
  adjacency, the plain program layer by layer; the composition of sums and products is the same, so the encodings
  agree term by term.  The attention scores a view by  tanh([z | x] · Wp₁ + bp₁) · Wp₂ ; the kernel multiplies z and x
  by the matching rows of Wp₁ separately and adds, which is the joined product split at index 32 (associativity and
  commutativity of + only, so no finiteness of the inputs is used).  The softmax over the two views is taken with the
  larger score subtracted on both sides; the plain program's maximum and sum over a two-element axis, from −inf and
  from 0, are  max(w₁, w₂)  and  e₁ + e₂ .

  The pieces: the specification (Spec); the plain program's run read at the specification (RefOps, RefEncode, RefAttn,
  RefSoftmax, RefRun); each launch's output array as one whole-array function of the arrays it finds (RegionProj·,
  RegionMid·, RegionLast·, RegionAttn8); which segment writes which buffer (Ladder); the buffers' contents launch by
  launch (Chain); the whole program's run with every final buffer kept (RunAll) and the four results named
  (KernelRun).  The three frame statements are the generated frames; nothing was rewritten by the idealization, so
  that conjunct is trivial.
-/
import proofs.«139367_g38302518346020_cont_8to1_b_1765_3_alg».proof.Defs
import proofs.«139367_g38302518346020_cont_8to1_b_1765_3_alg».proof.Proof.Gen.Kernel
import proofs.«139367_g38302518346020_cont_8to1_b_1765_3_alg».proof.Proof.Gen.Kernel.Skeleton
import proofs.«139367_g38302518346020_cont_8to1_b_1765_3_alg».proof.Proof.Gen.Kernel.Launch
import proofs.«139367_g38302518346020_cont_8to1_b_1765_3_alg».proof.Proof.Gen.Kernel.Points
import proofs.«139367_g38302518346020_cont_8to1_b_1765_3_alg».proof.Proof.Gen.Kernel.Frame
import proofs.«139367_g38302518346020_cont_8to1_b_1765_3_alg».proof.Proof.Gen.KernelIdeal
import proofs.«139367_g38302518346020_cont_8to1_b_1765_3_alg».proof.Proof.Gen.KernelIdeal.Skeleton
import proofs.«139367_g38302518346020_cont_8to1_b_1765_3_alg».proof.Proof.Gen.KernelIdeal.Launch
import proofs.«139367_g38302518346020_cont_8to1_b_1765_3_alg».proof.Proof.Gen.KernelIdeal.Points
import proofs.«139367_g38302518346020_cont_8to1_b_1765_3_alg».proof.Proof.Gen.KernelIdeal.Frame
import proofs.«139367_g38302518346020_cont_8to1_b_1765_3_alg».proof.Proof.Gen.ReferenceIdeal
import proofs.«139367_g38302518346020_cont_8to1_b_1765_3_alg».proof.Proof.Gen.Pre_finite_inputs
import proofs.«139367_g38302518346020_cont_8to1_b_1765_3_alg».proof.Proof.Gen.ReferenceIdeal.Run
import proofs.«139367_g38302518346020_cont_8to1_b_1765_3_alg».proof.Proof.Gen.ReferenceIdeal.Read
import proofs.«139367_g38302518346020_cont_8to1_b_1765_3_alg».proof.Proof.KernelRun
import proofs.«139367_g38302518346020_cont_8to1_b_1765_3_alg».proof.Proof.RefRun
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts := fun m ρ _ => Cert.Kernel.Gen.frame m ρ

theorem frame_ki : @Cert.frame_KernelIdeal Cert.KernelIdeal.Gen.facts Cert.Pre_finite_inputs.Gen.facts := fun m ρ _ => Cert.KernelIdeal.Gen.frame m ρ

/-- The plain program's frame: its generated run with the four results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2.2.2) (Cert.ReferenceIdeal.Value.run (F := Ideal) m ρ)

/-- From memories agreeing on the nineteen arguments both programs end with the same four results: each side's run
    ends at the specification's term of its own arguments, and the arguments agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, _, Cert.KernelIdeal.Final.kernel_run m ρ, ?_⟩
  refine (θ_run Cert.ReferenceIdeal.defs _ _).mono (fun r h c => ?_) (Cert.ReferenceIdeal.RefValue.run_spec m' ρ')
  obtain ⟨a0, a1, a2, a3, a4, a5, a6, a7, a8, a9, a10, a11, a12, a13, a14, a15, a16, a17, a18⟩ := hagree c
  have hze : Cert.ReferenceIdeal.RefValue.zE m' c = Cert.KernelIdeal.Chain.Ze m c := by
    rw [Cert.KernelIdeal.Chain.Ze_eq]
    show GcnSpec.encode (n := 10000) (f := 128) (h1 := 64) (h2 := 32) (h3 := 32) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [a0, a1, a4, a5, a6, a7, a8, a9]
  have hzf : Cert.ReferenceIdeal.RefValue.zF m' c = Cert.KernelIdeal.Chain.Zf m c := by
    rw [Cert.KernelIdeal.Chain.Zf_eq]
    show GcnSpec.encode (n := 10000) (f := 128) (h1 := 64) (h2 := 32) (h3 := 32) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
    rw [a2, a3, a10, a11, a12, a13, a14, a15]
  refine ⟨(h c).1.trans ?_, (h c).2.1.trans ?_, (h c).2.2.1.trans hze, (h c).2.2.2.1.trans hzf, (h c).2.2.2.2⟩
  · rw [hze, hzf]
    show GcnSpec.attnFused (n := 10000) _ (m' ((c.tc : Thread Cert.ReferenceIdeal.nD Cert.ReferenceIdeal.τ).loc Cert.ReferenceIdeal.main_arg0)) _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg16)) (GcnSpec.asRow (d := 160) (m' ((c.tc : Thread Cert.ReferenceIdeal.nD Cert.ReferenceIdeal.τ).loc Cert.ReferenceIdeal.main_arg17))) (m' ((c.tc : Thread Cert.ReferenceIdeal.nD Cert.ReferenceIdeal.τ).loc Cert.ReferenceIdeal.main_arg18)) = _
    rw [a0, a2, a16, a17, a18]
  · rw [hze, hzf]
    show GcnSpec.attnWeights (n := 10000) _ (m' ((c.tc : Thread Cert.ReferenceIdeal.nD Cert.ReferenceIdeal.τ).loc Cert.ReferenceIdeal.main_arg0)) _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg16)) (GcnSpec.asRow (d := 160) (m' ((c.tc : Thread Cert.ReferenceIdeal.nD Cert.ReferenceIdeal.τ).loc Cert.ReferenceIdeal.main_arg17))) (m' ((c.tc : Thread Cert.ReferenceIdeal.nD Cert.ReferenceIdeal.τ).loc Cert.ReferenceIdeal.main_arg18)) = _
    rw [a0, a2, a16, a17, a18]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
